-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000 : Shape := ⟨1, ![50000]⟩
abbrev S2x800000 : Shape := ⟨2, ![2, 800000]⟩
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x2 : S_.BroadcastsInDim S64x2 (![] : Fin 0 → Fin S64x2.rank)
  reducesTo_S64x2_S_d0_1 : S64x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg7 : FVec F S64 .f32) (main_arg8 : FVec F S64x2 .f32) (main_arg9 : FVec F S2 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg7
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x2 .f32 := Host.absf main_arg8
  let main_cst_8 : FVec F S_ .f32 := constant S_ .f32 0x7F800000#32
  let main_v25 : FVec F S64x2 .f32 := broadcastInDim S64x2 ![] bcast_S_S64x2 main_cst_8
  let main_v26 : IVec S64x2 1 := cmpf .olt main_v24 main_v25
  let main_c_9 : IVec S_ 1 := constantI S_ 1 1#1
  let main_v27 : IVec S_ 1 := (fun x v => Host.reduce IntOp.andi x v reducesTo_S64x2_S_d0_1 h_S_) main_v26 main_c_9
  let main_v28 : IVec S_ 1 := andi main_v23 main_v27
  let main_v29 : FVec F S2 .f32 := Host.absf main_arg9
  let main_cst_10 : FVec F S_ .f32 := constant S_ .f32 0x7F800000#32
  let main_v30 : FVec F S2 .f32 := broadcastInDim S2 ![] bcast_S_S2 main_cst_10
  let main_v31 : IVec S2 1 := cmpf .olt main_v29 main_v30
  let main_c_11 : IVec S_ 1 := constantI S_ 1 1#1
  let main_v32 : IVec S_ 1 := (fun x v => Host.reduce IntOp.andi x v reducesTo_S2_S_d0 h_S_) main_v31 main_c_11
  let main_v33 : IVec S_ 1 := andi main_v28 main_v32
  main_v33

def fn {F : FTy → Type} [FloatOps F] (main_arg0 : IVec S50000 32) (main_arg1 : IVec S2x800000 32) (main_arg2 : IVec S50000 32) (main_arg3 : FVec F S100000x64 .f32) (main_arg4 : FVec F S64x64 .f32) (main_arg5 : FVec F S64 .f32) (main_arg6 : FVec F S64x64 .f32) (main_arg7 : FVec F S64 .f32) (main_arg8 : FVec F S64x2 .f32) (main_arg9 : FVec F S2 .f32) : IVec S_ 1 :=
  let main_v0 : FVec F S100000x64 .f32 := Host.absf main_arg3
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg4
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg5
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg6
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg7 main_arg8 main_arg9 main_v13 main_v16
-- ==== Kernel.lean ====
abbrev S50000 : Shape := ⟨1, ![50000]⟩
abbrev S2x800000 : Shape := ⟨2, ![2, 800000]⟩
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x64 : Shape := ⟨2, ![50000, 64]⟩
abbrev S2000x64 : Shape := ⟨2, ![2000, 64]⟩
abbrev S2000x1 : Shape := ⟨2, ![2000, 1]⟩
abbrev S850000x64 : Shape := ⟨2, ![850000, 64]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S1x2 : Shape := ⟨2, ![1, 2]⟩
abbrev S128x2 : Shape := ⟨2, ![128, 2]⟩

abbrev nBuf : Space → Nat
  | .hbm => 87
  | .vmem => 27
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S50000, .i32⟩
  | .hbm, ⟨34, _⟩ => ⟨S50000, .i1⟩
  | .hbm, ⟨35, _⟩ => ⟨S_, .i32⟩
  | .hbm, ⟨36, _⟩ => ⟨S50000, .i32⟩
  | .hbm, ⟨37, _⟩ => ⟨S50000, .i32⟩
  | .hbm, ⟨38, _⟩ => ⟨S50000, .i32⟩
  | .hbm, ⟨39, _⟩ => ⟨S50000x1, .i32⟩
  | .hbm, ⟨40, _⟩ => ⟨S50000x64, .f32⟩
  | .hbm, ⟨41, _⟩ => ⟨S50000x64, .bf16⟩
  | .hbm, ⟨42, _⟩ => ⟨S_, .i32⟩
  | .hbm, ⟨43, _⟩ => ⟨S850000, .i32⟩
  | .hbm, ⟨44, _⟩ => ⟨S850000, .i1⟩
  | .hbm, ⟨45, _⟩ => ⟨S_, .i32⟩
  | .hbm, ⟨46, _⟩ => ⟨S850000, .i32⟩
  | .hbm, ⟨47, _⟩ => ⟨S850000, .i32⟩
  | .hbm, ⟨48, _⟩ => ⟨S850000, .i32⟩
  | .hbm, ⟨49, _⟩ => ⟨S850000x1, .i32⟩
  | .hbm, ⟨50, _⟩ => ⟨S850000x64, .bf16⟩
  | .hbm, ⟨51, _⟩ => ⟨S850000x64, .f32⟩
  | .hbm, ⟨52, _⟩ => ⟨S_, .f32⟩
  | .hbm, ⟨53, _⟩ => ⟨S50000x64, .f32⟩
  | .hbm, ⟨54, _⟩ => ⟨S850000x1, .i32⟩
  | .hbm, ⟨55, _⟩ => ⟨S50000x64, .f32⟩
  | .hbm, ⟨56, _⟩ => ⟨S1x64, .f32⟩
  | .hbm, ⟨57, _⟩ => ⟨S50000x64, .bf16⟩
  | .hbm, ⟨58, _⟩ => ⟨S_, .i32⟩
  | .hbm, ⟨59, _⟩ => ⟨S850000, .i32⟩
  | .hbm, ⟨60, _⟩ => ⟨S850000, .i1⟩
  | .hbm, ⟨61, _⟩ => ⟨S_, .i32⟩
  | .hbm, ⟨62, _⟩ => ⟨S850000, .i32⟩
  | .hbm, ⟨63, _⟩ => ⟨S850000, .i32⟩
  | .hbm, ⟨64, _⟩ => ⟨S850000, .i32⟩
  | .hbm, ⟨65, _⟩ => ⟨S850000x1, .i32⟩
  | .hbm, ⟨66, _⟩ => ⟨S850000x64, .bf16⟩
  | .hbm, ⟨67, _⟩ => ⟨S850000x64, .f32⟩
  | .hbm, ⟨68, _⟩ => ⟨S_, .f32⟩
  | .hbm, ⟨69, _⟩ => ⟨S50000x64, .f32⟩
  | .hbm, ⟨70, _⟩ => ⟨S850000x1, .i32⟩
  | .hbm, ⟨71, _⟩ => ⟨S50000x64, .f32⟩
  | .hbm, ⟨72, _⟩ => ⟨S1x64, .f32⟩
  | .hbm, ⟨73, _⟩ => ⟨S50000x64, .f32⟩
  | .hbm, ⟨74, _⟩ => ⟨S_, .f32⟩
  | .hbm, ⟨75, _⟩ => ⟨S128x64, .f32⟩
  | .hbm, ⟨76, _⟩ => ⟨S50000x1, .i32⟩
  | .hbm, ⟨77, _⟩ => ⟨S128x64, .f32⟩
  | .hbm, ⟨78, _⟩ => ⟨S_, .f32⟩
  | .hbm, ⟨79, _⟩ => ⟨S50000, .f32⟩
  | .hbm, ⟨80, _⟩ => ⟨S_, .f32⟩
  | .hbm, ⟨81, _⟩ => ⟨S128, .f32⟩
  | .hbm, ⟨82, _⟩ => ⟨S50000x1, .i32⟩
  | .hbm, ⟨83, _⟩ => ⟨S128, .f32⟩
  | .hbm, ⟨84, _⟩ => ⟨S128x1, .f32⟩
  | .hbm, ⟨85, _⟩ => ⟨S1x2, .f32⟩
  | .hbm, ⟨86, _⟩ => ⟨S128x2, .f32⟩
  | .local _ .vmem, ⟨0, _⟩ => ⟨S2000x64, .f32⟩
  | .local _ .vmem, ⟨1, _⟩ => ⟨S2000x64, .f32⟩
  | .local _ .vmem, ⟨2, _⟩ => ⟨S64x64, .f32⟩
  | .local _ .vmem, ⟨3, _⟩ => ⟨S2000x1, .f32⟩
  | .local _ .vmem, ⟨4, _⟩ => ⟨S2000x1, .f32⟩
  | .local _ .vmem, ⟨5, _⟩ => ⟨S2000x64, .bf16⟩
  | .local _ .vmem, ⟨6, _⟩ => ⟨S2000x64, .bf16⟩
  | .local _ .vmem, ⟨7, _⟩ => ⟨S2000x64, .f32⟩
  | .local _ .vmem, ⟨8, _⟩ => ⟨S2000x64, .f32⟩
  | .local _ .vmem, ⟨9, _⟩ => ⟨S2000x1, .f32⟩
  | .local _ .vmem, ⟨10, _⟩ => ⟨S2000x1, .f32⟩
  | .local _ .vmem, ⟨11, _⟩ => ⟨S1x64, .f32⟩
  | .local _ .vmem, ⟨12, _⟩ => ⟨S64x64, .f32⟩
  | .local _ .vmem, ⟨13, _⟩ => ⟨S2000x64, .bf16⟩
  | .local _ .vmem, ⟨14, _⟩ => ⟨S2000x64, .bf16⟩
  | .local _ .vmem, ⟨15, _⟩ => ⟨S2000x64, .f32⟩
  | .local _ .vmem, ⟨16, _⟩ => ⟨S2000x64, .f32⟩
  | .local _ .vmem, ⟨17, _⟩ => ⟨S2000x1, .f32⟩
  | .local _ .vmem, ⟨18, _⟩ => ⟨S2000x1, .f32⟩
  | .local _ .vmem, ⟨19, _⟩ => ⟨S1x64, .f32⟩
  | .local _ .vmem, ⟨20, _⟩ => ⟨S2000x64, .f32⟩
  | .local _ .vmem, ⟨21, _⟩ => ⟨S2000x64, .f32⟩
  | .local _ .vmem, ⟨22, _⟩ => ⟨S128x64, .f32⟩
  | .local _ .vmem, ⟨23, _⟩ => ⟨S128x1, .f32⟩
  | .local _ .vmem, ⟨24, _⟩ => ⟨S64x2, .f32⟩
  | .local _ .vmem, ⟨25, _⟩ => ⟨S1x2, .f32⟩
  | .local _ .vmem, ⟨26, _⟩ => ⟨S128x2, .f32⟩
  | _, _ => ⟨S50000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_v15 : Ref sig .tc := ⟨.hbm, 31, rfl⟩
abbrev main_c : Ref sig .tc := ⟨.hbm, 32, rfl⟩
abbrev main_v16 : Ref sig .tc := ⟨.hbm, 33, rfl⟩
abbrev main_v17 : Ref sig .tc := ⟨.hbm, 34, rfl⟩
abbrev main_c_3 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_c_4 : Ref sig .tc := ⟨.hbm, 42, rfl⟩
abbrev main_v24 : Ref sig .tc := ⟨.hbm, 43, rfl⟩
abbrev main_v25 : Ref sig .tc := ⟨.hbm, 44, rfl⟩
abbrev main_c_5 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_cst_6 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_v37 : Ref sig .tc := ⟨.hbm, 59, rfl⟩
abbrev main_v38 : Ref sig .tc := ⟨.hbm, 60, rfl⟩
abbrev main_c_8 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_cst_9 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_cst_10 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_cst_11 : Ref sig .tc := ⟨.hbm, 78, rfl⟩
abbrev main_v53 : Ref sig .tc := ⟨.hbm, 79, rfl⟩
abbrev main_cst_12 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg3_1 : Ref sig .tc := ⟨.vmem, 21, rfl⟩
abbrev cc3_stg0_0 : Ref sig .tc := ⟨.vmem, 22, rfl⟩
abbrev cc3_stg1_0 : Ref sig .tc := ⟨.vmem, 23, rfl⟩
abbrev cc3_stg2_0 : Ref sig .tc := ⟨.vmem, 24, rfl⟩
abbrev cc3_stg3_0 : Ref sig .tc := ⟨.vmem, 25, rfl⟩
abbrev cc3_stg4_0 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem3_1 : DmaSem sig := 21
abbrev cc3_sem0_0 : DmaSem sig := 22
abbrev cc3_sem1_0 : DmaSem sig := 23
abbrev cc3_sem2_0 : DmaSem sig := 24
abbrev cc3_sem3_0 : DmaSem sig := 25
abbrev cc3_sem4_0 : DmaSem sig := 26

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S64x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x64 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![1], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 1 → Memref sig .tc .vmem S128x64 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![false]

abbrev stage3_1 : Fin 1 → Memref sig .tc .vmem S128x1 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S64x2 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x2 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S128x2 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  bcast_S50000_S50000x1_0 : S50000.BroadcastsInDim S50000x1 (![0] : Fin 1 → Fin S50000x1.rank)
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x64 : S2000x1.Broadcasts S2000x64
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S64_S1x64 : S64.ShapeCasts S1x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S128x64 : S_.BroadcastsInDim S128x64 (![] : Fin 0 → Fin S128x64.rank)
  bcast_S_S128 : S_.BroadcastsInDim S128 (![] : Fin 0 → Fin S128.rank)
  shapeCasts_S128_S128x1 : S128.ShapeCasts S128x1
  shapeCasts_S2_S1x2 : S2.ShapeCasts S1x2
  inb_S128x1_S128x1_0_0 : ∀ a, (![0, 0] : Fin 2 → Nat) a + S128x1.size a ≤ S128x1.size a
  h_S128x1 : 0 < S128x1.numel
  shapeCasts_S128x1_S128x1 : S128x1.ShapeCasts S128x1
  inb_S128x64_S128x64_0_0 : ∀ a, (![0, 0] : Fin 2 → Nat) a + S128x64.size a ≤ S128x64.size a
  h_S128x64 : 0 < S128x64.numel
  shapeCasts_S128x64_S128x64 : S128x64.ShapeCasts S128x64
  broadcasts_S128x1_S128x64 : S128x1.Broadcasts S128x64
  inb_S64x2_S64x2_0_0 : ∀ a, (![0, 0] : Fin 2 → Nat) a + S64x2.size a ≤ S64x2.size a
  h_S64x2 : 0 < S64x2.numel
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S128x2 : S1x2.Broadcasts S128x2
  inb_S128x2_S128x2_0_0 : ∀ a, (![0, 0] : Fin 2 → Nat) a + S128x2.size a ≤ S128x2.size a
  h_S128x2 : 0 < S128x2.numel
  scatter_S50000_S850000x1_S850000_n_0_0_1_wf : ScatterDims.WF S50000 S850000x1 S850000 [] [0] [0] 1
  gather_S100000x64_S50000x1_S50000x64_1_0_n_n_0_1_164_wf : GatherDims.WF S100000x64 S50000x1 S50000x64 [1] [0] [] [0] [] 1 ![1, 64]
  dot_S2000x64_S64x64_S2000x64_1_0_0_1_n_n_wf : DotDims.WF S2000x64 S64x64 S2000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1
  dot_S128x64_S64x2_S128x2_1_0_0_1_n_n_wf : DotDims.WF S128x64 S64x2 S128x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x64.size a ≤ S50000x64.size a
  hwx0_3 : ∀ i : grid0.Coords, EltTy.bits .bf16 = 32 ∨ (Rect.block (s := S50000x64) S2000x64.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S64x64.size a ≤ S64x64.size a
  hwx1_3 : ∀ i : grid1.Coords, EltTy.bits .f32 = 32 ∨ (Rect.block (s := S64x64) S64x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x64.size a ≤ S50000x64.size a
  hwx1_4 : ∀ i : grid1.Coords, EltTy.bits .bf16 = 32 ∨ (Rect.block (s := S50000x64) S2000x64.size (cc1_transform_4 i) (hinb1_4 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S50000x1.size a
  hwx2_1 : ∀ i : grid2.Coords, EltTy.bits .f32 = 32 ∨ (Rect.block (s := S50000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 true = 1
  hreads3_0 : ∀ i i' : grid3.Coords, (∀ a, reads3_0 a = true → i a = i' a) → cc3_transform_0 i = cc3_transform_0 i'
  hinb3_0 : ∀ (i : grid3.Coords) a, (cc3_transform_0 i a + 1) * S128x64.size a ≤ S128x64.size a
  hwx3_0 : ∀ i : grid3.Coords, EltTy.bits .f32 = 32 ∨ (Rect.block (s := S128x64) S128x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x1.size a ≤ S128x1.size a
  hwx3_1 : ∀ i : grid3.Coords, EltTy.bits .f32 = 32 ∨ (Rect.block (s := S128x1) S128x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x2.size a ≤ S64x2.size a
  hwx3_2 : ∀ i : grid3.Coords, EltTy.bits .f32 = 32 ∨ (Rect.block (s := S64x2) S64x2.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x2.size a ≤ S1x2.size a
  hwx3_3 : ∀ i : grid3.Coords, EltTy.bits .f32 = 32 ∨ (Rect.block (s := S1x2) S1x2.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S128x2.size a ≤ S128x2.size a
  hwx3_4 : ∀ i : grid3.Coords, EltTy.bits .f32 = 32 ∨ (Rect.block (s := S128x2) S128x2.size (cc3_transform_4 i) (hinb3_4 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

abbrev win0_0 : Pipeline.Window sig grid0 :=
  Pipeline.Window.ofSpec (Memref.whole main_v22) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v23) S2000x64.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v34) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v35) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S64x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v36) S2000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v47) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v15) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v49) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v52) S128x64.size cc3_transform_0 reads3_0 false true 1 stage3_0 sem3_0
    hrank3 hreads3_0 hinb3_0 nbuf3_0 (Memref.isWhole_whole _) hwx3_0 hstage3_0

abbrev win3_1 : Pipeline.Window sig grid3 :=
  Pipeline.Window.ofSpec (Memref.whole main_v57) S128x1.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_arg8) S64x2.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v58) S1x2.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v59) S128x2.size cc3_transform_4 reads3_4 true true 1 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

class Facts : Prop extends Facts₀ where

variable [Facts]
-- ==== ReferenceIdeal.lean ====
abbrev S50000 : Shape := ⟨1, ![50000]⟩
abbrev S2x800000 : Shape := ⟨2, ![2, 800000]⟩
abbrev S100000x64 : Shape := ⟨2, ![100000, 64]⟩
abbrev S64x64 : Shape := ⟨2, ![64, 64]⟩
abbrev S64 : Shape := ⟨1, ![64]⟩
abbrev S64x2 : Shape := ⟨2, ![64, 2]⟩
abbrev S2 : Shape := ⟨1, ![2]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S50000x64 : Shape := ⟨2, ![50000, 64]⟩
abbrev S850000x64 : Shape := ⟨2, ![850000, 64]⟩
abbrev S1x64 : Shape := ⟨2, ![1, 64]⟩
abbrev S128x64 : Shape := ⟨2, ![128, 64]⟩
abbrev S128 : Shape := ⟨1, ![128]⟩
abbrev S128x1 : Shape := ⟨2, ![128, 1]⟩
abbrev S128x2 : Shape := ⟨2, ![128, 2]⟩
abbrev S1x2 : Shape := ⟨2, ![1, 2]⟩

abbrev nBuf : Space → Nat
  | .hbm => 125
  | .vmem => 0
  | .smem => 0
  | _ => 0

abbrev bufTy : (tb : Table) → Fin (tcTables nBuf tb) → BufTy
  | .hbm, ⟨0, _⟩ => ⟨S50000, .i32⟩
  | .hbm, ⟨1, _⟩ => ⟨S2x800000, .i32⟩
  | .hbm, ⟨2, _⟩ => ⟨S50000, .i32⟩
  | .hbm, ⟨3, _⟩ => ⟨S100000x64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S64x2, .f32⟩
  | .hbm, ⟨9, _⟩ => ⟨S2, .f32⟩
  | .hbm, ⟨10, _⟩ => ⟨S50000, .i32⟩
  | .hbm, ⟨11, _⟩ => ⟨S1x800000, .i32⟩
  | .hbm, ⟨12, _⟩ => ⟨S800000, .i32⟩
  | .hbm, ⟨13, _⟩ => ⟨S850000, .i32⟩
  | .hbm, ⟨14, _⟩ => ⟨S1x800000, .i32⟩
  | .hbm, ⟨15, _⟩ => ⟨S800000, .i32⟩
  | .hbm, ⟨16, _⟩ => ⟨S850000, .i32⟩
  | .hbm, ⟨17, _⟩ => ⟨S_, .f32⟩
  | .hbm, ⟨18, _⟩ => ⟨S850000, .f32⟩
  | .hbm, ⟨19, _⟩ => ⟨S_, .f32⟩
  | .hbm, ⟨20, _⟩ => ⟨S50000, .f32⟩
  | .hbm, ⟨21, _⟩ => ⟨S850000x1, .i32⟩
  | .hbm, ⟨22, _⟩ => ⟨S50000, .f32⟩
  | .hbm, ⟨23, _⟩ => ⟨S_, .f32⟩
  | .hbm, ⟨24, _⟩ => ⟨S50000, .f32⟩
  | .hbm, ⟨25, _⟩ => ⟨S50000, .i1⟩
  | .hbm, ⟨26, _⟩ => ⟨S50000, .f32⟩
  | .hbm, ⟨27, _⟩ => ⟨S_, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S_, .i32⟩
  | .hbm, ⟨32, _⟩ => ⟨S850000, .i32⟩
  | .hbm, ⟨33, _⟩ => ⟨S850000, .i1⟩
  | .hbm, ⟨34, _⟩ => ⟨S_, .i32⟩
  | .hbm, ⟨35, _⟩ => ⟨S850000, .i32⟩
  | .hbm, ⟨36, _⟩ => ⟨S850000, .i32⟩
  | .hbm, ⟨37, _⟩ => ⟨S850000, .i32⟩
  | .hbm, ⟨38, _⟩ => ⟨S850000x1, .i32⟩
  | .hbm, ⟨39, _⟩ => ⟨S850000, .f32⟩
  | .hbm, ⟨40, _⟩ => ⟨S_, .i32⟩
  | .hbm, ⟨41, _⟩ => ⟨S850000, .i32⟩
  | .hbm, ⟨42, _⟩ => ⟨S850000, .i1⟩
  | .hbm, ⟨43, _⟩ => ⟨S_, .i32⟩
  | .hbm, ⟨44, _⟩ => ⟨S850000, .i32⟩
  | .hbm, ⟨45, _⟩ => ⟨S850000, .i32⟩
  | .hbm, ⟨46, _⟩ => ⟨S850000, .i32⟩
  | .hbm, ⟨47, _⟩ => ⟨S850000x1, .i32⟩
  | .hbm, ⟨48, _⟩ => ⟨S850000, .f32⟩
  | .hbm, ⟨49, _⟩ => ⟨S850000, .f32⟩
  | .hbm, ⟨50, _⟩ => ⟨S_, .i32⟩
  | .hbm, ⟨51, _⟩ => ⟨S50000, .i32⟩
  | .hbm, ⟨52, _⟩ => ⟨S50000, .i1⟩
  | .hbm, ⟨53, _⟩ => ⟨S_, .i32⟩
  | .hbm, ⟨54, _⟩ => ⟨S50000, .i32⟩
  | .hbm, ⟨55, _⟩ => ⟨S50000, .i32⟩
  | .hbm, ⟨56, _⟩ => ⟨S50000, .i32⟩
  | .hbm, ⟨57, _⟩ => ⟨S50000x1, .i32⟩
  | .hbm, ⟨58, _⟩ => ⟨S50000x64, .f32⟩
  | .hbm, ⟨59, _⟩ => ⟨S50000x64, .f32⟩
  | .hbm, ⟨60, _⟩ => ⟨S_, .i32⟩
  | .hbm, ⟨61, _⟩ => ⟨S850000, .i32⟩
  | .hbm, ⟨62, _⟩ => ⟨S850000, .i1⟩
  | .hbm, ⟨63, _⟩ => ⟨S_, .i32⟩
  | .hbm, ⟨64, _⟩ => ⟨S850000, .i32⟩
  | .hbm, ⟨65, _⟩ => ⟨S850000, .i32⟩
  | .hbm, ⟨66, _⟩ => ⟨S850000, .i32⟩
  | .hbm, ⟨67, _⟩ => ⟨S850000x1, .i32⟩
  | .hbm, ⟨68, _⟩ => ⟨S850000x64, .f32⟩
  | .hbm, ⟨69, _⟩ => ⟨S850000x1, .f32⟩
  | .hbm, ⟨70, _⟩ => ⟨S850000x64, .f32⟩
  | .hbm, ⟨71, _⟩ => ⟨S850000x64, .f32⟩
  | .hbm, ⟨72, _⟩ => ⟨S_, .f32⟩
  | .hbm, ⟨73, _⟩ => ⟨S50000x64, .f32⟩
  | .hbm, ⟨74, _⟩ => ⟨S850000x1, .i32⟩
  | .hbm, ⟨75, _⟩ => ⟨S50000x64, .f32⟩
  | .hbm, ⟨76, _⟩ => ⟨S1x64, .f32⟩
  | .hbm, ⟨77, _⟩ => ⟨S50000x64, .f32⟩
  | .hbm, ⟨78, _⟩ => ⟨S50000x64, .f32⟩
  | .hbm, ⟨79, _⟩ => ⟨S_, .f32⟩
  | .hbm, ⟨80, _⟩ => ⟨S50000x64, .f32⟩
  | .hbm, ⟨81, _⟩ => ⟨S50000x64, .f32⟩
  | .hbm, ⟨82, _⟩ => ⟨S50000x64, .f32⟩
  | .hbm, ⟨83, _⟩ => ⟨S_, .i32⟩
  | .hbm, ⟨84, _⟩ => ⟨S850000, .i32⟩
  | .hbm, ⟨85, _⟩ => ⟨S850000, .i1⟩
  | .hbm, ⟨86, _⟩ => ⟨S_, .i32⟩
  | .hbm, ⟨87, _⟩ => ⟨S850000, .i32⟩
  | .hbm, ⟨88, _⟩ => ⟨S850000, .i32⟩
  | .hbm, ⟨89, _⟩ => ⟨S850000, .i32⟩
  | .hbm, ⟨90, _⟩ => ⟨S850000x1, .i32⟩
  | .hbm, ⟨91, _⟩ => ⟨S850000x64, .f32⟩
  | .hbm, ⟨92, _⟩ => ⟨S850000x1, .f32⟩
  | .hbm, ⟨93, _⟩ => ⟨S850000x64, .f32⟩
  | .hbm, ⟨94, _⟩ => ⟨S850000x64, .f32⟩
  | .hbm, ⟨95, _⟩ => ⟨S_, .f32⟩
  | .hbm, ⟨96, _⟩ => ⟨S50000x64, .f32⟩
  | .hbm, ⟨97, _⟩ => ⟨S850000x1, .i32⟩
  | .hbm, ⟨98, _⟩ => ⟨S50000x64, .f32⟩
  | .hbm, ⟨99, _⟩ => ⟨S1x64, .f32⟩
  | .hbm, ⟨100, _⟩ => ⟨S50000x64, .f32⟩
  | .hbm, ⟨101, _⟩ => ⟨S50000x64, .f32⟩
  | .hbm, ⟨102, _⟩ => ⟨S_, .f32⟩
  | .hbm, ⟨103, _⟩ => ⟨S50000x64, .f32⟩
  | .hbm, ⟨104, _⟩ => ⟨S50000x64, .f32⟩
  | .hbm, ⟨105, _⟩ => ⟨S_, .f32⟩
  | .hbm, ⟨106, _⟩ => ⟨S128x64, .f32⟩
  | .hbm, ⟨107, _⟩ => ⟨S50000x1, .i32⟩
  | .hbm, ⟨108, _⟩ => ⟨S128x64, .f32⟩
  | .hbm, ⟨109, _⟩ => ⟨S_, .f32⟩
  | .hbm, ⟨110, _⟩ => ⟨S50000, .f32⟩
  | .hbm, ⟨111, _⟩ => ⟨S_, .f32⟩
  | .hbm, ⟨112, _⟩ => ⟨S128, .f32⟩
  | .hbm, ⟨113, _⟩ => ⟨S50000x1, .i32⟩
  | .hbm, ⟨114, _⟩ => ⟨S128, .f32⟩
  | .hbm, ⟨115, _⟩ => ⟨S_, .f32⟩
  | .hbm, ⟨116, _⟩ => ⟨S128, .f32⟩
  | .hbm, ⟨117, _⟩ => ⟨S128, .f32⟩
  | .hbm, ⟨118, _⟩ => ⟨S128x1, .f32⟩
  | .hbm, ⟨119, _⟩ => ⟨S128x64, .f32⟩
  | .hbm, ⟨120, _⟩ => ⟨S128x64, .f32⟩
  | .hbm, ⟨121, _⟩ => ⟨S128x2, .f32⟩
  | .hbm, ⟨122, _⟩ => ⟨S1x2, .f32⟩
  | .hbm, ⟨123, _⟩ => ⟨S128x2, .f32⟩
  | .hbm, ⟨124, _⟩ => ⟨S128x2, .f32⟩
  | _, _ => ⟨S50000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst : Ref sig .tc := ⟨.hbm, 17, rfl⟩
abbrev main_v7 : Ref sig .tc := ⟨.hbm, 18, rfl⟩
abbrev main_cst_0 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_cst_1 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_cst_2 : Ref sig .tc := ⟨.hbm, 27, rfl⟩
abbrev main_call0_v0 : Ref sig .tc := ⟨.hbm, 28, rfl⟩
abbrev main_call0_v1 : Ref sig .tc := ⟨.hbm, 29, rfl⟩
abbrev main_v14 : Ref sig .tc := ⟨.hbm, 30, rfl⟩
abbrev main_c : Ref sig .tc := ⟨.hbm, 31, rfl⟩
abbrev main_v15 : Ref sig .tc := ⟨.hbm, 32, rfl⟩
abbrev main_v16 : Ref sig .tc := ⟨.hbm, 33, rfl⟩
abbrev main_c_3 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_4 : Ref sig .tc := ⟨.hbm, 40, rfl⟩
abbrev main_v22 : Ref sig .tc := ⟨.hbm, 41, rfl⟩
abbrev main_v23 : Ref sig .tc := ⟨.hbm, 42, rfl⟩
abbrev main_c_5 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_6 : Ref sig .tc := ⟨.hbm, 50, rfl⟩
abbrev main_v30 : Ref sig .tc := ⟨.hbm, 51, rfl⟩
abbrev main_v31 : Ref sig .tc := ⟨.hbm, 52, rfl⟩
abbrev main_c_7 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_c_8 : Ref sig .tc := ⟨.hbm, 60, rfl⟩
abbrev main_v38 : Ref sig .tc := ⟨.hbm, 61, rfl⟩
abbrev main_v39 : Ref sig .tc := ⟨.hbm, 62, rfl⟩
abbrev main_c_9 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_cst_10 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_call1_cst : Ref sig .tc := ⟨.hbm, 79, rfl⟩
abbrev main_call1_v0 : Ref sig .tc := ⟨.hbm, 80, rfl⟩
abbrev main_v54 : Ref sig .tc := ⟨.hbm, 81, rfl⟩
abbrev main_v55 : Ref sig .tc := ⟨.hbm, 82, rfl⟩
abbrev main_c_11 : Ref sig .tc := ⟨.hbm, 83, rfl⟩
abbrev main_v56 : Ref sig .tc := ⟨.hbm, 84, rfl⟩
abbrev main_v57 : Ref sig .tc := ⟨.hbm, 85, rfl⟩
abbrev main_c_12 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_13 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_call2_cst : Ref sig .tc := ⟨.hbm, 102, rfl⟩
abbrev main_call2_v0 : Ref sig .tc := ⟨.hbm, 103, rfl⟩
abbrev main_v72 : Ref sig .tc := ⟨.hbm, 104, rfl⟩
abbrev main_cst_14 : Ref sig .tc := ⟨.hbm, 105, rfl⟩
abbrev main_v73 : Ref sig .tc := ⟨.hbm, 106, rfl⟩
abbrev main_v74 : Ref sig .tc := ⟨.hbm, 107, rfl⟩
abbrev main_v75 : Ref sig .tc := ⟨.hbm, 108, rfl⟩
abbrev main_cst_15 : Ref sig .tc := ⟨.hbm, 109, rfl⟩
abbrev main_v76 : Ref sig .tc := ⟨.hbm, 110, rfl⟩
abbrev main_cst_16 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_cst_17 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S50000_S50000x1_0 : S50000.BroadcastsInDim S50000x1 (![0] : Fin 1 → Fin S50000x1.rank)
  bcast_S850000x1_S850000x64_0_1 : S850000x1.BroadcastsInDim S850000x64 (![0, 1] : Fin 2 → Fin S850000x64.rank)
  bcast_S_S50000x64 : S_.BroadcastsInDim S50000x64 (![] : Fin 0 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S128x64 : S_.BroadcastsInDim S128x64 (![] : Fin 0 → Fin S128x64.rank)
  bcast_S_S128 : S_.BroadcastsInDim S128 (![] : Fin 0 → Fin S128.rank)
  bcast_S128_S128x1_0 : S128.BroadcastsInDim S128x1 (![0] : Fin 1 → Fin S128x1.rank)
  bcast_S128x1_S128x64_0_1 : S128x1.BroadcastsInDim S128x64 (![0, 1] : Fin 2 → Fin S128x64.rank)
  bcast_S2_S1x2_1 : S2.BroadcastsInDim S1x2 (![1] : Fin 1 → Fin S1x2.rank)
  bcast_S1x2_S128x2_0_1 : S1x2.BroadcastsInDim S128x2 (![0, 1] : Fin 2 → Fin S128x2.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  gather_S100000x64_S50000x1_S50000x64_1_0_n_n_0_1_164_wf : GatherDims.WF S100000x64 S50000x1 S50000x64 [1] [0] [] [0] [] 1 ![1, 64]
  dot_S50000x64_S64x64_S50000x64_1_0_0_1_n_n_wf : DotDims.WF S50000x64 S64x64 S50000x64 [1] [0] [0] [1] [] []
  gather_S50000x64_S850000x1_S850000x64_1_0_n_n_0_1_164_wf : GatherDims.WF S50000x64 S850000x1 S850000x64 [1] [0] [] [0] [] 1 ![1, 64]
  scatter_S50000x64_S850000x1_S850000x64_1_0_0_1_wf : ScatterDims.WF S50000x64 S850000x1 S850000x64 [1] [0] [0] 1
  scatter_S128x64_S50000x1_S50000x64_1_0_0_1_wf : ScatterDims.WF S128x64 S50000x1 S50000x64 [1] [0] [0] 1
  scatter_S128_S50000x1_S50000_n_0_0_1_wf : ScatterDims.WF S128 S50000x1 S50000 [] [0] [0] 1
  dot_S128x64_S64x2_S128x2_1_0_0_1_n_n_wf : DotDims.WF S128x64 S64x2 S128x2 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def gather_S100000x64_S50000x1_S50000x64_1_0_n_n_0_1_164 : GatherDims S100000x64 S50000x1 S50000x64 where
  offsetDims := [1]
  collapsedSliceDims := [0]
  operandBatchingDims := []
  startIndicesBatchingDims := []
  startIndexMap := [0]
  indexVectorDim := 1
  sliceSizes := ![1, 64]
  wf := gather_S100000x64_S50000x1_S50000x64_1_0_n_n_0_1_164_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def gather_S50000x64_S850000x1_S850000x64_1_0_n_n_0_1_164 : GatherDims S50000x64 S850000x1 S850000x64 where
  offsetDims := [1]
  collapsedSliceDims := [0]
  operandBatchingDims := []
  startIndicesBatchingDims := []
  startIndexMap := [0]
  indexVectorDim := 1
  sliceSizes := ![1, 64]
  wf := gather_S50000x64_S850000x1_S850000x64_1_0_n_n_0_1_164_wf
def scatter_S50000x64_S850000x1_S850000x64_1_0_0_1 : ScatterDims S50000x64 S850000x1 S850000x64 where
  updateWindowDims := [1]
  insertedWindowDims := [0]
  scatterDimsToOperandDims := [0]
  indexVectorDim := 1
  wf := scatter_S50000x64_S850000x1_S850000x64_1_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def dot_S128x64_S64x2_S128x2_1_0_0_1_n_n : DotDims S128x64 S64x2 S128x2 where
  lhsContracting := [1]
  rhsContracting := [0]
  lhsNonContracting := [0]
  rhsNonContracting := [1]
  lhsBatch := []
  rhsBatch := []
  wf := dot_S128x64_S64x2_S128x2_1_0_0_1_n_n_wf

class Facts : Prop extends Facts₀ where

variable [Facts]
-- ==== Proof.RunValue.lean ====
/-
  The idealized kernel's whole run, with its result named.

  @main is ten segments: stretches of host operations and four pipelined regions. The contents of every buffer at each
  boundary between two segments are a fold from the launch memory: a stretch applies its operations, a region leaves
  its output array at what its write-backs put there and every other buffer as it found it. The last boundary's
  contents are `W10`. Every weakly fair execution terminates, without a fault, in a state whose buffers hold exactly
  `W10`; in particular the result buffer holds `W10` at that buffer, and each argument what it was launched with.
-/
import proofs.«158104_j3221225472371_2_alg».proof.Proof.Gen.KernelIdeal.Frame

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main ends with the result buffer at the last boundary's contents and the ten
    argument arrays as launched: the final state holds every unscoped buffer at `W10`, read here at the result
    buffer as well as at the arguments. -/
theorem run_value : θ_run defs (onTc (τ := τ) (main (F := F))) ⟨m, fun _ => 0, ρ⟩ (fun r => ∀ c : Dev nD,
      r.2.mem ((c.tc : Thread nD τ).loc main_v59) = W10 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v59 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c)⟩)

end Cert.KernelIdeal.Hand

end
-- ==== Proof.LibTile.lean ====
/-
  Row tiles. A T × C array `x` is the tile of an M × C array `X` at row offset r0 when x (p, l) = X (r0 + p, l).
  The operations of a dense layer keep that relation, the tile's side written with a kernel's vector operations
  and the whole array's side with the host's: a product with a weight matrix (row r0 + p of X · W only reads
  row r0 + p of X), a bias row added to every row, a splat constant, the pointwise operations, a comparison
  feeding a select, a change of float format (the identity on the extended reals), a column slice, and a
  1 × C row repeated down the rows. A layer's output tile is then the tile of the layer's whole output by
  composing these, one step per operation.
-/
import Idealize.ShloMosaic.PureOps.Ideal.Laws
import Idealize.ShloMosaic.Lib.ValueIdx
import Idealize.ShloMosaic.Lib.Pipeline.Value

noncomputable section

namespace Cert.Tile

open Idealize.ShloMosaic Idealize.ShloMosaic.ValueIdx

/-- In a plain M×K by K×N product the left operand is read at (row of the result, k). -/
theorem plain_lhs {M K N : Nat} (j : (⟨2, ![M, N]⟩ : Shape).Idx) (k : (DotDims.plain M K N).contr.Idx) :
    (DotDims.plain M K N).lhsIdx j k = ix2 (j 0) (k ⟨0, Nat.one_pos⟩) := by
  funext a
  match a with
  | ⟨0, _⟩ => rfl
  | ⟨1, _⟩ => rfl

/-- … and the right operand at (k, column of the result). -/
theorem plain_rhs {M K N : Nat} (j : (⟨2, ![M, N]⟩ : Shape).Idx) (k : (DotDims.plain M K N).contr.Idx) :
    (DotDims.plain M K N).rhsIdx j k = ix2 (k ⟨0, Nat.one_pos⟩) (j 1) := by
  funext a
  match a with
  | ⟨0, _⟩ => rfl
  | ⟨1, _⟩ => rfl

/-- `x` is rows [r0, r0 + T) of `X`. -/
def IsTile {T M C : Nat} (r0 : Nat) (hr : r0 + T ≤ M) (x : (⟨2, ![T, C]⟩ : Shape).Idx → EReal)
    (X : (⟨2, ![M, C]⟩ : Shape).Idx → EReal) : Prop :=
  ∀ (p : Fin T) (l : Fin C), x (ix2 p l) = X (ix2 ⟨r0 + p.val, by omega⟩ l)

variable {T M : Nat} {r0 : Nat} {hr : r0 + T ≤ M}

/-- Row r0 + p of X · W is row p of (tile of X) · W: the contraction over k reads the same products. -/
theorem matmul {K N : Nat} {x : (⟨2, ![T, K]⟩ : Shape).Idx → EReal} {X : (⟨2, ![M, K]⟩ : Shape).Idx → EReal}
    (W : (⟨2, ![K, N]⟩ : Shape).Idx → EReal) (hx : IsTile r0 hr x X) :
    IsTile r0 hr (Ideal.matmul (DotDims.plain T K N) x W (fun _ => Ideal.ofBits .f32 0x00000000#32))
      (Ideal.matmul (DotDims.plain M K N) X W (fun _ => 0)) := by
  intro p q
  unfold Ideal.matmul
  rw [Ideal.ofBits_zero_f32]
  refine congrArg (fun s => (0 : EReal) + s) (Finset.sum_congr rfl fun k _ => ?_)
  have e1 := plain_lhs (K := K) (ix2 p q) k
  have e2 := plain_rhs (K := K) (ix2 p q) k
  have e3 : (DotDims.plain M K N).lhsIdx (ix2 ⟨r0 + p.val, by omega⟩ q) k = ix2 ⟨r0 + p.val, by omega⟩ (k ⟨0, Nat.one_pos⟩) :=
    plain_lhs (M := M) (K := K) (N := N) (ix2 ⟨r0 + p.val, by omega⟩ q) k
  have e4 : (DotDims.plain M K N).rhsIdx (ix2 ⟨r0 + p.val, by omega⟩ q) k = ix2 (k ⟨0, Nat.one_pos⟩) q :=
    plain_rhs (M := M) (K := K) (N := N) (ix2 ⟨r0 + p.val, by omega⟩ q) k
  exact congrArg₂ (· * ·) ((congrArg x e1).trans ((hx p _).trans (congrArg X e3.symm))) (congrArg W (e2.trans e4.symm))

/-- A bias of C entries, viewed 1 × C and repeated down T rows, against the same bias broadcast to 1 × C and then to
    M × C: both read entry l in column l. -/
theorem bias {C : Nat} (b : (⟨1, ![C]⟩ : Shape).Idx → EReal)
    (h1 : (⟨1, ![C]⟩ : Shape).ShapeCasts ⟨2, ![1, C]⟩) (h2 : (⟨2, ![1, C]⟩ : Shape).Broadcasts ⟨2, ![T, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    IsTile r0 hr (broadcastTo ⟨2, ![T, C]⟩ (shapeCast ⟨2, ![1, C]⟩ b h1) h2)
      (broadcastInDim ⟨2, ![M, C]⟩ ![0, 1] g2 (broadcastInDim ⟨2, ![1, C]⟩ ![1] g1 b)) := by
  intro p l
  have hl := l.isLt
  have eL : broadcastTo ⟨2, ![T, C]⟩ (shapeCast ⟨2, ![1, C]⟩ b h1) h2 (ix2 p l) = b (ix1 l) := by
    refine (broadcastTo_apply _ h2 (ix2 p l) (ix2 ⟨0, Nat.one_pos⟩ l) fun a => ?_).trans ?_
    · match a with
      | ⟨0, _⟩ => rfl
      | ⟨1, _⟩ =>
        show l.val = if C = 1 then 0 else l.val
        split <;> omega
    · refine (shapeCast_apply b h1 (ix2 ⟨0, Nat.one_pos⟩ l) (ix1 l) ?_)
      rw [Shape.rowMajor_val_one, Shape.rowMajor_val_two]
      show l.val = 0 * C + l.val
      omega
  have eR : broadcastInDim ⟨2, ![M, C]⟩ ![0, 1] g2 (broadcastInDim ⟨2, ![1, C]⟩ ![1] g1 b) (ix2 ⟨r0 + p.val, by omega⟩ l) = b (ix1 l) := by
    refine (broadcastInDim_apply _ g2 _ (ix2 ⟨r0 + p.val, by omega⟩ l) (ix2 ⟨0, Nat.one_pos⟩ l) fun a => ?_).trans ?_
    · match a with
      | ⟨0, _⟩ => rfl
      | ⟨1, _⟩ =>
        show l.val = if C = 1 then 0 else l.val
        split <;> omega
    · refine (broadcastInDim_apply _ g1 b (ix2 ⟨0, Nat.one_pos⟩ l) (ix1 l) fun a => ?_)
      match a with
      | ⟨0, _⟩ =>
        show l.val = if C = 1 then 0 else l.val
        split <;> omega
  exact eL.trans eR.symm

/-- A splat of one value over the tile, against the same value broadcast over the whole array. -/
theorem splat {C : Nat} (v : EReal) (s : (⟨0, ![]⟩ : Shape).Idx → EReal) (hs : s ix0 = v)
    (g : (⟨0, ![]⟩ : Shape).BroadcastsInDim ⟨2, ![M, C]⟩ ![]) :
    IsTile r0 hr (broadcast ⟨2, ![T, C]⟩ v) (broadcastInDim ⟨2, ![M, C]⟩ ![] g s) := by
  intro p l
  show v = _
  rw [← hs]
  exact (broadcastInDim_apply _ g s _ ix0 fun a => a.elim0).symm

/-- A 1 × C row repeated down the tile's rows, against the same row repeated down the whole array's. -/
theorem rowRep {C : Nat} (r : (⟨2, ![1, C]⟩ : Shape).Idx → EReal)
    (h2 : (⟨2, ![1, C]⟩ : Shape).Broadcasts ⟨2, ![T, C]⟩)
    (g2 : (⟨2, ![1, C]⟩ : Shape).BroadcastsInDim ⟨2, ![M, C]⟩ ![0, 1]) :
    IsTile r0 hr (broadcastTo ⟨2, ![T, C]⟩ r h2) (broadcastInDim ⟨2, ![M, C]⟩ ![0, 1] g2 r) := by
  intro p l
  have hl := l.isLt
  have eL : broadcastTo ⟨2, ![T, C]⟩ r h2 (ix2 p l) = r (ix2 ⟨0, Nat.one_pos⟩ l) := by
    refine (broadcastTo_apply _ h2 (ix2 p l) (ix2 ⟨0, Nat.one_pos⟩ l) fun a => ?_)
    match a with
    | ⟨0, _⟩ => rfl
    | ⟨1, _⟩ =>
      show l.val = if C = 1 then 0 else l.val
      split <;> omega
  have eR : broadcastInDim ⟨2, ![M, C]⟩ ![0, 1] g2 r (ix2 ⟨r0 + p.val, by omega⟩ l) = r (ix2 ⟨0, Nat.one_pos⟩ l) := by
    refine (broadcastInDim_apply _ g2 _ (ix2 ⟨r0 + p.val, by omega⟩ l) (ix2 ⟨0, Nat.one_pos⟩ l) fun a => ?_)
    match a with
    | ⟨0, _⟩ => rfl
    | ⟨1, _⟩ =>
      show l.val = if C = 1 then 0 else l.val
      split <;> omega
  exact eL.trans eR.symm

section Pointwise
variable {C : Nat} {x y : (⟨2, ![T, C]⟩ : Shape).Idx → EReal} {X Y : (⟨2, ![M, C]⟩ : Shape).Idx → EReal}

/-- An operation applied entry by entry keeps tiles. -/
theorem map (f : EReal → EReal) (hx : IsTile r0 hr x X) : IsTile r0 hr (fun i => f (x i)) (fun i => f (X i)) :=
  fun p l => congrArg f (hx p l)

/-- A two-operand operation applied entry by entry keeps tiles. -/
theorem map₂ (f : EReal → EReal → EReal) (hx : IsTile r0 hr x X) (hy : IsTile r0 hr y Y) :
    IsTile r0 hr (fun i => f (x i) (y i)) (fun i => f (X i) (Y i)) :=
  fun p l => congrArg₂ f (hx p l) (hy p l)

/-- A comparison of two tiles choosing between two others, entry by entry. -/
theorem sel {u v : (⟨2, ![T, C]⟩ : Shape).Idx → EReal} {U V : (⟨2, ![M, C]⟩ : Shape).Idx → EReal}
    (f : EReal → EReal → EReal → EReal → EReal)
    (hx : IsTile r0 hr x X) (hy : IsTile r0 hr y Y) (hu : IsTile r0 hr u U) (hv : IsTile r0 hr v V) :
    IsTile r0 hr (fun i => f (x i) (y i) (u i) (v i)) (fun i => f (X i) (Y i) (U i) (V i)) :=
  fun p l => by show f _ _ _ _ = f _ _ _ _; rw [hx p l, hy p l, hu p l, hv p l]

end Pointwise

/-- Columns [o, o + C) of a tile are the tile of the same columns of the whole array. -/
theorem cols {C D : Nat} (o : Nat) {x : (⟨2, ![T, D]⟩ : Shape).Idx → EReal} {X : (⟨2, ![M, D]⟩ : Shape).Idx → EReal}
    (h : (⟨2, ![T, D]⟩ : Shape).Slices ![0, o] ⟨2, ![T, C]⟩) (g : (⟨2, ![M, D]⟩ : Shape).Slices ![0, o] ⟨2, ![M, C]⟩)
    (hx : IsTile r0 hr x X) :
    IsTile r0 hr (extractStridedSlice ⟨2, ![T, C]⟩ ![0, o] x h) (extractStridedSlice ⟨2, ![M, C]⟩ ![0, o] X g) := by
  intro p l
  have hD : o + l.val < D := by
    have h2 : o + C ≤ D := h.2 (1 : Fin 2)
    have hl := l.isLt
    omega
  have eL : extractStridedSlice ⟨2, ![T, C]⟩ ![0, o] x h (ix2 p l) = x (ix2 p ⟨o + l.val, hD⟩) := by
    refine extractStridedSlice_apply _ x h (ix2 p l) (ix2 p ⟨o + l.val, hD⟩) fun a => ?_
    match a with
    | ⟨0, _⟩ => show p.val = 0 + p.val; omega
    | ⟨1, _⟩ => rfl
  have eR : extractStridedSlice ⟨2, ![M, C]⟩ ![0, o] X g (ix2 ⟨r0 + p.val, by omega⟩ l) = X (ix2 ⟨r0 + p.val, by omega⟩ ⟨o + l.val, hD⟩) := by
    refine extractStridedSlice_apply _ X g _ (ix2 ⟨r0 + p.val, by omega⟩ ⟨o + l.val, hD⟩) fun a => ?_
    match a with
    | ⟨0, _⟩ => show r0 + p.val = 0 + (r0 + p.val); omega
    | ⟨1, _⟩ => rfl
  exact eL.trans ((hx p _).trans eR.symm)

end Cert.Tile

end
-- ==== Proof.LibTileMore.lean ====
/-
  More row tiles. With `IsTile r0 hr x X` (the T × C array x is rows [r0, r0 + T) of the M × C array X), three further
  operations keep the relation: a T × 1 column repeated across C columns; the sum along each row, kept as a T × 1
  column; and a cast to the same shape. A 1 × 1 value repeated down a T × 1 column is the case C = 1 of a 1 × C row
  repeated down the rows. The side conditions of the whole arrays' broadcasts hold at every row count, and are proved
  here once.
-/
import proofs.«158104_j3221225472371_2_alg».proof.Proof.LibTile

noncomputable section

namespace Cert.Tile

open Idealize.ShloMosaic Idealize.ShloMosaic.ValueIdx

/-- The axis map (0, 1) of a rank-2 broadcast is injective. -/
theorem inj01 : Function.Injective (![0, 1] : Fin 2 → Fin 2) := by decide

/-- A 1 × C row broadcasts along (0, 1) to M × C, at every M and C. -/
theorem bidRow (M C : Nat) : (⟨2, ![1, C]⟩ : Shape).BroadcastsInDim ⟨2, ![M, C]⟩ ![0, 1] := by
  refine ⟨inj01, fun a => ?_⟩
  match a with
  | ⟨0, _⟩ => exact Or.inl rfl
  | ⟨1, _⟩ => exact Or.inr rfl

/-- An M × 1 column broadcasts along (0, 1) to M × C, at every M and C. -/
theorem bidCol (M C : Nat) : (⟨2, ![M, 1]⟩ : Shape).BroadcastsInDim ⟨2, ![M, C]⟩ ![0, 1] := by
  refine ⟨inj01, fun a => ?_⟩
  match a with
  | ⟨0, _⟩ => exact Or.inr rfl
  | ⟨1, _⟩ => exact Or.inl rfl

/-- A scalar broadcasts to M × C, at every M and C. -/
theorem bidScalar (M C : Nat) : (⟨0, ![]⟩ : Shape).BroadcastsInDim ⟨2, ![M, C]⟩ ![] :=
  ⟨fun a => a.elim0, fun a => a.elim0⟩

variable {T M : Nat} {r0 : Nat} {hr : r0 + T ≤ M}

/-- A T × 1 column repeated across C columns is the tile of the M × 1 column repeated across C columns: both read
    the column's entry of the row. -/
theorem colRep {C : Nat} {x : (⟨2, ![T, 1]⟩ : Shape).Idx → EReal} {X : (⟨2, ![M, 1]⟩ : Shape).Idx → EReal}
    (h2 : (⟨2, ![T, 1]⟩ : Shape).Broadcasts ⟨2, ![T, C]⟩)
    (g2 : (⟨2, ![M, 1]⟩ : Shape).BroadcastsInDim ⟨2, ![M, C]⟩ ![0, 1])
    (hx : IsTile r0 hr x X) :
    IsTile r0 hr (broadcastTo ⟨2, ![T, C]⟩ x h2) (broadcastInDim ⟨2, ![M, C]⟩ ![0, 1] g2 X) := by
  intro p l
  have hp := p.isLt
  have eL : broadcastTo ⟨2, ![T, C]⟩ x h2 (ix2 p l) = x (ix2 p ⟨0, Nat.one_pos⟩) := by
    refine (broadcastTo_apply _ h2 (ix2 p l) (ix2 p ⟨0, Nat.one_pos⟩) fun a => ?_)
    match a with
    | ⟨0, _⟩ =>
      show p.val = if T = 1 then 0 else p.val
      split <;> omega
    | ⟨1, _⟩ => rfl
  have eR : broadcastInDim ⟨2, ![M, C]⟩ ![0, 1] g2 X (ix2 ⟨r0 + p.val, by omega⟩ l)
      = X (ix2 ⟨r0 + p.val, by omega⟩ ⟨0, Nat.one_pos⟩) := by
    refine (broadcastInDim_apply _ g2 _ (ix2 ⟨r0 + p.val, by omega⟩ l) (ix2 ⟨r0 + p.val, by omega⟩ ⟨0, Nat.one_pos⟩) fun a => ?_)
    match a with
    | ⟨0, _⟩ =>
      show r0 + p.val = if M = 1 then 0 else r0 + p.val
      split <;> omega
    | ⟨1, _⟩ => rfl
  exact eL.trans ((hx p _).trans eR.symm)

/-- The source index of a sum over the columns: row p of the column of sums reads row p, column k. -/
theorem lift_row {C : Nat} (h : (⟨2, ![T, C]⟩ : Shape).Reduces [1] ⟨1, ![T]⟩) (p : Fin T) (k : Fin C) :
    h.lift (ix1 p) k = ix2 p k := by
  funext a
  match a with
  | ⟨0, _⟩ => rfl
  | ⟨1, _⟩ => rfl

/-- The sums along the rows of an M × C array, kept as an M × 1 column. -/
def rowSum {M C : Nat} (X : (⟨2, ![M, C]⟩ : Shape).Idx → EReal) : (⟨2, ![M, 1]⟩ : Shape).Idx → EReal :=
  fun i => ∑ l : Fin C, X (ix2 (n0 := M) (n1 := C) (i 0) l)

/-- Row a of the column of row sums is the sum of row a. -/
theorem rowSum_apply {M C : Nat} (X : (⟨2, ![M, C]⟩ : Shape).Idx → EReal) (a : Fin M) (q : Fin 1) :
    rowSum X (ix2 a q) = ∑ l : Fin C, X (ix2 a l) := rfl

/-- The sum along each row of a tile, kept as a T × 1 column, is the tile of the whole array's row sums kept as an
    M × 1 column: row r0 + p of X is row p of x, entry by entry. The whole side is the explicit sum over the C columns
    (`rowSum`). -/
theorem laneSum {C : Nat} {x : (⟨2, ![T, C]⟩ : Shape).Idx → EReal} {X : (⟨2, ![M, C]⟩ : Shape).Idx → EReal}
    (acc : BitVec 32) (h : (⟨2, ![T, C]⟩ : Shape).Reduces [1] ⟨1, ![T]⟩) (hφ : FKind.Formats .f32)
    (hacc : acc = FKind.add.neutral .f32 hφ) (hc : (⟨1, ![T]⟩ : Shape).ShapeCasts ⟨2, ![T, 1]⟩)
    (hx : IsTile r0 hr x X) :
    IsTile r0 hr
      (shapeCast ⟨2, ![T, 1]⟩ (multiReduction (F := Ideal) (φ := .f32) .add [1] ⟨1, ![T]⟩ x acc h hφ hacc) hc)
      (rowSum X) := by
  intro p q
  have hq := q.isLt
  have e1 : shapeCast ⟨2, ![T, 1]⟩ (multiReduction (F := Ideal) (φ := .f32) .add [1] ⟨1, ![T]⟩ x acc h hφ hacc) hc (ix2 p q)
      = multiReduction (F := Ideal) (φ := .f32) .add [1] ⟨1, ![T]⟩ x acc h hφ hacc (ix1 p) := by
    refine shapeCast_apply _ hc (ix2 p q) (ix1 p) ?_
    rw [Shape.rowMajor_val_one, Shape.rowMajor_val_two]
    show p.val = p.val * 1 + q.val
    omega
  rw [e1, Ideal.multiReduction_add_single, rowSum_apply]
  show ∑ k : Fin C, x (h.lift (ix1 p) k) = ∑ l : Fin C, X (ix2 ⟨r0 + p.val, by omega⟩ l)
  refine Finset.sum_congr rfl fun k _ => ?_
  rw [lift_row h p k]
  exact hx p k

/-- A cast to the same shape changes nothing, so it keeps tiles. -/
theorem castSelf {C : Nat} {x : (⟨2, ![T, C]⟩ : Shape).Idx → EReal} {X : (⟨2, ![M, C]⟩ : Shape).Idx → EReal}
    (h : (⟨2, ![T, C]⟩ : Shape).ShapeCasts ⟨2, ![T, C]⟩) (hx : IsTile r0 hr x X) :
    IsTile r0 hr (shapeCast ⟨2, ![T, C]⟩ x h) X := by
  rw [shapeCast_self]
  exact hx

/-- A 1 × 1 value repeated down a T × 1 column, against the same value repeated down an M × 1 column: a 1 × C row
    repeated down the rows, at C = 1. -/
theorem oneRep (r : (⟨2, ![1, 1]⟩ : Shape).Idx → EReal)
    (h2 : (⟨2, ![1, 1]⟩ : Shape).Broadcasts ⟨2, ![T, 1]⟩)
    (g2 : (⟨2, ![1, 1]⟩ : Shape).BroadcastsInDim ⟨2, ![M, 1]⟩ ![0, 1]) :
    IsTile r0 hr (broadcastTo ⟨2, ![T, 1]⟩ r h2) (broadcastInDim ⟨2, ![M, 1]⟩ ![0, 1] g2 r) :=
  rowRep r h2 g2

section VectorOps
variable {C : Nat} {φ : FTy} {x y : (⟨2, ![T, C]⟩ : Shape).Idx → EReal} {X Y : (⟨2, ![M, C]⟩ : Shape).Idx → EReal}

/-- A kernel's vector sum, at the ideal values, adds entry by entry. -/
theorem vAdd (hx : IsTile r0 hr x X) (hy : IsTile r0 hr y Y) :
    IsTile r0 hr (addf (F := Ideal) (φ := φ) x y) (fun i => X i + Y i) :=
  map₂ (fun a b => a + b) hx hy

/-- A kernel's vector product, at the ideal values, multiplies entry by entry. -/
theorem vMul (hx : IsTile r0 hr x X) (hy : IsTile r0 hr y Y) :
    IsTile r0 hr (mulf (F := Ideal) (φ := φ) x y) (fun i => X i * Y i) :=
  map₂ (fun a b => a * b) hx hy

/-- A kernel's vector quotient, at the ideal values, divides entry by entry. -/
theorem vDiv (hx : IsTile r0 hr x X) (hy : IsTile r0 hr y Y) :
    IsTile r0 hr (divf (F := Ideal) (φ := φ) x y) (fun i => Ideal.div (X i) (Y i)) :=
  map₂ (fun a b => Ideal.div a b) hx hy

/-- A kernel's vector maximum, at the ideal values, takes the larger entry by entry. -/
theorem vMax (hx : IsTile r0 hr x X) (hy : IsTile r0 hr y Y) :
    IsTile r0 hr (maximumf (F := Ideal) (φ := φ) x y) (fun i => max (X i) (Y i)) :=
  map₂ (fun a b => max a b) hx hy

/-- A narrowing of the float format is the identity at the ideal values. -/
theorem vTrunc (ψ : FTy) (h : ψ.bits < φ.bits) (hx : IsTile r0 hr x X) :
    IsTile r0 hr (truncf (F := Ideal) (φ := φ) ψ x h) X :=
  fun p l => hx p l

/-- A widening of the float format is the identity at the ideal values. -/
theorem vExt (ψ : FTy) (h : φ.bits < ψ.bits) (hx : IsTile r0 hr x X) :
    IsTile r0 hr (extf (F := Ideal) (φ := φ) ψ x h) X :=
  fun p l => hx p l

/-- A splat of the value of a 32-bit pattern over the tile, against the rank-0 constant of that pattern broadcast over
    the whole array. -/
theorem vSplat (b : BitVec 32) (g : (⟨0, ![]⟩ : Shape).BroadcastsInDim ⟨2, ![M, C]⟩ ![]) :
    IsTile r0 hr (broadcast ⟨2, ![T, C]⟩ (Scalar.ofBits (F := Ideal) .f32 b))
      (broadcastInDim ⟨2, ![M, C]⟩ ![] g (constant (F := Ideal) ⟨0, ![]⟩ .f32 b)) :=
  splat (Scalar.ofBits (F := Ideal) .f32 b) (constant (F := Ideal) ⟨0, ![]⟩ .f32 b) rfl g

end VectorOps

/-- A kernel's product of a tile with a weight matrix into the zero splat, under any dimension record that is the
    plain one and any precision, against the whole array's product into zero. -/
theorem vMatmul {K N : Nat} {φ₁ φ₂ : FTy} {x : (⟨2, ![T, K]⟩ : Shape).Idx → EReal} {X : (⟨2, ![M, K]⟩ : Shape).Idx → EReal}
    (d : DotDims ⟨2, ![T, K]⟩ ⟨2, ![K, N]⟩ ⟨2, ![T, N]⟩) (hd : d = DotDims.plain T K N) (prec : Option ContractPrecision)
    (W : (⟨2, ![K, N]⟩ : Shape).Idx → EReal) (hx : IsTile r0 hr x X) :
    IsTile r0 hr
      (Idealize.ShloMosaic.matmul (F := Ideal) (φ₁ := φ₁) (φ₂ := φ₂) d prec x W (constant ⟨2, ![T, N]⟩ .f32 0x00000000#32))
      (Ideal.matmul (DotDims.plain M K N) X W (fun _ => 0)) := by
  subst hd
  exact matmul W hx

end Cert.Tile

end
-- ==== Proof.LibGcnDense.lean ====
/-
  The dense steps of a two-layer graph convolution, on whole arrays.

  Nodes are the rows of an M × C array. A layer first multiplies the node features by a weight matrix and scales
  row v of the product by the node's weight d v (`scaled`); the neighbourhood sums are taken elsewhere; the layer
  is finished by adding the node's own scaled row to its neighbourhood sum, scaling row v by d v once more and
  adding a bias row (`finish`). The first layer is followed by a maximum with zero (`relu`), the second by two
  linear heads, each a product, a bias row and a maximum with zero (`head`).

  Each of these is computed by a kernel on T rows at a time. Because row v of every result depends on row v of the
  row-wise operands only, the result computed from the tiles at row offset r0 is the tile at r0 of the result
  computed from the whole arrays: one lemma per step, by composing the row-tile lemmas.
-/
import proofs.«158104_j3221225472371_2_alg».proof.Proof.LibTileMore

noncomputable section

namespace Cert.Gcn

open Idealize.ShloMosaic Idealize.ShloMosaic.ValueIdx Cert.Tile

/-- An M × C array of extended reals. -/
abbrev Arr2 (M C : Nat) : Type := (⟨2, ![M, C]⟩ : Shape).Idx → EReal

/-- X · W: entry (v, j) is the sum over k of X (v, k) · W (k, j). -/
def mm {M K N : Nat} (X : Arr2 M K) (W : Arr2 K N) : Arr2 M N := Ideal.matmul (DotDims.plain M K N) X W (fun _ => 0)

/-- An M × 1 column repeated across C columns. -/
def colB {M : Nat} (C : Nat) (d : Arr2 M 1) : Arr2 M C := broadcastInDim ⟨2, ![M, C]⟩ ![0, 1] (bidCol M C) d

/-- A 1 × C row repeated down M rows. -/
def rowB (M : Nat) {C : Nat} (r : Arr2 1 C) : Arr2 M C := broadcastInDim ⟨2, ![M, C]⟩ ![0, 1] (bidRow M C) r

/-- Zero everywhere. -/
def zeroB (M C : Nat) : Arr2 M C :=
  broadcastInDim ⟨2, ![M, C]⟩ ![] (bidScalar M C) (constant (F := Ideal) ⟨0, ![]⟩ .f32 0x00000000#32)

/-- (X · W) with row v scaled by d v. -/
def scaled {M K N : Nat} (X : Arr2 M K) (W : Arr2 K N) (d : Arr2 M 1) : Arr2 M N := fun i => mm X W i * colB N d i

/-- d v · (A (v, j) + S (v, j)) + b j. -/
def finish {M C : Nat} (d : Arr2 M 1) (A S : Arr2 M C) (b : Arr2 1 C) : Arr2 M C :=
  fun i => colB C d i * (A i + S i) + rowB M b i

/-- The larger of each entry and zero. -/
def relu {M C : Nat} (X : Arr2 M C) : Arr2 M C := fun i => max (X i) (zeroB M C i)

/-- A linear head: the larger of (H · W + b) and zero. -/
def head {M K N : Nat} (H : Arr2 M K) (W : Arr2 K N) (b : Arr2 1 N) : Arr2 M N := relu fun i => mm H W i + rowB M b i

variable {T M : Nat} {r0 : Nat} {hr : r0 + T ≤ M}

/-- The kernel's row-scaled product of a tile is the tile of the whole arrays' row-scaled product. -/
theorem tile_scaled {K N : Nat} {x : Arr2 T K} {X : Arr2 M K} {dt : Arr2 T 1} {D : Arr2 M 1}
    (dd : DotDims ⟨2, ![T, K]⟩ ⟨2, ![K, N]⟩ ⟨2, ![T, N]⟩) (hdd : dd = DotDims.plain T K N) (W : Arr2 K N)
    (hb1 : (FTy.bf16).bits < (FTy.f32).bits)
    (hc : (⟨2, ![T, 1]⟩ : Shape).ShapeCasts ⟨2, ![T, 1]⟩) (h2 : (⟨2, ![T, 1]⟩ : Shape).Broadcasts ⟨2, ![T, N]⟩)
    (hx : IsTile r0 hr x X) (hd : IsTile r0 hr dt D) :
    IsTile r0 hr
      (mulf (F := Ideal) (φ := .f32)
        (Idealize.ShloMosaic.matmul (F := Ideal) (φ₁ := .bf16) (φ₂ := .bf16) dd none
          (truncf (F := Ideal) (φ := .f32) .bf16 x hb1) (truncf (F := Ideal) (φ := .f32) .bf16 W hb1)
          (constant ⟨2, ![T, N]⟩ .f32 0x00000000#32))
        (broadcastTo ⟨2, ![T, N]⟩ (shapeCast ⟨2, ![T, 1]⟩ dt hc) h2))
      (scaled X W D) :=
  vMul (vMatmul dd hdd none W (vTrunc .bf16 hb1 hx)) (colRep h2 (bidCol M N) (castSelf hc hd))

/-- The kernel's finish of a layer on tiles is the tile of the whole arrays' finish. -/
theorem tile_finish {C : Nat} {dt : Arr2 T 1} {D : Arr2 M 1} {a s : Arr2 T C} {A S : Arr2 M C} (b : Arr2 1 C)
    (hc : (⟨2, ![T, 1]⟩ : Shape).ShapeCasts ⟨2, ![T, 1]⟩) (h2 : (⟨2, ![T, 1]⟩ : Shape).Broadcasts ⟨2, ![T, C]⟩)
    (hcc : (⟨2, ![T, C]⟩ : Shape).ShapeCasts ⟨2, ![T, C]⟩)
    (hcb : (⟨2, ![1, C]⟩ : Shape).ShapeCasts ⟨2, ![1, C]⟩) (hb2 : (⟨2, ![1, C]⟩ : Shape).Broadcasts ⟨2, ![T, C]⟩)
    (hd : IsTile r0 hr dt D) (ha : IsTile r0 hr a A) (hs : IsTile r0 hr s S) :
    IsTile r0 hr
      (addf (F := Ideal) (φ := .f32)
        (mulf (F := Ideal) (φ := .f32) (broadcastTo ⟨2, ![T, C]⟩ (shapeCast ⟨2, ![T, 1]⟩ dt hc) h2)
          (addf (F := Ideal) (φ := .f32) (shapeCast ⟨2, ![T, C]⟩ a hcc) (shapeCast ⟨2, ![T, C]⟩ s hcc)))
        (broadcastTo ⟨2, ![T, C]⟩ (shapeCast ⟨2, ![1, C]⟩ b hcb) hb2))
      (finish D A S b) := by
  rw [shapeCast_self b hcb]
  exact vAdd (vMul (colRep h2 (bidCol M C) (castSelf hc hd)) (vAdd (castSelf hcc ha) (castSelf hcc hs)))
    (rowRep b hb2 (bidRow M C))

/-- The kernel's maximum with a zero splat on a tile is the tile of the whole array's. -/
theorem tile_relu {C : Nat} {x : Arr2 T C} {X : Arr2 M C} (hx : IsTile r0 hr x X) :
    IsTile r0 hr
      (maximumf (F := Ideal) (φ := .f32) x (broadcast ⟨2, ![T, C]⟩ (Scalar.ofBits (F := Ideal) .f32 0x00000000#32)))
      (relu X) :=
  vMax hx (vSplat 0x00000000#32 (bidScalar M C))

/-- The kernel's product of a tile with a weight matrix plus a bias row is the tile of the whole arrays'. -/
theorem tile_affine {K N : Nat} {x : Arr2 T K} {X : Arr2 M K}
    (dd : DotDims ⟨2, ![T, K]⟩ ⟨2, ![K, N]⟩ ⟨2, ![T, N]⟩) (hdd : dd = DotDims.plain T K N) (W : Arr2 K N) (b : Arr2 1 N)
    (hb1 : (FTy.bf16).bits < (FTy.f32).bits)
    (hcb : (⟨2, ![1, N]⟩ : Shape).ShapeCasts ⟨2, ![1, N]⟩) (hb2 : (⟨2, ![1, N]⟩ : Shape).Broadcasts ⟨2, ![T, N]⟩)
    (hx : IsTile r0 hr x X) :
    IsTile r0 hr
      (addf (F := Ideal) (φ := .f32)
        (Idealize.ShloMosaic.matmul (F := Ideal) (φ₁ := .bf16) (φ₂ := .bf16) dd none
          (truncf (F := Ideal) (φ := .f32) .bf16 x hb1) (truncf (F := Ideal) (φ := .f32) .bf16 W hb1)
          (constant ⟨2, ![T, N]⟩ .f32 0x00000000#32))
        (broadcastTo ⟨2, ![T, N]⟩ (shapeCast ⟨2, ![1, N]⟩ b hcb) hb2))
      (fun i => mm X W i + rowB M b i) := by
  rw [shapeCast_self b hcb]
  exact vAdd (vMatmul dd hdd none W (vTrunc .bf16 hb1 hx)) (rowRep b hb2 (bidRow M N))

end Cert.Gcn

end
-- ==== Proof.Dense.lean ====
/-
  The whole-array functions of the kernel's dense steps that the graph-convolution lemmas do not already name.

  `act A d b` finishes a layer: row v of the neighbourhood sums A is scaled by the node's weight d v, the bias row b is
  added, and the result is cut off below at zero. `pooled S n W b` is the classifier on mean-pooled rows: row g of the
  sums S is divided by the larger of the count n g and one, multiplied by W, and the bias row b is added. Both are
  written with the same row and column repeats as the graph-convolution lemmas' `scaled`, so that the row-tile lemmas
  compose with them.
-/
import proofs.«158104_j3221225472371_2_alg».proof.Proof.LibGcnDense

noncomputable section

namespace Cert.Gcn

open Idealize.ShloMosaic Idealize.ShloMosaic.ValueIdx Cert.Tile

/-- max (A (v, j) · d v + b j, 0). -/
def act {M C : Nat} (A : Arr2 M C) (d : Arr2 M 1) (b : Arr2 1 C) : Arr2 M C :=
  relu fun i => A i * colB C d i + rowB M b i

/-- One everywhere. -/
def oneB (M C : Nat) : Arr2 M C :=
  broadcastInDim ⟨2, ![M, C]⟩ ![] (bidScalar M C) (constant (F := Ideal) ⟨0, ![]⟩ .f32 0x3F800000#32)

/-- (S (g, ·) / max (n g, 1)) · W + b. -/
def pooled {G K N : Nat} (S : Arr2 G K) (n : Arr2 G 1) (W : Arr2 K N) (b : Arr2 1 N) : Arr2 G N :=
  fun i => mm (fun j => Ideal.div (S j) (colB K (fun k => max (n k) (oneB G 1 k)) j)) W i + rowB G b i

variable {T M : Nat} {r0 : Nat} {hr : r0 + T ≤ M}

/-- The kernel's finish of a layer on a row tile is the row tile of the whole arrays' finish. -/
theorem tile_act {C : Nat} {a : Arr2 T C} {A : Arr2 M C} {dt : Arr2 T 1} {D : Arr2 M 1} (b : Arr2 1 C)
    (hcc : (⟨2, ![T, C]⟩ : Shape).ShapeCasts ⟨2, ![T, C]⟩)
    (hc : (⟨2, ![T, 1]⟩ : Shape).ShapeCasts ⟨2, ![T, 1]⟩) (h2 : (⟨2, ![T, 1]⟩ : Shape).Broadcasts ⟨2, ![T, C]⟩)
    (hcb : (⟨2, ![1, C]⟩ : Shape).ShapeCasts ⟨2, ![1, C]⟩) (hb2 : (⟨2, ![1, C]⟩ : Shape).Broadcasts ⟨2, ![T, C]⟩)
    (ha : IsTile r0 hr a A) (hd : IsTile r0 hr dt D) :
    IsTile r0 hr
      (maximumf (F := Ideal) (φ := .f32)
        (addf (F := Ideal) (φ := .f32)
          (mulf (F := Ideal) (φ := .f32) (shapeCast ⟨2, ![T, C]⟩ a hcc)
            (broadcastTo ⟨2, ![T, C]⟩ (shapeCast ⟨2, ![T, 1]⟩ dt hc) h2))
          (broadcastTo ⟨2, ![T, C]⟩ (shapeCast ⟨2, ![1, C]⟩ b hcb) hb2))
        (broadcast ⟨2, ![T, C]⟩ (Scalar.ofBits (F := Ideal) .f32 0x00000000#32)))
      (act A D b) := by
  rw [shapeCast_self b hcb]
  exact tile_relu (vAdd (vMul (castSelf hcc ha) (colRep h2 (bidCol M C) (castSelf hc hd))) (rowRep b hb2 (bidRow M C)))

/-- An array is its own tile at offset zero. -/
theorem isTile_self {C : Nat} (X : Arr2 M C) (h0 : 0 + M ≤ M) : IsTile 0 h0 X X :=
  fun p l => congrArg X (congrArg (fun q => ix2 q l) (Fin.ext (Nat.zero_add p.val).symm))

/-- A tile of all the rows at offset zero is the array. -/
theorem eq_of_isTile_zero {C : Nat} {x X : Arr2 M C} (h0 : 0 + M ≤ M) (h : IsTile 0 h0 x X) : x = X := by
  funext i
  obtain ⟨p, l, rfl⟩ : ∃ (p : Fin M) (l : Fin C), i = ix2 p l := ⟨i 0, i 1, eq_ix2 i⟩
  exact (h p l).trans (congrArg X (congrArg (fun q => ix2 q l) (Fin.ext (Nat.zero_add p.val))))

end Cert.Gcn

end
-- ==== Proof.KernelTerm.lean ====
/-
  What the idealized kernel computes, as whole arrays of its ten arguments.

  Both programs begin alike: the edge list with a self-loop appended per node (sources `val_main_v3`, targets
  `val_main_v6`), the node weights d = 1/sqrt(degree) guarded at degree zero (`val_main_v14`), the looked-up node
  features (`val_main_v36`), the source list with negative entries wrapped as a one-column index array
  (`val_main_v43`) and the target list as one (`val_main_v49`): the reference's stage functions name them, and the
  kernel's host operations compute the same terms.

  From there the kernel goes its own way. A layer's dense step produces (H · W) with row v scaled by d v; the
  neighbourhood sums gather those rows at the edges' sources and add them up at the edges' targets (`agg`), with no
  per-edge factor; the next dense step scales row v of the sums by d v, adds the bias and cuts off at zero (`act`).
  After two layers the rows are summed per graph, divided by the per-graph counts guarded at one, and passed through
  the classifier (`pooled`).
-/
import proofs.«158104_j3221225472371_2_alg».proof.Proof.Dense
import proofs.«158104_j3221225472371_2_alg».proof.Proof.RefReadP
import proofs.«158104_j3221225472371_2_alg».proof.Proof.Gen.KernelIdeal

noncomputable section

namespace Cert.KernelIdeal.Hand

open Cert.KernelIdeal Cert.KernelIdeal.Facts₀ Cert.KernelIdeal.Facts
open Idealize.ShloMosaic Idealize.ShloMosaic.ValueIdx Cert.Gcn

variable (a0 : (⟨S50000, .i32⟩ : BufTy).Contents (Elt Ideal)) (a1 : (⟨S2x800000, .i32⟩ : BufTy).Contents (Elt Ideal))
  (a2 : (⟨S50000, .i32⟩ : BufTy).Contents (Elt Ideal)) (a3 : (⟨S100000x64, .f32⟩ : BufTy).Contents (Elt Ideal))
  (a4 : (⟨S64x64, .f32⟩ : BufTy).Contents (Elt Ideal)) (a5 : (⟨S64, .f32⟩ : BufTy).Contents (Elt Ideal))
  (a6 : (⟨S64x64, .f32⟩ : BufTy).Contents (Elt Ideal)) (a7 : (⟨S64, .f32⟩ : BufTy).Contents (Elt Ideal))
  (a8 : (⟨S64x2, .f32⟩ : BufTy).Contents (Elt Ideal)) (a9 : (⟨S2, .f32⟩ : BufTy).Contents (Elt Ideal))

/-- The node weights as a 50000 × 1 column. -/
def dcol : Arr2 50000 1 := shapeCast S50000x1 (Cert.ReferenceIdeal.ReadP.val_main_v14 (F := Ideal) a1) shapeCasts_S50000_S50000x1

/-- The looked-up node features. -/
def feat : Arr2 50000 64 := Cert.ReferenceIdeal.ReadP.val_main_v36 (F := Ideal) a0 a3

/-- Rows gathered at the edges' (wrapped) sources and added up at the edges' targets, into zeros: the source and
    target lists come as one-column index arrays. -/
def agg (R : Arr2 50000 64) (SI DI : (⟨Cert.ReferenceIdeal.S850000x1, .i32⟩ : BufTy).Contents (Elt Ideal)) : Arr2 50000 64 :=
  Host.scatterAdd (F := Ideal) (φ := .f32) Cert.ReferenceIdeal.scatter_S50000x64_S850000x1_S850000x64_1_0_0_1
    (Cert.ReferenceIdeal.ReadP.val_main_v48 (F := Ideal)) DI
    (Host.gather Cert.ReferenceIdeal.gather_S50000x64_S850000x1_S850000x64_1_0_n_n_0_1_164 R SI)

/-- The first dense step's output: (features · W1), row v scaled by d v. -/
def lay0 : Arr2 50000 64 := scaled (feat a0 a3) a4 (dcol a1)

/-- The first layer's neighbourhood sums. -/
def sum1 : Arr2 50000 64 :=
  agg (lay0 a0 a1 a3 a4) (Cert.ReferenceIdeal.ReadP.val_main_v43 (F := Ideal) a1) (Cert.ReferenceIdeal.ReadP.val_main_v49 (F := Ideal) a1)

/-- The second dense step's output: the first layer's activations times W2, row v scaled by d v. -/
def lay1 : Arr2 50000 64 :=
  scaled (act (sum1 a0 a1 a3 a4) (dcol a1) (shapeCast S1x64 a5 shapeCasts_S64_S1x64)) a6 (dcol a1)

/-- The second layer's neighbourhood sums. -/
def sum2 : Arr2 50000 64 :=
  agg (lay1 a0 a1 a3 a4 a5 a6) (Cert.ReferenceIdeal.ReadP.val_main_v43 (F := Ideal) a1) (Cert.ReferenceIdeal.ReadP.val_main_v49 (F := Ideal) a1)

/-- The second layer's activations. -/
def lay2 : Arr2 50000 64 := act (sum2 a0 a1 a3 a4 a5 a6) (dcol a1) (shapeCast S1x64 a7 shapeCasts_S64_S1x64)

/-- The activations summed per graph. -/
def gsum : Arr2 128 64 :=
  Host.scatterAdd (F := Ideal) (φ := .f32) scatter_S128x64_S50000x1_S50000x64_1_0_0_1
    (broadcastInDim S128x64 ![] bcast_S_S128x64 (constant (F := Ideal) S_ .f32 0x00000000#32))
    (broadcastInDim S50000x1 ![0] bcast_S50000_S50000x1_0 a2) (lay2 a0 a1 a3 a4 a5 a6 a7)

/-- The number of nodes per graph, as a 128 × 1 column. -/
def gcnt : Arr2 128 1 :=
  shapeCast S128x1 (Host.scatterAdd (F := Ideal) (φ := .f32) scatter_S128_S50000x1_S50000_n_0_0_1
    (broadcastInDim S128 ![] bcast_S_S128 (constant (F := Ideal) S_ .f32 0x00000000#32))
    (broadcastInDim S50000x1 ![0] bcast_S50000_S50000x1_0 a2)
    (broadcastInDim S50000 ![] bcast_S_S50000 (constant (F := Ideal) S_ .f32 0x3F800000#32))) shapeCasts_S128_S128x1

/-- The kernel's result. -/
def result : Arr2 128 2 :=
  pooled (gsum a0 a1 a2 a3 a4 a5 a6 a7) (gcnt a2) a8 (shapeCast S1x2 a9 shapeCasts_S2_S1x2)

end Cert.KernelIdeal.Hand

end
-- ==== Proof.Region0.lean ====
/-
  Region 0: the first layer's dense step, 2000 rows at a time.

  At grid point t the body loads rows [2000 t, 2000 t + 2000) of the node features X (50000 × 64), the whole weight
  matrix W (64 × 64) and the same rows of the column of node weights D (50000 × 1), and stores (x · W) with row p
  scaled by the weight of node 2000 t + p. Row v of (X · W) only reads row v of X, so what point t stores is rows
  [2000 t, 2000 t + 2000) of the whole arrays' row-scaled product; the 25 blocks tile the 50000 rows, so after the
  region the output array is that product, whatever the arrays held when the region was entered.
-/
import proofs.«158104_j3221225472371_2_alg».proof.Proof.Gen.KernelIdeal.Frame
import proofs.«158104_j3221225472371_2_alg».proof.Proof.LibGcnDense
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Tile Cert.Gcn

variable (V : (c : Dev nD) → (b : Ref sig .tc) → Buf (Elt Ideal) ((c : Thread nD τ).loc b))

/-- The zero offsets of a rank-2 access. -/
theorem hz2 : (![0, 0] : Fin 2 → Nat) = fun _ => 0 := funext fun a => by fin_cases a <;> rfl

/-- The body's one store leaves its payload: the staging buffer after the body is the payload of the loaded blocks. -/
theorem out0_eq (x0 : Vec Ideal S2000x64 .f32) (x1 : Vec Ideal S64x64 .f32) (x2 : Vec Ideal S2000x1 .f32) :
    out0_3 x0 x1 x2 = k0_pay1 x0 x1 x2 := by
  unfold out0_3
  rw [View.canon_unit_zero hz2]
  simp only [View.ld_unit_zero (S := S2000x64) hz2, View.ld_unit_zero (S := S64x64) hz2, View.ld_unit_zero (S := S2000x1) hz2]

/-- The payload of a row tile is the row tile of the row-scaled product. -/
theorem tile0 {r0 : Nat} {hr : r0 + 2000 ≤ 50000} {x : Arr2 2000 64} {X : Arr2 50000 64} {dt : Arr2 2000 1}
    {D : Arr2 50000 1} (W : Arr2 64 64) (hx : IsTile r0 hr x X) (hd : IsTile r0 hr dt D) :
    IsTile r0 hr (k0_pay1 (F := Ideal) x W dt) (scaled X W D) := by
  unfold k0_pay1
  exact vTrunc .bf16 _ (vMul (vMatmul _ rfl none W (vTrunc .bf16 _ (castSelf _ hx))) (colRep _ (bidCol 50000 64) (castSelf _ hd)))

/-- Where each window's block sits at point t: row block t of the row-tiled arrays, the whole of the weight matrix. -/
theorem idx0 : ∀ t : Fin grid0.N, (win0_0.index t 0 = t.val ∧ win0_0.index t 1 = 0) ∧ (win0_1.index t 0 = 0 ∧ win0_1.index t 1 = 0)
    ∧ (win0_2.index t 0 = t.val ∧ win0_2.index t 1 = 0) ∧ (win0_3.index t 0 = t.val ∧ win0_3.index t 1 = 0) := by decide +kernel

theorem rows0 (t : Fin cfg0.N) : 2000 * t.val + 2000 ≤ 50000 := by
  have h : cfg0.N = 25 := N_0
  have := t.isLt
  omega

/-- The features' block at point t is rows [2000 t, 2000 t + 2000) of the features as the region finds them. -/
theorem iblk0_0_tile (c : Dev nD) (t : Fin cfg0.N) :
    IsTile (2000 * t.val) (rows0 t) (iblk0 V c 0 t : Arr2 2000 64) (V c main_v22 : Arr2 50000 64) := by
  intro p l
  obtain ⟨⟨h0, h1⟩, -⟩ := idx0 t
  unfold iblk0
  rw [View.read_apply]
  show (V c main_v22 : Arr2 50000 64) _ = (V c main_v22 : Arr2 50000 64) _
  refine congrArg (V c main_v22 : Arr2 50000 64) (funext fun a => Fin.ext ?_)
  match a with
  | ⟨0, _⟩ => show win0_0.index t 0 * 2000 + 1 * p.val = 2000 * t.val + p.val; rw [h0]; omega
  | ⟨1, _⟩ => show win0_0.index t 1 * 64 + 1 * l.val = l.val; rw [h1]; omega

/-- The weights' block at point t is the same rows of the column of node weights. -/
theorem iblk0_2_tile (c : Dev nD) (t : Fin cfg0.N) :
    IsTile (2000 * t.val) (rows0 t) (iblk0 V c 2 t : Arr2 2000 1) (V c main_v15 : Arr2 50000 1) := by
  intro p l
  obtain ⟨-, -, ⟨h0, h1⟩, -⟩ := idx0 t
  unfold iblk0
  rw [View.read_apply]
  show (V c main_v15 : Arr2 50000 1) _ = (V c main_v15 : Arr2 50000 1) _
  refine congrArg (V c main_v15 : Arr2 50000 1) (funext fun a => Fin.ext ?_)
  match a with
  | ⟨0, _⟩ => show win0_2.index t 0 * 2000 + 1 * p.val = 2000 * t.val + p.val; rw [h0]; omega
  | ⟨1, _⟩ => show win0_2.index t 1 * 1 + 1 * l.val = l.val; rw [h1]; omega

/-- The weight matrix's block at every point is the whole matrix. -/
theorem iblk0_1_whole (c : Dev nD) (t : Fin cfg0.N) : (iblk0 V c 1 t : Arr2 64 64) = (V c main_arg4 : Arr2 64 64) := by
  funext y
  obtain ⟨-, ⟨h0, h1⟩, -⟩ := idx0 t
  unfold iblk0
  rw [View.read_apply]
  show (V c main_arg4 : Arr2 64 64) _ = (V c main_arg4 : Arr2 64 64) y
  refine congrArg (V c main_arg4 : Arr2 64 64) (funext fun a => Fin.ext ?_)
  match a with
  | ⟨0, _⟩ => show win0_1.index t 0 * 64 + 1 * (y 0).val = (y 0).val; rw [h0]; omega
  | ⟨1, _⟩ => show win0_1.index t 1 * 64 + 1 * (y 1).val = (y 1).val; rw [h1]; omega

/-- Block t of a 50000 × 64 array, read at (p, l), is the array at row 2000 t + p. -/
theorem blk0_read (G : Arr2 50000 64) (t : Fin cfg0.N) (p : Fin 2000) (l : Fin 64) :
    (((cfg0.win 3).blk t).view.read (Elt Ideal) G : Arr2 2000 64) (ix2 p l)
      = G (ix2 ⟨2000 * t.val + p.val, by have := rows0 t; have := p.isLt; omega⟩ l) := by
  obtain ⟨-, -, -, ⟨h0, h1⟩⟩ := idx0 t
  rw [View.read_apply]
  show G _ = G _
  refine congrArg G (funext fun a => Fin.ext ?_)
  match a with
  | ⟨0, _⟩ => show win0_3.index t 0 * 2000 + 1 * p.val = 2000 * t.val + p.val; rw [h0]; omega
  | ⟨1, _⟩ => show win0_3.index t 1 * 64 + 1 * l.val = l.val; rw [h1]; omega

/-- What point t writes back is block t of the whole arrays' row-scaled product. -/
theorem flushed0 (c : Dev nD) (t : Fin cfg0.N) :
    (dat0 V c).flushed 3 t = ((cfg0.win 3).blk t).view.read (Elt Ideal)
      (scaled (V c main_v22 : Arr2 50000 64) (V c main_arg4 : Arr2 64 64) (V c main_v15 : Arr2 50000 1)) := by
  show ((dat0 V c).after 3 t : Arr2 2000 64) = (_ : Arr2 2000 64)
  rw [after0_3, out0_eq]
  funext y
  obtain ⟨p, l, rfl⟩ : ∃ (p : Fin 2000) (l : Fin 64), y = ix2 p l := ⟨y 0, y 1, eq_ix2 y⟩
  refine Eq.trans ?_ (blk0_read _ t p l).symm
  exact (congrArg (fun W : Arr2 64 64 => k0_pay1 (F := Ideal) (iblk0 V c 0 t : Arr2 2000 64) W (iblk0 V c 2 t : Arr2 2000 1) (ix2 p l))
    (iblk0_1_whole V c t)).trans (tile0 (V c main_arg4 : Arr2 64 64) (iblk0_0_tile V c t) (iblk0_2_tile V c t) p l)

/-- After the region the output array is the row-scaled product of the arrays the region was entered with. -/
theorem final0 (c : Dev nD) :
    (dat0 V c).arrAt 3 cfg0.N
      = scaled (V c main_v22 : Arr2 50000 64) (V c main_arg4 : Arr2 64 64) (V c main_v15 : Arr2 50000 1) :=
  (dat0 V c).arrAt_eq_of_cover 3 _ (fun t _ => flushed0 V c t) fun i => by
    have hN : cfg0.N = 25 := N_0
    have hi0 : (i 0).val < 50000 := (i 0).isLt
    have hi1 : (i 1).val < 64 := (i 1).isLt
    let t : Fin cfg0.N := ⟨(i 0).val / 2000, by rw [hN]; omega⟩
    have ht : t.val = (i 0).val / 2000 := rfl
    refine ⟨t, flush0_3 t, ?_⟩
    obtain ⟨-, -, -, ⟨h0, h1⟩⟩ := idx0 t
    show i ∈ ((View.whole main_v23).slice (win0_3.rect t)).set
    rw [View.set_slice_whole, Rect.mem_set_unit]
    intro a
    match a with
    | ⟨0, _⟩ =>
      show win0_3.index t 0 * 2000 ≤ (i 0).val ∧ (i 0).val < win0_3.index t 0 * 2000 + 2000
      rw [h0, ht]
      omega
    | ⟨1, _⟩ =>
      show win0_3.index t 1 * 64 ≤ (i 1).val ∧ (i 1).val < win0_3.index t 1 * 64 + 64
      rw [h1]
      omega

end Cert.KernelIdeal.Hand

end
-- ==== Proof.Region1.lean ====
/-
  Region 1: the first layer finished and the second layer's dense step, 2000 rows at a time.

  At grid point t the body loads rows [2000 t, 2000 t + 2000) of the first layer's neighbourhood sums A and of the
  column of node weights D, the whole bias row b and the whole weight matrix W. It scales row p of the sums by the
  weight of node 2000 t + p, adds the bias and cuts off below at zero: the first layer's activations h on those rows.
  Then it stores (h · W) with row p scaled by the same weight. Every step reads row v of the row-wise operands only,
  so what point t stores is rows [2000 t, 2000 t + 2000) of the whole arrays' function, and the 25 blocks tile the
  50000 rows.
-/
import proofs.«158104_j3221225472371_2_alg».proof.Proof.Gen.KernelIdeal.Frame
import proofs.«158104_j3221225472371_2_alg».proof.Proof.Dense
import proofs.«158104_j3221225472371_2_alg».proof.Proof.Region0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Tile Cert.Gcn

variable (V : (c : Dev nD) → (b : Ref sig .tc) → Buf (Elt Ideal) ((c : Thread nD τ).loc b))

/-- The body's one store leaves its payload. -/
theorem out1_eq (x0 : Vec Ideal S2000x64 .f32) (x1 : Vec Ideal S2000x1 .f32) (x2 : Vec Ideal S1x64 .f32) (x3 : Vec Ideal S64x64 .f32) :
    out1_4 x0 x1 x2 x3 = k1_pay1 x0 x1 x2 x3 x1 := by
  unfold out1_4
  rw [View.canon_unit_zero hz2]
  simp only [View.ld_unit_zero (S := S2000x64) hz2, View.ld_unit_zero (S := S2000x1) hz2, View.ld_unit_zero (S := S1x64) hz2, View.ld_unit_zero (S := S64x64) hz2]

/-- The payload of a row tile is the row tile of the whole arrays' function. -/
theorem tile1 {r0 : Nat} {hr : r0 + 2000 ≤ 50000} {a : Arr2 2000 64} {A : Arr2 50000 64} {dt : Arr2 2000 1}
    {D : Arr2 50000 1} (b : Arr2 1 64) (W : Arr2 64 64) (ha : IsTile r0 hr a A) (hd : IsTile r0 hr dt D) :
    IsTile r0 hr (k1_pay1 (F := Ideal) a dt b W dt) (scaled (act A D b) W D) := by
  unfold k1_pay1
  exact vTrunc .bf16 _ (vMul (vMatmul _ rfl none W (vTrunc .bf16 _ (tile_act b _ _ _ _ _ ha hd)))
    (colRep _ (bidCol 50000 64) (castSelf _ hd)))

/-- Where each window's block sits at point t: row block t of the row-tiled arrays, the whole of the others. -/
theorem idx1 : ∀ t : Fin grid1.N, (win1_0.index t 0 = t.val ∧ win1_0.index t 1 = 0)
    ∧ (win1_1.index t 0 = t.val ∧ win1_1.index t 1 = 0)
    ∧ (win1_2.index t 0 = 0 ∧ win1_2.index t 1 = 0)
    ∧ (win1_3.index t 0 = 0 ∧ win1_3.index t 1 = 0)
    ∧ (win1_4.index t 0 = t.val ∧ win1_4.index t 1 = 0) := by decide +kernel

theorem rows1 (t : Fin cfg1.N) : 2000 * t.val + 2000 ≤ 50000 := by
  have h : cfg1.N = 25 := N_1
  have := t.isLt
  omega

/-- Window 0's block at point t is rows [2000 t, 2000 t + 2000) of its array as the region finds it. -/
theorem iblk1_0_tile (c : Dev nD) (t : Fin cfg1.N) :
    IsTile (2000 * t.val) (rows1 t) (iblk1 V c 0 t : Arr2 2000 64) (V c main_v34 : Arr2 50000 64) := by
  intro p l
  obtain ⟨⟨h0, h1⟩, -, -, -, -⟩ := idx1 t
  unfold iblk1
  rw [View.read_apply]
  show (V c main_v34 : Arr2 50000 64) _ = (V c main_v34 : Arr2 50000 64) _
  refine congrArg (V c main_v34 : Arr2 50000 64) (funext fun a => Fin.ext ?_)
  match a with
  | ⟨0, _⟩ => show win1_0.index t 0 * 2000 + 1 * p.val = 2000 * t.val + p.val; rw [h0]; omega
  | ⟨1, _⟩ => show win1_0.index t 1 * 64 + 1 * l.val = l.val; rw [h1]; omega

/-- Window 1's block at point t is rows [2000 t, 2000 t + 2000) of its array as the region finds it. -/
theorem iblk1_1_tile (c : Dev nD) (t : Fin cfg1.N) :
    IsTile (2000 * t.val) (rows1 t) (iblk1 V c 1 t : Arr2 2000 1) (V c main_v15 : Arr2 50000 1) := by
  intro p l
  obtain ⟨-, ⟨h0, h1⟩, -, -, -⟩ := idx1 t
  unfold iblk1
  rw [View.read_apply]
  show (V c main_v15 : Arr2 50000 1) _ = (V c main_v15 : Arr2 50000 1) _
  refine congrArg (V c main_v15 : Arr2 50000 1) (funext fun a => Fin.ext ?_)
  match a with
  | ⟨0, _⟩ => show win1_1.index t 0 * 2000 + 1 * p.val = 2000 * t.val + p.val; rw [h0]; omega
  | ⟨1, _⟩ => show win1_1.index t 1 * 1 + 1 * l.val = l.val; rw [h1]; omega

/-- Window 2's block at every point is its whole array. -/
theorem iblk1_2_whole (c : Dev nD) (t : Fin cfg1.N) : (iblk1 V c 2 t : Arr2 1 64) = (V c main_v35 : Arr2 1 64) := by
  funext y
  obtain ⟨-, -, ⟨h0, h1⟩, -, -⟩ := idx1 t
  unfold iblk1
  rw [View.read_apply]
  show (V c main_v35 : Arr2 1 64) _ = (V c main_v35 : Arr2 1 64) y
  refine congrArg (V c main_v35 : Arr2 1 64) (funext fun a => Fin.ext ?_)
  match a with
  | ⟨0, _⟩ => show win1_2.index t 0 * 1 + 1 * (y 0).val = (y 0).val; rw [h0]; omega
  | ⟨1, _⟩ => show win1_2.index t 1 * 64 + 1 * (y 1).val = (y 1).val; rw [h1]; omega

/-- Window 3's block at every point is its whole array. -/
theorem iblk1_3_whole (c : Dev nD) (t : Fin cfg1.N) : (iblk1 V c 3 t : Arr2 64 64) = (V c main_arg6 : Arr2 64 64) := by
  funext y
  obtain ⟨-, -, -, ⟨h0, h1⟩, -⟩ := idx1 t
  unfold iblk1
  rw [View.read_apply]
  show (V c main_arg6 : Arr2 64 64) _ = (V c main_arg6 : Arr2 64 64) y
  refine congrArg (V c main_arg6 : Arr2 64 64) (funext fun a => Fin.ext ?_)
  match a with
  | ⟨0, _⟩ => show win1_3.index t 0 * 64 + 1 * (y 0).val = (y 0).val; rw [h0]; omega
  | ⟨1, _⟩ => show win1_3.index t 1 * 64 + 1 * (y 1).val = (y 1).val; rw [h1]; omega

/-- Block t of a 50000 × 64 array, read at (p, l), is the array at row 2000 t + p. -/
theorem blk1_read (G : Arr2 50000 64) (t : Fin cfg1.N) (p : Fin 2000) (l : Fin 64) :
    (((cfg1.win 4).blk t).view.read (Elt Ideal) G : Arr2 2000 64) (ix2 p l)
      = G (ix2 ⟨2000 * t.val + p.val, by have := rows1 t; have := p.isLt; omega⟩ l) := by
  obtain ⟨-, -, -, -, ⟨h0, h1⟩⟩ := idx1 t
  rw [View.read_apply]
  show G _ = G _
  refine congrArg G (funext fun a => Fin.ext ?_)
  match a with
  | ⟨0, _⟩ => show win1_4.index t 0 * 2000 + 1 * p.val = 2000 * t.val + p.val; rw [h0]; omega
  | ⟨1, _⟩ => show win1_4.index t 1 * 64 + 1 * l.val = l.val; rw [h1]; omega

/-- What point t writes back is block t of the whole arrays' function. -/
theorem flushed1 (c : Dev nD) (t : Fin cfg1.N) :
    (dat1 V c).flushed 4 t = ((cfg1.win 4).blk t).view.read (Elt Ideal)
      (scaled (act (V c main_v34 : Arr2 50000 64) (V c main_v15 : Arr2 50000 1) (V c main_v35 : Arr2 1 64)) (V c main_arg6 : Arr2 64 64) (V c main_v15 : Arr2 50000 1)) := by
  show ((dat1 V c).after 4 t : Arr2 2000 64) = (_ : Arr2 2000 64)
  rw [after1_4, out1_eq]
  funext y
  obtain ⟨p, l, rfl⟩ : ∃ (p : Fin 2000) (l : Fin 64), y = ix2 p l := ⟨y 0, y 1, eq_ix2 y⟩
  refine Eq.trans ?_ (blk1_read _ t p l).symm
  exact (congrArg₂ (fun (b : Arr2 1 64) (W : Arr2 64 64) => k1_pay1 (F := Ideal) (iblk1 V c 0 t : Arr2 2000 64)
      (iblk1 V c 1 t : Arr2 2000 1) b W (iblk1 V c 1 t : Arr2 2000 1) (ix2 p l)) (iblk1_2_whole V c t) (iblk1_3_whole V c t)).trans
    (tile1 (V c main_v35 : Arr2 1 64) (V c main_arg6 : Arr2 64 64) (iblk1_0_tile V c t) (iblk1_1_tile V c t) p l)

/-- After the region the output array is the whole arrays' function of what the region was entered with. -/
theorem final1 (c : Dev nD) :
    (dat1 V c).arrAt 4 cfg1.N
      = scaled (act (V c main_v34 : Arr2 50000 64) (V c main_v15 : Arr2 50000 1) (V c main_v35 : Arr2 1 64)) (V c main_arg6 : Arr2 64 64) (V c main_v15 : Arr2 50000 1) :=
  (dat1 V c).arrAt_eq_of_cover 4 _ (fun t _ => flushed1 V c t) fun i => by
    have hN : cfg1.N = 25 := N_1
    have hi0 : (i 0).val < 50000 := (i 0).isLt
    have hi1 : (i 1).val < 64 := (i 1).isLt
    let t : Fin cfg1.N := ⟨(i 0).val / 2000, by rw [hN]; omega⟩
    have ht : t.val = (i 0).val / 2000 := rfl
    refine ⟨t, flush1_4 t, ?_⟩
    obtain ⟨-, -, -, -, ⟨h0, h1⟩⟩ := idx1 t
    show i ∈ ((View.whole main_v36).slice (win1_4.rect t)).set
    rw [View.set_slice_whole, Rect.mem_set_unit]
    intro a
    match a with
    | ⟨0, _⟩ =>
      show win1_4.index t 0 * 2000 ≤ (i 0).val ∧ (i 0).val < win1_4.index t 0 * 2000 + 2000
      rw [h0, ht]
      omega
    | ⟨1, _⟩ =>
      show win1_4.index t 1 * 64 ≤ (i 1).val ∧ (i 1).val < win1_4.index t 1 * 64 + 64
      rw [h1]
      omega

end Cert.KernelIdeal.Hand

end
-- ==== Proof.Region2.lean ====
/-
  Region 2: the second layer finished, 2000 rows at a time.

  At grid point t the body loads rows [2000 t, 2000 t + 2000) of the second layer's neighbourhood sums A and of the
  column of node weights D and the whole bias row b, scales row p of the sums by the weight of node 2000 t + p, adds
  the bias and cuts off below at zero. What point t stores is rows [2000 t, 2000 t + 2000) of the whole arrays'
  function, and the 25 blocks tile the 50000 rows.
-/
import proofs.«158104_j3221225472371_2_alg».proof.Proof.Gen.KernelIdeal.Frame
import proofs.«158104_j3221225472371_2_alg».proof.Proof.Dense
import proofs.«158104_j3221225472371_2_alg».proof.Proof.Region0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Tile Cert.Gcn

variable (V : (c : Dev nD) → (b : Ref sig .tc) → Buf (Elt Ideal) ((c : Thread nD τ).loc b))

/-- The body's one store leaves its payload. -/
theorem out2_eq (x0 : Vec Ideal S2000x64 .f32) (x1 : Vec Ideal S2000x1 .f32) (x2 : Vec Ideal S1x64 .f32) :
    out2_3 x0 x1 x2 = k2_pay1 x0 x1 x2 := by
  unfold out2_3
  rw [View.canon_unit_zero hz2]
  simp only [View.ld_unit_zero (S := S2000x64) hz2, View.ld_unit_zero (S := S2000x1) hz2, View.ld_unit_zero (S := S1x64) hz2]

/-- The payload of a row tile is the row tile of the whole arrays' function. -/
theorem tile2 {r0 : Nat} {hr : r0 + 2000 ≤ 50000} {a : Arr2 2000 64} {A : Arr2 50000 64} {dt : Arr2 2000 1}
    {D : Arr2 50000 1} (b : Arr2 1 64) (ha : IsTile r0 hr a A) (hd : IsTile r0 hr dt D) :
    IsTile r0 hr (k2_pay1 (F := Ideal) a dt b) (act A D b) := by
  unfold k2_pay1
  exact tile_act b _ _ _ _ _ ha hd

/-- Where each window's block sits at point t: row block t of the row-tiled arrays, the whole of the others. -/
theorem idx2 : ∀ t : Fin grid2.N, (win2_0.index t 0 = t.val ∧ win2_0.index t 1 = 0)
    ∧ (win2_1.index t 0 = t.val ∧ win2_1.index t 1 = 0)
    ∧ (win2_2.index t 0 = 0 ∧ win2_2.index t 1 = 0)
    ∧ (win2_3.index t 0 = t.val ∧ win2_3.index t 1 = 0) := by decide +kernel

theorem rows2 (t : Fin cfg2.N) : 2000 * t.val + 2000 ≤ 50000 := by
  have h : cfg2.N = 25 := N_2
  have := t.isLt
  omega

/-- Window 0's block at point t is rows [2000 t, 2000 t + 2000) of its array as the region finds it. -/
theorem iblk2_0_tile (c : Dev nD) (t : Fin cfg2.N) :
    IsTile (2000 * t.val) (rows2 t) (iblk2 V c 0 t : Arr2 2000 64) (V c main_v47 : Arr2 50000 64) := by
  intro p l
  obtain ⟨⟨h0, h1⟩, -, -, -⟩ := idx2 t
  unfold iblk2
  rw [View.read_apply]
  show (V c main_v47 : Arr2 50000 64) _ = (V c main_v47 : Arr2 50000 64) _
  refine congrArg (V c main_v47 : Arr2 50000 64) (funext fun a => Fin.ext ?_)
  match a with
  | ⟨0, _⟩ => show win2_0.index t 0 * 2000 + 1 * p.val = 2000 * t.val + p.val; rw [h0]; omega
  | ⟨1, _⟩ => show win2_0.index t 1 * 64 + 1 * l.val = l.val; rw [h1]; omega

/-- Window 1's block at point t is rows [2000 t, 2000 t + 2000) of its array as the region finds it. -/
theorem iblk2_1_tile (c : Dev nD) (t : Fin cfg2.N) :
    IsTile (2000 * t.val) (rows2 t) (iblk2 V c 1 t : Arr2 2000 1) (V c main_v15 : Arr2 50000 1) := by
  intro p l
  obtain ⟨-, ⟨h0, h1⟩, -, -⟩ := idx2 t
  unfold iblk2
  rw [View.read_apply]
  show (V c main_v15 : Arr2 50000 1) _ = (V c main_v15 : Arr2 50000 1) _
  refine congrArg (V c main_v15 : Arr2 50000 1) (funext fun a => Fin.ext ?_)
  match a with
  | ⟨0, _⟩ => show win2_1.index t 0 * 2000 + 1 * p.val = 2000 * t.val + p.val; rw [h0]; omega
  | ⟨1, _⟩ => show win2_1.index t 1 * 1 + 1 * l.val = l.val; rw [h1]; omega

/-- Window 2's block at every point is its whole array. -/
theorem iblk2_2_whole (c : Dev nD) (t : Fin cfg2.N) : (iblk2 V c 2 t : Arr2 1 64) = (V c main_v48 : Arr2 1 64) := by
  funext y
  obtain ⟨-, -, ⟨h0, h1⟩, -⟩ := idx2 t
  unfold iblk2
  rw [View.read_apply]
  show (V c main_v48 : Arr2 1 64) _ = (V c main_v48 : Arr2 1 64) y
  refine congrArg (V c main_v48 : Arr2 1 64) (funext fun a => Fin.ext ?_)
  match a with
  | ⟨0, _⟩ => show win2_2.index t 0 * 1 + 1 * (y 0).val = (y 0).val; rw [h0]; omega
  | ⟨1, _⟩ => show win2_2.index t 1 * 64 + 1 * (y 1).val = (y 1).val; rw [h1]; omega

/-- Block t of a 50000 × 64 array, read at (p, l), is the array at row 2000 t + p. -/
theorem blk2_read (G : Arr2 50000 64) (t : Fin cfg2.N) (p : Fin 2000) (l : Fin 64) :
    (((cfg2.win 3).blk t).view.read (Elt Ideal) G : Arr2 2000 64) (ix2 p l)
      = G (ix2 ⟨2000 * t.val + p.val, by have := rows2 t; have := p.isLt; omega⟩ l) := by
  obtain ⟨-, -, -, ⟨h0, h1⟩⟩ := idx2 t
  rw [View.read_apply]
  show G _ = G _
  refine congrArg G (funext fun a => Fin.ext ?_)
  match a with
  | ⟨0, _⟩ => show win2_3.index t 0 * 2000 + 1 * p.val = 2000 * t.val + p.val; rw [h0]; omega
  | ⟨1, _⟩ => show win2_3.index t 1 * 64 + 1 * l.val = l.val; rw [h1]; omega

/-- What point t writes back is block t of the whole arrays' function. -/
theorem flushed2 (c : Dev nD) (t : Fin cfg2.N) :
    (dat2 V c).flushed 3 t = ((cfg2.win 3).blk t).view.read (Elt Ideal)
      (act (V c main_v47 : Arr2 50000 64) (V c main_v15 : Arr2 50000 1) (V c main_v48 : Arr2 1 64)) := by
  show ((dat2 V c).after 3 t : Arr2 2000 64) = (_ : Arr2 2000 64)
  rw [after2_3, out2_eq]
  funext y
  obtain ⟨p, l, rfl⟩ : ∃ (p : Fin 2000) (l : Fin 64), y = ix2 p l := ⟨y 0, y 1, eq_ix2 y⟩
  refine Eq.trans ?_ (blk2_read _ t p l).symm
  exact (congrArg (fun b : Arr2 1 64 => k2_pay1 (F := Ideal) (iblk2 V c 0 t : Arr2 2000 64) (iblk2 V c 1 t : Arr2 2000 1) b (ix2 p l))
    (iblk2_2_whole V c t)).trans (tile2 (V c main_v48 : Arr2 1 64) (iblk2_0_tile V c t) (iblk2_1_tile V c t) p l)

/-- After the region the output array is the whole arrays' function of what the region was entered with. -/
theorem final2 (c : Dev nD) :
    (dat2 V c).arrAt 3 cfg2.N
      = act (V c main_v47 : Arr2 50000 64) (V c main_v15 : Arr2 50000 1) (V c main_v48 : Arr2 1 64) :=
  (dat2 V c).arrAt_eq_of_cover 3 _ (fun t _ => flushed2 V c t) fun i => by
    have hN : cfg2.N = 25 := N_2
    have hi0 : (i 0).val < 50000 := (i 0).isLt
    have hi1 : (i 1).val < 64 := (i 1).isLt
    let t : Fin cfg2.N := ⟨(i 0).val / 2000, by rw [hN]; omega⟩
    have ht : t.val = (i 0).val / 2000 := rfl
    refine ⟨t, flush2_3 t, ?_⟩
    obtain ⟨-, -, -, ⟨h0, h1⟩⟩ := idx2 t
    show i ∈ ((View.whole main_v49).slice (win2_3.rect t)).set
    rw [View.set_slice_whole, Rect.mem_set_unit]
    intro a
    match a with
    | ⟨0, _⟩ =>
      show win2_3.index t 0 * 2000 ≤ (i 0).val ∧ (i 0).val < win2_3.index t 0 * 2000 + 2000
      rw [h0, ht]
      omega
    | ⟨1, _⟩ =>
      show win2_3.index t 1 * 64 ≤ (i 1).val ∧ (i 1).val < win2_3.index t 1 * 64 + 64
      rw [h1]
      omega

end Cert.KernelIdeal.Hand

end
-- ==== Proof.Region3.lean ====
/-
  Region 3: mean pooling and the classifier, in one grid point.

  The one point loads the whole arrays: the per-graph sums S (128 × 64), the per-graph counts n (128 × 1), the
  classifier's weights W (64 × 2) and its bias row b (1 × 2). It divides row g of the sums by the larger of n g and
  one, multiplies by W and adds the bias. Each block is its whole array, so after the region the output array is
  that function of the arrays the region was entered with.
-/
import proofs.«158104_j3221225472371_2_alg».proof.Proof.Gen.KernelIdeal.Frame
import proofs.«158104_j3221225472371_2_alg».proof.Proof.Dense
import proofs.«158104_j3221225472371_2_alg».proof.Proof.Region0
import Idealize.ShloMosaic.Lib.Pipeline.Value
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx
open Idealize.ShloMosaic.Pipeline (Dat)
open Cert.Tile Cert.Gcn

variable (V : (c : Dev nD) → (b : Ref sig .tc) → Buf (Elt Ideal) ((c : Thread nD τ).loc b))

/-- The body's one store leaves its payload (the counts' block is the payload's first operand, the sums' its second). -/
theorem out3_eq (x0 : Vec Ideal S128x64 .f32) (x1 : Vec Ideal S128x1 .f32) (x2 : Vec Ideal S64x2 .f32) (x3 : Vec Ideal S1x2 .f32) :
    out3_4 x0 x1 x2 x3 = k3_pay1 x1 x0 x2 x3 := by
  unfold out3_4
  rw [View.canon_unit_zero hz2]
  simp only [View.ld_unit_zero (S := S128x1) hz2, View.ld_unit_zero (S := S128x64) hz2, View.ld_unit_zero (S := S64x2) hz2,
    View.ld_unit_zero (S := S1x2) hz2]

/-- The payload is the pooled classifier: every step is entry by entry, a column repeated across a row, a product
    with a weight matrix, or a row repeated down the rows. -/
theorem pay3_eq (S : Arr2 128 64) (n : Arr2 128 1) (W : Arr2 64 2) (b : Arr2 1 2) :
    k3_pay1 (F := Ideal) n S W b = pooled S n W b := by
  have h : IsTile 0 (Nat.le_of_eq (Nat.zero_add 128)) (k3_pay1 (F := Ideal) n S W b)
      (pooled S n W (shapeCast ⟨2, ![1, 2]⟩ b shapeCasts_S1x2_S1x2)) := by
    unfold k3_pay1
    exact vAdd (vMatmul _ rfl none W (vTrunc .bf16 _ (vDiv (castSelf _ (isTile_self S _))
      (colRep _ (bidCol 128 64) (vMax (castSelf _ (isTile_self n _)) (vSplat 0x3F800000#32 (bidScalar 128 1)))))))
      (rowRep (shapeCast ⟨2, ![1, 2]⟩ b shapeCasts_S1x2_S1x2) _ (bidRow 128 2))
  rw [shapeCast_self] at h
  exact eq_of_isTile_zero _ h

/-- Every window's block at the one point starts at (0, 0). -/
theorem idx3 : ∀ t : Fin grid3.N, (win3_0.index t 0 = 0 ∧ win3_0.index t 1 = 0)
    ∧ (win3_1.index t 0 = 0 ∧ win3_1.index t 1 = 0)
    ∧ (win3_2.index t 0 = 0 ∧ win3_2.index t 1 = 0)
    ∧ (win3_3.index t 0 = 0 ∧ win3_3.index t 1 = 0)
    ∧ (win3_4.index t 0 = 0 ∧ win3_4.index t 1 = 0) := by decide +kernel

/-- Window 0's block is its whole array. -/
theorem iblk3_0_whole (c : Dev nD) (t : Fin cfg3.N) : (iblk3 V c 0 t : Arr2 128 64) = (V c main_v52 : Arr2 128 64) := by
  funext y
  obtain ⟨⟨h0, h1⟩, -, -, -, -⟩ := idx3 t
  unfold iblk3
  rw [View.read_apply]
  show (V c main_v52 : Arr2 128 64) _ = (V c main_v52 : Arr2 128 64) y
  refine congrArg (V c main_v52 : Arr2 128 64) (funext fun a => Fin.ext ?_)
  match a with
  | ⟨0, _⟩ => show win3_0.index t 0 * 128 + 1 * (y 0).val = (y 0).val; rw [h0]; omega
  | ⟨1, _⟩ => show win3_0.index t 1 * 64 + 1 * (y 1).val = (y 1).val; rw [h1]; omega

/-- Window 1's block is its whole array. -/
theorem iblk3_1_whole (c : Dev nD) (t : Fin cfg3.N) : (iblk3 V c 1 t : Arr2 128 1) = (V c main_v57 : Arr2 128 1) := by
  funext y
  obtain ⟨-, ⟨h0, h1⟩, -, -, -⟩ := idx3 t
  unfold iblk3
  rw [View.read_apply]
  show (V c main_v57 : Arr2 128 1) _ = (V c main_v57 : Arr2 128 1) y
  refine congrArg (V c main_v57 : Arr2 128 1) (funext fun a => Fin.ext ?_)
  match a with
  | ⟨0, _⟩ => show win3_1.index t 0 * 128 + 1 * (y 0).val = (y 0).val; rw [h0]; omega
  | ⟨1, _⟩ => show win3_1.index t 1 * 1 + 1 * (y 1).val = (y 1).val; rw [h1]; omega

/-- Window 2's block is its whole array. -/
theorem iblk3_2_whole (c : Dev nD) (t : Fin cfg3.N) : (iblk3 V c 2 t : Arr2 64 2) = (V c main_arg8 : Arr2 64 2) := by
  funext y
  obtain ⟨-, -, ⟨h0, h1⟩, -, -⟩ := idx3 t
  unfold iblk3
  rw [View.read_apply]
  show (V c main_arg8 : Arr2 64 2) _ = (V c main_arg8 : Arr2 64 2) y
  refine congrArg (V c main_arg8 : Arr2 64 2) (funext fun a => Fin.ext ?_)
  match a with
  | ⟨0, _⟩ => show win3_2.index t 0 * 64 + 1 * (y 0).val = (y 0).val; rw [h0]; omega
  | ⟨1, _⟩ => show win3_2.index t 1 * 2 + 1 * (y 1).val = (y 1).val; rw [h1]; omega

/-- Window 3's block is its whole array. -/
theorem iblk3_3_whole (c : Dev nD) (t : Fin cfg3.N) : (iblk3 V c 3 t : Arr2 1 2) = (V c main_v58 : Arr2 1 2) := by
  funext y
  obtain ⟨-, -, -, ⟨h0, h1⟩, -⟩ := idx3 t
  unfold iblk3
  rw [View.read_apply]
  show (V c main_v58 : Arr2 1 2) _ = (V c main_v58 : Arr2 1 2) y
  refine congrArg (V c main_v58 : Arr2 1 2) (funext fun a => Fin.ext ?_)
  match a with
  | ⟨0, _⟩ => show win3_3.index t 0 * 1 + 1 * (y 0).val = (y 0).val; rw [h0]; omega
  | ⟨1, _⟩ => show win3_3.index t 1 * 2 + 1 * (y 1).val = (y 1).val; rw [h1]; omega

/-- The output's one block, read through, is the whole array. -/
theorem blk3_read (G : Arr2 128 2) (t : Fin cfg3.N) :
    (((cfg3.win 4).blk t).view.read (Elt Ideal) G : Arr2 128 2) = G := by
  funext y
  obtain ⟨-, -, -, -, ⟨h0, h1⟩⟩ := idx3 t
  rw [View.read_apply]
  show G _ = G y
  refine congrArg G (funext fun a => Fin.ext ?_)
  match a with
  | ⟨0, _⟩ => show win3_4.index t 0 * 128 + 1 * (y 0).val = (y 0).val; rw [h0]; omega
  | ⟨1, _⟩ => show win3_4.index t 1 * 2 + 1 * (y 1).val = (y 1).val; rw [h1]; omega

/-- What the one point writes back is the pooled classifier of the whole arrays. -/
theorem flushed3 (c : Dev nD) (t : Fin cfg3.N) :
    (dat3 V c).flushed 4 t = ((cfg3.win 4).blk t).view.read (Elt Ideal)
      (pooled (V c main_v52 : Arr2 128 64) (V c main_v57 : Arr2 128 1) (V c main_arg8 : Arr2 64 2) (V c main_v58 : Arr2 1 2)) := by
  show ((dat3 V c).after 4 t : Arr2 128 2) = (_ : Arr2 128 2)
  rw [after3_4, out3_eq, iblk3_0_whole, iblk3_1_whole, iblk3_2_whole, iblk3_3_whole]
  exact (pay3_eq _ _ _ _).trans (blk3_read _ t).symm

/-- After the region the output array is the pooled classifier of the arrays the region was entered with. -/
theorem final3 (c : Dev nD) :
    (dat3 V c).arrAt 4 cfg3.N
      = pooled (V c main_v52 : Arr2 128 64) (V c main_v57 : Arr2 128 1) (V c main_arg8 : Arr2 64 2) (V c main_v58 : Arr2 1 2) :=
  (dat3 V c).arrAt_eq_of_cover 4 _ (fun t _ => flushed3 V c t) fun i => by
    have hi0 : (i 0).val < 128 := (i 0).isLt
    have hi1 : (i 1).val < 2 := (i 1).isLt
    refine ⟨t3_0, flush3_4 t3_0, ?_⟩
    obtain ⟨-, -, -, -, ⟨h0, h1⟩⟩ := idx3 t3_0
    show i ∈ ((View.whole main_v59).slice (win3_4.rect t3_0)).set
    rw [View.set_slice_whole, Rect.mem_set_unit]
    intro a
    match a with
    | ⟨0, _⟩ =>
      show win3_4.index t3_0 0 * 128 ≤ (i 0).val ∧ (i 0).val < win3_4.index t3_0 0 * 128 + 128
      rw [h0]
      omega
    | ⟨1, _⟩ =>
      show win3_4.index t3_0 1 * 2 ≤ (i 1).val ∧ (i 1).val < win3_4.index t3_0 1 * 2 + 2
      rw [h1]
      omega

end Cert.KernelIdeal.Hand

end
-- ==== Proof.Boundaries.lean ====
/-
  The contents of the buffers the idealized kernel's regions and host stretches read, boundary by boundary.

  `W0` is the launch memory; a host stretch applies its operations to the contents before it; a region leaves its
  output array at the whole-array function of its inputs (the region modules) and every other buffer alone. Walking
  @main from the launch: the ten arguments are never written; the two edge lists, the column of node weights and the
  looked-up features are computed before the first region; each region's output feeds the gather and scatter-add of
  the stretch after it. At the last boundary the result buffer holds `result` of the ten arguments.
-/
import proofs.«158104_j3221225472371_2_alg».proof.Proof.Gen.KernelIdeal.Frame
import proofs.«158104_j3221225472371_2_alg».proof.Proof.KernelTerm
import proofs.«158104_j3221225472371_2_alg».proof.Proof.Region1
import proofs.«158104_j3221225472371_2_alg».proof.Proof.Region2
import proofs.«158104_j3221225472371_2_alg».proof.Proof.Region3
import Idealize.ShloMosaic.Lib.StableHlo.Run
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.SL.Sem Idealize.ShloMosaic.ValueIdx Idealize.ShloMosaic.StableHlo
open Idealize.ShloMosaic.Pipeline (Dat)
open Cert.Gcn

variable (m : (ℓ : Loc nD τ sig) → Buf (Elt Ideal) ℓ) (ρ : Dev nD → PrngReg) (c : Dev nD)

/-! ### `main_arg2` through the boundaries -/

theorem W3_arg2 : W3 m ρ c (Proc.devRef .tc main_arg2) = (m ((c.tc : Thread nD τ).loc main_arg2)) := by
  show StableHlo.after hostOps0_2 (StableHlo.after hostOps0_1 (StableHlo.after hostOps0 (W0 m ρ c))) (Proc.devRef .tc main_arg2) = _
  after_results
theorem W4_arg2 : W4 m ρ c (Proc.devRef .tc main_arg2) = (m ((c.tc : Thread nD τ).loc main_arg2)) :=
  (W4_of_ne m ρ c main_arg2 (by decide)).trans (W3_arg2 m ρ c)
theorem W5_arg2 : W5 m ρ c (Proc.devRef .tc main_arg2) = (m ((c.tc : Thread nD τ).loc main_arg2)) := by
  show StableHlo.after hostOps1 (W4 m ρ c) (Proc.devRef .tc main_arg2) = _
  after_results
  exact W4_arg2 m ρ c
theorem W6_arg2 : W6 m ρ c (Proc.devRef .tc main_arg2) = (m ((c.tc : Thread nD τ).loc main_arg2)) :=
  (W6_of_ne m ρ c main_arg2 (by decide)).trans (W5_arg2 m ρ c)
theorem W7_arg2 : W7 m ρ c (Proc.devRef .tc main_arg2) = (m ((c.tc : Thread nD τ).loc main_arg2)) := by
  show StableHlo.after hostOps2 (W6 m ρ c) (Proc.devRef .tc main_arg2) = _
  after_results
  exact W6_arg2 m ρ c
theorem W8_arg2 : W8 m ρ c (Proc.devRef .tc main_arg2) = (m ((c.tc : Thread nD τ).loc main_arg2)) :=
  (W8_of_ne m ρ c main_arg2 (by decide)).trans (W7_arg2 m ρ c)

/-! ### `main_arg4` through the boundaries -/

theorem W3_arg4 : W3 m ρ c (Proc.devRef .tc main_arg4) = (m ((c.tc : Thread nD τ).loc main_arg4)) := by
  show StableHlo.after hostOps0_2 (StableHlo.after hostOps0_1 (StableHlo.after hostOps0 (W0 m ρ c))) (Proc.devRef .tc main_arg4) = _
  after_results

/-! ### `main_arg5` through the boundaries -/

theorem W3_arg5 : W3 m ρ c (Proc.devRef .tc main_arg5) = (m ((c.tc : Thread nD τ).loc main_arg5)) := by
  show StableHlo.after hostOps0_2 (StableHlo.after hostOps0_1 (StableHlo.after hostOps0 (W0 m ρ c))) (Proc.devRef .tc main_arg5) = _
  after_results
theorem W4_arg5 : W4 m ρ c (Proc.devRef .tc main_arg5) = (m ((c.tc : Thread nD τ).loc main_arg5)) :=
  (W4_of_ne m ρ c main_arg5 (by decide)).trans (W3_arg5 m ρ c)

/-! ### `main_arg6` through the boundaries -/

theorem W3_arg6 : W3 m ρ c (Proc.devRef .tc main_arg6) = (m ((c.tc : Thread nD τ).loc main_arg6)) := by
  show StableHlo.after hostOps0_2 (StableHlo.after hostOps0_1 (StableHlo.after hostOps0 (W0 m ρ c))) (Proc.devRef .tc main_arg6) = _
  after_results
theorem W4_arg6 : W4 m ρ c (Proc.devRef .tc main_arg6) = (m ((c.tc : Thread nD τ).loc main_arg6)) :=
  (W4_of_ne m ρ c main_arg6 (by decide)).trans (W3_arg6 m ρ c)
theorem W5_arg6 : W5 m ρ c (Proc.devRef .tc main_arg6) = (m ((c.tc : Thread nD τ).loc main_arg6)) := by
  show StableHlo.after hostOps1 (W4 m ρ c) (Proc.devRef .tc main_arg6) = _
  after_results
  exact W4_arg6 m ρ c

/-! ### `main_arg7` through the boundaries -/

theorem W3_arg7 : W3 m ρ c (Proc.devRef .tc main_arg7) = (m ((c.tc : Thread nD τ).loc main_arg7)) := by
  show StableHlo.after hostOps0_2 (StableHlo.after hostOps0_1 (StableHlo.after hostOps0 (W0 m ρ c))) (Proc.devRef .tc main_arg7) = _
  after_results
theorem W4_arg7 : W4 m ρ c (Proc.devRef .tc main_arg7) = (m ((c.tc : Thread nD τ).loc main_arg7)) :=
  (W4_of_ne m ρ c main_arg7 (by decide)).trans (W3_arg7 m ρ c)
theorem W5_arg7 : W5 m ρ c (Proc.devRef .tc main_arg7) = (m ((c.tc : Thread nD τ).loc main_arg7)) := by
  show StableHlo.after hostOps1 (W4 m ρ c) (Proc.devRef .tc main_arg7) = _
  after_results
  exact W4_arg7 m ρ c
theorem W6_arg7 : W6 m ρ c (Proc.devRef .tc main_arg7) = (m ((c.tc : Thread nD τ).loc main_arg7)) :=
  (W6_of_ne m ρ c main_arg7 (by decide)).trans (W5_arg7 m ρ c)

/-! ### `main_arg8` through the boundaries -/

theorem W3_arg8 : W3 m ρ c (Proc.devRef .tc main_arg8) = (m ((c.tc : Thread nD τ).loc main_arg8)) := by
  show StableHlo.after hostOps0_2 (StableHlo.after hostOps0_1 (StableHlo.after hostOps0 (W0 m ρ c))) (Proc.devRef .tc main_arg8) = _
  after_results
theorem W4_arg8 : W4 m ρ c (Proc.devRef .tc main_arg8) = (m ((c.tc : Thread nD τ).loc main_arg8)) :=
  (W4_of_ne m ρ c main_arg8 (by decide)).trans (W3_arg8 m ρ c)
theorem W5_arg8 : W5 m ρ c (Proc.devRef .tc main_arg8) = (m ((c.tc : Thread nD τ).loc main_arg8)) := by
  show StableHlo.after hostOps1 (W4 m ρ c) (Proc.devRef .tc main_arg8) = _
  after_results
  exact W4_arg8 m ρ c
theorem W6_arg8 : W6 m ρ c (Proc.devRef .tc main_arg8) = (m ((c.tc : Thread nD τ).loc main_arg8)) :=
  (W6_of_ne m ρ c main_arg8 (by decide)).trans (W5_arg8 m ρ c)
theorem W7_arg8 : W7 m ρ c (Proc.devRef .tc main_arg8) = (m ((c.tc : Thread nD τ).loc main_arg8)) := by
  show StableHlo.after hostOps2 (W6 m ρ c) (Proc.devRef .tc main_arg8) = _
  after_results
  exact W6_arg8 m ρ c
theorem W8_arg8 : W8 m ρ c (Proc.devRef .tc main_arg8) = (m ((c.tc : Thread nD τ).loc main_arg8)) :=
  (W8_of_ne m ρ c main_arg8 (by decide)).trans (W7_arg8 m ρ c)
theorem W9_arg8 : W9 m ρ c (Proc.devRef .tc main_arg8) = (m ((c.tc : Thread nD τ).loc main_arg8)) := by
  show StableHlo.after hostOps3 (W8 m ρ c) (Proc.devRef .tc main_arg8) = _
  after_results
  exact W8_arg8 m ρ c

/-! ### `main_arg9` through the boundaries -/

theorem W3_arg9 : W3 m ρ c (Proc.devRef .tc main_arg9) = (m ((c.tc : Thread nD τ).loc main_arg9)) := by
  show StableHlo.after hostOps0_2 (StableHlo.after hostOps0_1 (StableHlo.after hostOps0 (W0 m ρ c))) (Proc.devRef .tc main_arg9) = _
  after_results
theorem W4_arg9 : W4 m ρ c (Proc.devRef .tc main_arg9) = (m ((c.tc : Thread nD τ).loc main_arg9)) :=
  (W4_of_ne m ρ c main_arg9 (by decide)).trans (W3_arg9 m ρ c)
theorem W5_arg9 : W5 m ρ c (Proc.devRef .tc main_arg9) = (m ((c.tc : Thread nD τ).loc main_arg9)) := by
  show StableHlo.after hostOps1 (W4 m ρ c) (Proc.devRef .tc main_arg9) = _
  after_results
  exact W4_arg9 m ρ c
theorem W6_arg9 : W6 m ρ c (Proc.devRef .tc main_arg9) = (m ((c.tc : Thread nD τ).loc main_arg9)) :=
  (W6_of_ne m ρ c main_arg9 (by decide)).trans (W5_arg9 m ρ c)
theorem W7_arg9 : W7 m ρ c (Proc.devRef .tc main_arg9) = (m ((c.tc : Thread nD τ).loc main_arg9)) := by
  show StableHlo.after hostOps2 (W6 m ρ c) (Proc.devRef .tc main_arg9) = _
  after_results
  exact W6_arg9 m ρ c
theorem W8_arg9 : W8 m ρ c (Proc.devRef .tc main_arg9) = (m ((c.tc : Thread nD τ).loc main_arg9)) :=
  (W8_of_ne m ρ c main_arg9 (by decide)).trans (W7_arg9 m ρ c)

/-! ### `main_v3` through the boundaries -/

theorem W3_v3 : W3 m ρ c (Proc.devRef .tc main_v3) = (Cert.ReferenceIdeal.ReadP.val_main_v3 (F := Ideal) (m ((c.tc : Thread nD τ).loc main_arg1))) := by
  show StableHlo.after hostOps0_2 (StableHlo.after hostOps0_1 (StableHlo.after hostOps0 (W0 m ρ c))) (Proc.devRef .tc main_v3) = _
  after_results
  rfl
theorem W4_v3 : W4 m ρ c (Proc.devRef .tc main_v3) = (Cert.ReferenceIdeal.ReadP.val_main_v3 (F := Ideal) (m ((c.tc : Thread nD τ).loc main_arg1))) :=
  (W4_of_ne m ρ c main_v3 (by decide)).trans (W3_v3 m ρ c)
theorem W5_v3 : W5 m ρ c (Proc.devRef .tc main_v3) = (Cert.ReferenceIdeal.ReadP.val_main_v3 (F := Ideal) (m ((c.tc : Thread nD τ).loc main_arg1))) := by
  show StableHlo.after hostOps1 (W4 m ρ c) (Proc.devRef .tc main_v3) = _
  after_results
  exact W4_v3 m ρ c
theorem W6_v3 : W6 m ρ c (Proc.devRef .tc main_v3) = (Cert.ReferenceIdeal.ReadP.val_main_v3 (F := Ideal) (m ((c.tc : Thread nD τ).loc main_arg1))) :=
  (W6_of_ne m ρ c main_v3 (by decide)).trans (W5_v3 m ρ c)

/-! ### `main_v6` through the boundaries -/

theorem W3_v6 : W3 m ρ c (Proc.devRef .tc main_v6) = (Cert.ReferenceIdeal.ReadP.val_main_v6 (F := Ideal) (m ((c.tc : Thread nD τ).loc main_arg1))) := by
  show StableHlo.after hostOps0_2 (StableHlo.after hostOps0_1 (StableHlo.after hostOps0 (W0 m ρ c))) (Proc.devRef .tc main_v6) = _
  after_results
  rfl
theorem W4_v6 : W4 m ρ c (Proc.devRef .tc main_v6) = (Cert.ReferenceIdeal.ReadP.val_main_v6 (F := Ideal) (m ((c.tc : Thread nD τ).loc main_arg1))) :=
  (W4_of_ne m ρ c main_v6 (by decide)).trans (W3_v6 m ρ c)
theorem W5_v6 : W5 m ρ c (Proc.devRef .tc main_v6) = (Cert.ReferenceIdeal.ReadP.val_main_v6 (F := Ideal) (m ((c.tc : Thread nD τ).loc main_arg1))) := by
  show StableHlo.after hostOps1 (W4 m ρ c) (Proc.devRef .tc main_v6) = _
  after_results
  exact W4_v6 m ρ c
theorem W6_v6 : W6 m ρ c (Proc.devRef .tc main_v6) = (Cert.ReferenceIdeal.ReadP.val_main_v6 (F := Ideal) (m ((c.tc : Thread nD τ).loc main_arg1))) :=
  (W6_of_ne m ρ c main_v6 (by decide)).trans (W5_v6 m ρ c)

/-! ### `main_v15` through the boundaries -/

set_option maxHeartbeats 4000000 in
/-- After the first stretch: the comparison "degree above zero". -/
theorem W1_v12 : W1 m ρ c (Proc.devRef .tc main_v12) = Cert.ReferenceIdeal.ReadP.val_main_v12 (F := Ideal) (m ((c.tc : Thread nD τ).loc main_arg1)) := by
  show StableHlo.after hostOps0 (W0 m ρ c) (Proc.devRef .tc main_v12) = _
  after_results
  rfl
set_option maxHeartbeats 4000000 in
/-- After the first stretch: the degree to the power -1/2. -/
theorem W1_v13 : W1 m ρ c (Proc.devRef .tc main_v13) = Cert.ReferenceIdeal.ReadP.val_main_v13 (F := Ideal) (m ((c.tc : Thread nD τ).loc main_arg1)) := by
  show StableHlo.after hostOps0 (W0 m ρ c) (Proc.devRef .tc main_v13) = _
  after_results
  rfl
/-- After the first stretch: the zero the guard falls back to. -/
theorem W1_cst_2 : W1 m ρ c (Proc.devRef .tc main_cst_2) = Cert.ReferenceIdeal.ReadP.val_main_cst_2 (F := Ideal) := by
  show StableHlo.after hostOps0 (W0 m ρ c) (Proc.devRef .tc main_cst_2) = _
  after_results
  rfl
/-- After the guard: the node weights. -/
theorem W2_v14 : W2 m ρ c (Proc.devRef .tc main_v14) = Cert.ReferenceIdeal.ReadP.val_main_v14 (F := Ideal) (m ((c.tc : Thread nD τ).loc main_arg1)) := by
  have h12 := W1_v12 m ρ c
  have h13 := W1_v13 m ρ c
  have hc := W1_cst_2 m ρ c
  show StableHlo.after hostOps0_1 (W1 m ρ c) (Proc.devRef .tc main_v14) = _
  generalize W1 m ρ c = X at h12 h13 hc ⊢
  after_results
  rw [h12, h13, hc]
  -- the call's typed references carry their contents along type equations that hold by computation
  have t14 : ∀ v, (StableHlo.TRef.of main_v14 : StableHlo.TRef sig ⟨S50000, .f32⟩).toBuf (Val := Elt Ideal) v = v := fun _ => rfl
  have o12 : ∀ v, (StableHlo.TRef.of main_v12 : StableHlo.TRef sig ⟨S50000, .i1⟩).ofBuf (Val := Elt Ideal) v = v := fun _ => rfl
  have o13 : ∀ v, (StableHlo.TRef.of main_v13 : StableHlo.TRef sig ⟨S50000, .f32⟩).ofBuf (Val := Elt Ideal) v = v := fun _ => rfl
  have oc1 : ∀ v, (StableHlo.TRef.of main_call0_v1 : StableHlo.TRef sig ⟨S50000, .f32⟩).ofBuf (Val := Elt Ideal) v = v := fun _ => rfl
  have tc1 : ∀ v, (StableHlo.TRef.of main_call0_v1 : StableHlo.TRef sig ⟨S50000, .f32⟩).toBuf (Val := Elt Ideal) v = v := fun _ => rfl
  have oc0 : ∀ v, (StableHlo.TRef.of main_call0_v0 : StableHlo.TRef sig ⟨S_, .f32⟩).ofBuf (Val := Elt Ideal) v = v := fun _ => rfl
  have tc0 : ∀ v, (StableHlo.TRef.of main_call0_v0 : StableHlo.TRef sig ⟨S_, .f32⟩).toBuf (Val := Elt Ideal) v = v := fun _ => rfl
  have ocs : ∀ v, (StableHlo.TRef.of main_cst_2 : StableHlo.TRef sig ⟨S_, .f32⟩).ofBuf (Val := Elt Ideal) v = v := fun _ => rfl
  rw [t14, o12, o13, oc1, tc1, oc0, tc0, ocs]
  rfl
theorem W3_v15 : W3 m ρ c (Proc.devRef .tc main_v15) = (dcol (m ((c.tc : Thread nD τ).loc main_arg1))) := by
  have h14 := W2_v14 m ρ c
  show StableHlo.after hostOps0_2 (W2 m ρ c) (Proc.devRef .tc main_v15) = _
  generalize W2 m ρ c = X at h14 ⊢
  after_results
  rw [h14]
  rfl
theorem W4_v15 : W4 m ρ c (Proc.devRef .tc main_v15) = (dcol (m ((c.tc : Thread nD τ).loc main_arg1))) :=
  (W4_arr m ρ c 2).trans ((((dat0 (V3 m ρ) c).arrAt_in 2 rfl cfg0.N).trans (A_eq0 (V3 m ρ) c 2)).trans (W3_v15 m ρ c))
theorem W5_v15 : W5 m ρ c (Proc.devRef .tc main_v15) = (dcol (m ((c.tc : Thread nD τ).loc main_arg1))) := by
  show StableHlo.after hostOps1 (W4 m ρ c) (Proc.devRef .tc main_v15) = _
  after_results
  exact W4_v15 m ρ c
theorem W6_v15 : W6 m ρ c (Proc.devRef .tc main_v15) = (dcol (m ((c.tc : Thread nD τ).loc main_arg1))) :=
  (W6_arr m ρ c 1).trans ((((dat1 (V5 m ρ) c).arrAt_in 1 rfl cfg1.N).trans (A_eq1 (V5 m ρ) c 1)).trans (W5_v15 m ρ c))
theorem W7_v15 : W7 m ρ c (Proc.devRef .tc main_v15) = (dcol (m ((c.tc : Thread nD τ).loc main_arg1))) := by
  show StableHlo.after hostOps2 (W6 m ρ c) (Proc.devRef .tc main_v15) = _
  after_results
  exact W6_v15 m ρ c

/-! ### The looked-up features at the first region's entry -/

set_option maxHeartbeats 4000000 in
theorem W3_v22 : W3 m ρ c (Proc.devRef .tc main_v22) = feat (m ((c.tc : Thread nD τ).loc main_arg0)) (m ((c.tc : Thread nD τ).loc main_arg3)) := by
  show StableHlo.after hostOps0_2 (StableHlo.after hostOps0_1 (StableHlo.after hostOps0 (W0 m ρ c))) (Proc.devRef .tc main_v22) = _
  after_results_simp
  rfl

/-! ### The first region's output, and the first layer's neighbourhood sums -/

theorem W4_v23 : W4 m ρ c (Proc.devRef .tc main_v23) = lay0 (m ((c.tc : Thread nD τ).loc main_arg0)) (m ((c.tc : Thread nD τ).loc main_arg1)) (m ((c.tc : Thread nD τ).loc main_arg3)) (m ((c.tc : Thread nD τ).loc main_arg4)) := by
  refine (W4_arr m ρ c 3).trans ((final0 (V3 m ρ) c).trans ?_)
  show scaled (W3 m ρ c (Proc.devRef .tc main_v22) : Arr2 50000 64) (W3 m ρ c (Proc.devRef .tc main_arg4) : Arr2 64 64)
    (W3 m ρ c (Proc.devRef .tc main_v15) : Arr2 50000 1) = _
  rw [W3_v22, W3_arg4, W3_v15]
  rfl

set_option maxHeartbeats 4000000 in
theorem W5_v34 : W5 m ρ c (Proc.devRef .tc main_v34) = sum1 (m ((c.tc : Thread nD τ).loc main_arg0)) (m ((c.tc : Thread nD τ).loc main_arg1)) (m ((c.tc : Thread nD τ).loc main_arg3)) (m ((c.tc : Thread nD τ).loc main_arg4)) := by
  show StableHlo.after hostOps1 (W4 m ρ c) (Proc.devRef .tc main_v34) = _
  after_results_simp
  rw [W4_v23, W4_v3, W4_v6]
  rfl

theorem W5_v35 : W5 m ρ c (Proc.devRef .tc main_v35) = shapeCast S1x64 (m ((c.tc : Thread nD τ).loc main_arg5)) Facts₀.shapeCasts_S64_S1x64 := by
  show StableHlo.after hostOps1 (W4 m ρ c) (Proc.devRef .tc main_v35) = _
  after_results
  rw [W4_arg5]
  rfl

/-! ### The second region's output, and the second layer's neighbourhood sums -/

theorem W6_v36 : W6 m ρ c (Proc.devRef .tc main_v36) = lay1 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  refine (W6_arr m ρ c 4).trans ((final1 (V5 m ρ) c).trans ?_)
  show scaled (act (W5 m ρ c (Proc.devRef .tc main_v34) : Arr2 50000 64) (W5 m ρ c (Proc.devRef .tc main_v15) : Arr2 50000 1)
      (W5 m ρ c (Proc.devRef .tc main_v35) : Arr2 1 64)) (W5 m ρ c (Proc.devRef .tc main_arg6) : Arr2 64 64)
    (W5 m ρ c (Proc.devRef .tc main_v15) : Arr2 50000 1) = _
  rw [W5_v34, W5_v15, W5_v35, W5_arg6]
  rfl

set_option maxHeartbeats 4000000 in
theorem W7_v47 : W7 m ρ c (Proc.devRef .tc main_v47) = sum2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) := by
  show StableHlo.after hostOps2 (W6 m ρ c) (Proc.devRef .tc main_v47) = _
  after_results_simp
  rw [W6_v36, W6_v3, W6_v6]
  rfl

theorem W7_v48 : W7 m ρ c (Proc.devRef .tc main_v48) = shapeCast S1x64 (m ((c.tc : Thread nD τ).loc main_arg7)) Facts₀.shapeCasts_S64_S1x64 := by
  show StableHlo.after hostOps2 (W6 m ρ c) (Proc.devRef .tc main_v48) = _
  after_results
  rw [W6_arg7]
  rfl

/-! ### The third region's output, the per-graph sums and counts -/

theorem W8_v49 : W8 m ρ c (Proc.devRef .tc main_v49) = lay2 (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (W8_arr m ρ c 3).trans ((final2 (V7 m ρ) c).trans ?_)
  show act (W7 m ρ c (Proc.devRef .tc main_v47) : Arr2 50000 64) (W7 m ρ c (Proc.devRef .tc main_v15) : Arr2 50000 1)
    (W7 m ρ c (Proc.devRef .tc main_v48) : Arr2 1 64) = _
  rw [W7_v47, W7_v15, W7_v48]
  rfl

theorem W9_v52 : W9 m ρ c (Proc.devRef .tc main_v52) = gsum (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show StableHlo.after hostOps3 (W8 m ρ c) (Proc.devRef .tc main_v52) = _
  after_results
  rw [W8_v49, W8_arg2]
  rfl

theorem W9_v57 : W9 m ρ c (Proc.devRef .tc main_v57) = gcnt (m ((c.tc : Thread nD τ).loc main_arg2)) := by
  show StableHlo.after hostOps3 (W8 m ρ c) (Proc.devRef .tc main_v57) = _
  after_results
  rw [W8_arg2]
  rfl

theorem W9_v58 : W9 m ρ c (Proc.devRef .tc main_v58) = shapeCast S1x2 (m ((c.tc : Thread nD τ).loc main_arg9)) Facts₀.shapeCasts_S2_S1x2 := by
  show StableHlo.after hostOps3 (W8 m ρ c) (Proc.devRef .tc main_v58) = _
  after_results
  rw [W8_arg9]
  rfl

/-! ### The result -/

/-- At the last boundary the result buffer holds the kernel's whole-array term of the ten arguments. -/
theorem W10_v59 : W10 m ρ c (Proc.devRef .tc main_v59) = result (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) := by
  refine (W10_arr m ρ c 4).trans ((final3 (V9 m ρ) c).trans ?_)
  show pooled (W9 m ρ c (Proc.devRef .tc main_v52) : Arr2 128 64) (W9 m ρ c (Proc.devRef .tc main_v57) : Arr2 128 1)
    (W9 m ρ c (Proc.devRef .tc main_arg8) : Arr2 64 2) (W9 m ρ c (Proc.devRef .tc main_v58) : Arr2 1 2) = _
  rw [W9_v52, W9_v57, W9_arg8, W9_v58]
  rfl

end Cert.KernelIdeal.Hand

end
-- ==== Proof.LibGatherRows.lean ====
/-
  Row gathers read at an index.

  `x[idx]` on the leading axis of an array lowers to a `stablehlo.gather` that collapses the leading operand axis,
  takes the whole of the remaining axis (if there is one) as the offset axis, and reads one start index per result
  row off a trailing unit axis of the index array.  Result element `(r, q)` is then the operand's element
  `(clamp (idx r), q)`: the start index read as a signed integer and clamped into `[0, N − 1]`, as the gather
  clamps every start index.  Three shapes of this are read here, every extent arbitrary:
    • a matrix `[N, C]` at indices `[R, 1]`, result `[R, C]`            (`gather_rows_apply`);
    • a vector `[N]` at indices `[R, 1]`, result `[R]`                  (`gather_elts_apply`);
    • a matrix `[N, C]` at indices `[A, B, 1]`, result `[A, B, C]`      (`gather_rows3_apply`).
  The dimension records are built from their well-formedness proof, so a printed record of the same lists is
  the record here by `rfl`.
-/
import Idealize.ShloMosaic.Lib.ValueIdx

noncomputable section

namespace Cert.GatherRows

open Idealize.ShloMosaic Idealize.ShloMosaic.ValueIdx

variable {α : Type}

/-- A start index word read signed and clamped into `[0, N − 1]`. -/
def clampRow (N : Nat) (hN : 0 < N) {w : Nat} (v : BitVec w) : Fin N := ⟨min v.toInt.toNat (N - 1), by omega⟩

theorem clampRow_val (N : Nat) (hN : 0 < N) {w : Nat} (v : BitVec w) : (clampRow N hN v).val = min v.toInt.toNat (N - 1) := rfl

/-! ## A matrix at `[R, 1]` indices -/

/-- The row gather's dimension numbers for an operand `[N, C]`, start indices `[R, 1]`, result `[R, C]`. -/
abbrev rowsDims (N C R : Nat) (wf : GatherDims.WF ⟨2, ![N, C]⟩ ⟨2, ![R, 1]⟩ ⟨2, ![R, C]⟩ [1] [0] [] [0] [] 1 ![1, C]) :
    GatherDims ⟨2, ![N, C]⟩ ⟨2, ![R, 1]⟩ ⟨2, ![R, C]⟩ where
  offsetDims := [1]
  collapsedSliceDims := [0]
  operandBatchingDims := []
  startIndicesBatchingDims := []
  startIndexMap := [0]
  indexVectorDim := 1
  sliceSizes := ![1, C]
  wf := wf

/-- Result element `(r, q)` of the row gather is the operand's `(clamp (idx (r, 0)), q)`. -/
theorem gather_rows_apply {N C R w : Nat} (hN : 0 < N)
    (wf : GatherDims.WF ⟨2, ![N, C]⟩ ⟨2, ![R, 1]⟩ ⟨2, ![R, C]⟩ [1] [0] [] [0] [] 1 ![1, C])
    (x : (⟨2, ![N, C]⟩ : Shape).Idx → α) (idx : IVec ⟨2, ![R, 1]⟩ w) (r : Fin R) (q : Fin C) :
    Host.gather (rowsDims N C R wf) x idx (ix2 r q) = x (ix2 (clampRow N hN (idx (ix2 r (0 : Fin 1)))) q) := by
  unfold Host.gather
  congr 1
  funext a
  refine Fin.ext ?_
  match a with
  | ⟨0, _⟩ =>
    show (rowsDims N C R wf).start (ix2 r q) idx 0 + (rowsDims N C R wf).batchCoord (ix2 r q) 0
      + (rowsDims N C R wf).offCoord (ix2 r q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims N C R wf).startIndexMap from List.mem_singleton.mpr rfl)]
    have hsi : (rowsDims N C R wf).siIdx (ix2 r q) ⟨List.idxOf (0 : Fin 2) (rowsDims N C R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl
  | ⟨1, _⟩ =>
    show (rowsDims N C R wf).start (ix2 r q) idx 1 + (rowsDims N C R wf).batchCoord (ix2 r q) 1
      + (rowsDims N C R wf).offCoord (ix2 r q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-! ## A vector at `[R, 1]` indices -/

/-- The element gather's dimension numbers for an operand `[N]`, start indices `[R, 1]`, result `[R]`. -/
abbrev eltsDims (N R : Nat) (wf : GatherDims.WF ⟨1, ![N]⟩ ⟨2, ![R, 1]⟩ ⟨1, ![R]⟩ [] [0] [] [0] [] 1 ![1]) :
    GatherDims ⟨1, ![N]⟩ ⟨2, ![R, 1]⟩ ⟨1, ![R]⟩ where
  offsetDims := []
  collapsedSliceDims := [0]
  operandBatchingDims := []
  startIndicesBatchingDims := []
  startIndexMap := [0]
  indexVectorDim := 1
  sliceSizes := ![1]
  wf := wf

/-- Result element `r` of the element gather is the operand's `clamp (idx (r, 0))`. -/
theorem gather_elts_apply {N R w : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ w) (r : Fin R) :
    Host.gather (eltsDims N R wf) x idx (ix1 r) = x (ix1 (clampRow N hN (idx (ix2 r (0 : Fin 1))))) := by
  unfold Host.gather
  congr 1
  funext a
  refine Fin.ext ?_
  match a with
  | ⟨0, _⟩ =>
    show (eltsDims N R wf).start (ix1 r) idx 0 + (eltsDims N R wf).batchCoord (ix1 r) 0
      + (eltsDims N R wf).offCoord (ix1 r) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 1) ∈ (eltsDims N R wf).startIndexMap from List.mem_singleton.mpr rfl)]
    have hsi : (eltsDims N R wf).siIdx (ix1 r) ⟨List.idxOf (0 : Fin 1) (eltsDims N R wf).startIndexMap,
        List.idxOf_lt_length_iff.2 (List.mem_singleton.mpr rfl)⟩ = ix2 r (0 : Fin 1) := by
      funext b; refine Fin.ext ?_
      match b with
      | ⟨0, _⟩ => rfl
      | ⟨1, _⟩ => rfl
    rw [hsi]
    rfl

/-! ## A matrix at `[A, B, 1]` indices -/

/-- The row gather's dimension numbers for an operand `[N, C]`, start indices `[A, B, 1]`, result `[A, B, C]`. -/
abbrev rows3Dims (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- Result element `(a, b, q)` of the row gather is the operand's `(clamp (idx (a, b, 0)), q)`. -/
theorem gather_rows3_apply {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (q : Fin C) :
    Host.gather (rows3Dims N C A B wf) x idx (ix3 a b q) = x (ix2 (clampRow N hN (idx (ix3 a b (0 : Fin 1)))) q) := by
  unfold Host.gather
  congr 1
  funext e
  refine Fin.ext ?_
  match e with
  | ⟨0, _⟩ =>
    show (rows3Dims N C A B wf).start (ix3 a b q) idx 0 + (rows3Dims N C A B wf).batchCoord (ix3 a b q) 0
      + (rows3Dims N C A B wf).offCoord (ix3 a b q) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rows3Dims N C A B wf).startIndexMap from List.mem_singleton.mpr rfl)]
    have hsi : (rows3Dims N C A B wf).siIdx (ix3 a b q) ⟨List.idxOf (0 : Fin 2) (rows3Dims N C A B wf).startIndexMap,
        List.idxOf_lt_length_iff.2 (List.mem_singleton.mpr rfl)⟩ = ix3 a b (0 : Fin 1) := by
      funext c; refine Fin.ext ?_
      match c with
      | ⟨0, _⟩ => rfl
      | ⟨1, _⟩ => rfl
      | ⟨2, _⟩ => rfl
    rw [hsi]
    rfl
  | ⟨1, _⟩ =>
    show (rows3Dims N C A B wf).start (ix3 a b q) idx 1 + (rows3Dims N C A B wf).batchCoord (ix3 a b q) 1
      + (rows3Dims N C A B wf).offCoord (ix3 a b q) 1 = _
    rw [GatherDims.batchCoord_eq_zero _ _ _ List.not_mem_nil]
    unfold GatherDims.start
    rw [dif_neg (show (1 : Fin 2) ∉ ([0] : List (Fin 2)) by decide)]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.GatherRows

end
-- ==== Proof.LibScatterScale.lean ====
/-
  A scatter-add against a scaling of its result.

  On the extended reals the host's accumulating scatter is, at each operand element i, the operand's value plus the
  sum of the updates that land on i.  Multiplying that sum by a factor c distributes over it when c is a real
  number that is not negative (at a negative factor, or at an infinite one, an infinite sum of mixed signs breaks
  the law).  So if the operand is 0 at i and every update that lands on i is, on the other side, the same update
  times c, the two scatters differ at i by the factor c.

  For the scatter of rows  z.at[idx].add(u)  — operand [N, C], one start index per update row in an [E, 1] index
  array, updates [E, C] — an update (e, f) that lands on (v, f') has v as its start index read signed.  With a row
  gather on the way in, this gives the identity behind a normalised neighbourhood sum: scaling row v of the result
  by D v, and every gathered row by D at its source, is the same as scaling each message by D (source) · D (target)
  before the sum, for any D whose entries are non-negative reals.
-/
import Idealize.ShloMosaic.PureOps.Ideal.Laws
import Idealize.ShloMosaic.Lib.ValueIdx
import Idealize.ShloMosaic.Lib.Pipeline.Value
import proofs.«158104_j3221225472371_2_alg».proof.Proof.LibGatherRows

noncomputable section

namespace Cert.ScatterScale

open Idealize.ShloMosaic Idealize.ShloMosaic.ValueIdx Cert.GatherRows

/-- A finite sum times a non-negative real factor is the sum of the products. -/
theorem sum_mul_of_nonneg {ι : Type} (s : Finset ι) (f : ι → EReal) {c : EReal} (h0 : 0 ≤ c) (ht : c ≠ ⊤) :
    (∑ j ∈ s, f j) * c = ∑ j ∈ s, f j * c := by
  classical
  induction s using Finset.induction_on with
  | empty => simp
  | insert a s ha ih =>
    rw [Finset.sum_insert ha, Finset.sum_insert ha, EReal.right_distrib_of_nonneg_of_ne_top h0 ht, ih]

/-- Into an operand that is 0 at i: if every update landing on i is, on the primed side, the update times c, the
    primed scatter-add at i is the other one times c. -/
theorem scatterAdd_scale {s si su : Shape} (d : ScatterDims s si su) {w : Nat} (x : s.Idx → EReal) (idx : IVec si w)
    (u u' : su.Idx → EReal) (i : s.Idx) (c : EReal) (h0 : 0 ≤ c) (ht : c ≠ ⊤) (hx : x i = 0)
    (hu : ∀ j, d.resultIdx? j idx = some i → u' j = u j * c) :
    Ideal.hostScatterAdd d x idx u' i = Ideal.hostScatterAdd d x idx u i * c := by
  unfold Ideal.hostScatterAdd
  rw [hx, zero_add, zero_add, sum_mul_of_nonneg _ _ h0 ht]
  exact Finset.sum_congr rfl fun j hj => hu j (Finset.mem_filter.mp hj).2

/-- The dimension numbers of a scatter of rows: operand [N, C], start indices [E, 1], updates [E, C]. -/
abbrev rowsDims (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

/-- An update element of row e that lands on an operand element of row v has v as its start index, read signed. -/
theorem land_row {N C E w : Nat} (wf : ScatterDims.WF ⟨2, ![N, C]⟩ ⟨2, ![E, 1]⟩ ⟨2, ![E, C]⟩ [1] [0] [0] 1)
    (idx : IVec ⟨2, ![E, 1]⟩ w) (e : Fin E) (f : Fin C) (v : Fin N) (f' : Fin C)
    (h : (rowsDims N C E wf).resultIdx? (ix2 e f) idx = some (ix2 v f')) :
    (idx (ix2 e (0 : Fin 1))).toInt = (v.val : Int) := by
  unfold ScatterDims.resultIdx? at h
  split at h
  · rename_i hall
    have h0 := hall 0
    have hi := congrFun (Option.some.inj h) 0
    have hi0 : ((rowsDims N C E wf).start (ix2 e f) idx 0 + (rowsDims N C E wf).window (ix2 e f) 0).toNat = v.val :=
      congrArg Fin.val hi
    have hs : (rowsDims N C E wf).start (ix2 e f) idx 0 = (idx (ix2 e (0 : Fin 1))).toInt := by
      unfold ScatterDims.start
      rw [dif_pos (show (0 : Fin 2) ∈ (rowsDims N C E wf).scatterDimsToOperandDims from List.mem_singleton.mpr rfl)]
      have hsi : (rowsDims N C E wf).siIdx (ix2 e f) ⟨List.idxOf (0 : Fin 2) (rowsDims N C E wf).scatterDimsToOperandDims,
          List.idxOf_lt_length_iff.2 (List.mem_singleton.mpr rfl)⟩ = ix2 e (0 : Fin 1) := by
        funext b; refine Fin.ext ?_
        match b with
        | ⟨0, _⟩ => rfl
        | ⟨1, _⟩ => rfl
      rw [hsi]
    have hw : (rowsDims N C E wf).window (ix2 e f) 0 = 0 := by
      unfold ScatterDims.window
      rw [dif_neg (show (0 : Fin 2) ∉ (rowsDims N C E wf).sKept from fun hm =>
        (List.mem_filter.mp hm).2 |> fun hn => by simp at hn)]
    rw [hs, hw] at hi0 h0
    omega
  · cases h

end Cert.ScatterScale

end
-- ==== Proof.LibNormSum.lean ====
/-
  A normalised neighbourhood sum, two ways.

  Nodes 0 … N − 1 carry feature rows H (an [N, C] array) and a weight D per node; each of E edges names a source
  row (a start index array SI, read signed and clamped as a gather reads it) and a target row (DI, read signed and
  not clamped, as a scatter reads it; an edge whose target lies outside [0, N) is dropped).  The sum over the edges
  into a node v of  H (source) · D (source) · D (v)  can be computed with the factor D (v) taken out of the sum:
  scale row u of H by D u once, gather, scatter-add, and scale row v of the result by D v; or with the factor
  D (source) · D (target) multiplied into every message before the scatter-add, the target's weight gathered at the
  target index array DW, which names v on every edge that lands on v.  The two agree whenever every D v is a
  non-negative real: the products are reassociated edge by edge, and the common factor D v distributes over the sum
  at v.
-/
import proofs.«158104_j3221225472371_2_alg».proof.Proof.LibScatterScale

noncomputable section

namespace Cert.NormSum

open Idealize.ShloMosaic Idealize.ShloMosaic.ValueIdx

/-- An [N, 1] column repeated across C columns reads the column's entry of the row. -/
theorem col_apply {N C : Nat} (gc : (⟨2, ![N, 1]⟩ : Shape).BroadcastsInDim ⟨2, ![N, C]⟩ ![0, 1])
    (Dc : (⟨2, ![N, 1]⟩ : Shape).Idx → EReal) (v : Fin N) (f : Fin C) :
    broadcastInDim ⟨2, ![N, C]⟩ ![0, 1] gc Dc (ix2 v f) = Dc (ix2 v (0 : Fin 1)) := by
  have hv := v.isLt
  refine broadcastInDim_apply _ gc _ (ix2 v f) (ix2 v (0 : Fin 1)) fun a => ?_
  match a with
  | ⟨0, _⟩ =>
    show v.val = if N = 1 then 0 else v.val
    split <;> omega
  | ⟨1, _⟩ => rfl

/-- An [E] vector viewed as an [E, 1] column and repeated across C columns reads the vector's entry of the row. -/
theorem vec_col_apply {E C : Nat} (b1 : (⟨1, ![E]⟩ : Shape).BroadcastsInDim ⟨2, ![E, 1]⟩ ![0])
    (b2 : (⟨2, ![E, 1]⟩ : Shape).BroadcastsInDim ⟨2, ![E, C]⟩ ![0, 1])
    (X : (⟨1, ![E]⟩ : Shape).Idx → EReal) (e : Fin E) (f : Fin C) :
    broadcastInDim ⟨2, ![E, C]⟩ ![0, 1] b2 (broadcastInDim ⟨2, ![E, 1]⟩ ![0] b1 X) (ix2 e f) = X (ix1 e) := by
  have he := e.isLt
  refine (col_apply b2 _ e f).trans ?_
  refine broadcastInDim_apply _ b1 X (ix2 e (0 : Fin 1)) (ix1 e) fun a => ?_
  match a with
  | ⟨0, _⟩ =>
    show e.val = if E = 1 then 0 else e.val
    split <;> omega

/-- The factor of the target row taken out of the sum, against the factor of source and target multiplied into every
    message. -/
theorem scaled_sum {N C E : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfG1 : GatherDims.WF ⟨1, ![N]⟩ ⟨2, ![E, 1]⟩ ⟨1, ![E]⟩ [] [0] [] [0] [] 1 ![1])
    (H Z : (⟨2, ![N, C]⟩ : Shape).Idx → EReal) (D : (⟨1, ![N]⟩ : Shape).Idx → EReal)
    (Dc : (⟨2, ![N, 1]⟩ : Shape).Idx → EReal)
    (hDc : ∀ v : Fin N, Dc (ix2 v (0 : Fin 1)) = D (ix1 v))
    (hD : ∀ v : Fin N, 0 ≤ D (ix1 v) ∧ D (ix1 v) ≠ ⊤)
    (hZ : ∀ i, Z i = 0)
    (SI DI DW : IVec ⟨2, ![E, 1]⟩ 32)
    (hDW : ∀ (e : Fin E) (v : Fin N), (DI (ix2 e (0 : Fin 1))).toInt = (v.val : Int) →
      GatherRows.clampRow N hN (DW (ix2 e (0 : Fin 1))) = v)
    (gc : (⟨2, ![N, 1]⟩ : Shape).BroadcastsInDim ⟨2, ![N, C]⟩ ![0, 1])
    (b1 : (⟨1, ![E]⟩ : Shape).BroadcastsInDim ⟨2, ![E, 1]⟩ ![0])
    (b2 : (⟨2, ![E, 1]⟩ : Shape).BroadcastsInDim ⟨2, ![E, C]⟩ ![0, 1]) :
    mulf (F := Ideal) (φ := .f32)
        (Host.scatterAdd (F := Ideal) (φ := .f32) (ScatterScale.rowsDims N C E wfS) Z DI
          (Host.gather (GatherRows.rowsDims N C E wfG)
            (mulf (F := Ideal) (φ := .f32) H (broadcastInDim ⟨2, ![N, C]⟩ ![0, 1] gc Dc)) SI))
        (broadcastInDim ⟨2, ![N, C]⟩ ![0, 1] gc Dc)
      = Host.scatterAdd (F := Ideal) (φ := .f32) (ScatterScale.rowsDims N C E wfS) Z DI
          (mulf (F := Ideal) (φ := .f32) (Host.gather (GatherRows.rowsDims N C E wfG) H SI)
            (broadcastInDim ⟨2, ![E, C]⟩ ![0, 1] b2 (broadcastInDim ⟨2, ![E, 1]⟩ ![0] b1
              (mulf (F := Ideal) (φ := .f32) (Host.gather (GatherRows.eltsDims N E wfG1) D SI)
                (Host.gather (GatherRows.eltsDims N E wfG1) D DW))))) := by
  funext i
  obtain ⟨v, f, rfl⟩ : ∃ (v : Fin N) (f : Fin C), i = ix2 v f := ⟨i 0, i 1, eq_ix2 i⟩
  have hc : ∀ (u : Fin N) (g : Fin C), broadcastInDim ⟨2, ![N, C]⟩ ![0, 1] gc Dc (ix2 u g) = D (ix1 u) :=
    fun u g => (col_apply gc Dc u g).trans (hDc u)
  rw [mulf_apply, hc]
  symm
  refine ScatterScale.scatterAdd_scale _ Z DI _ _ (ix2 v f) (D (ix1 v)) (hD v).1 (hD v).2 (hZ _) fun j hj => ?_
  obtain ⟨e, f', rfl⟩ : ∃ (e : Fin E) (f' : Fin C), j = ix2 e f' := ⟨j 0, j 1, eq_ix2 j⟩
  have hv := ScatterScale.land_row wfS DI e f' v f hj
  rw [mulf_apply, GatherRows.gather_rows_apply hN, GatherRows.gather_rows_apply hN, mulf_apply, hc, vec_col_apply,
    mulf_apply, GatherRows.gather_elts_apply hN, GatherRows.gather_elts_apply hN, hDW e v hv, mul_assoc]

end Cert.NormSum

end
-- ==== Proof.LibRowOps.lean ====
/-
  Dense two-axis arrays on the extended reals, read at coordinates.

  * keepdims layout: a length-`a` vector as an `[a, 1]` column, and an `[a, 1]` column repeated across `b` columns;
  * a row sum and a row maximum of an `[a, b]` array, kept as a length-`a` vector: the `Fin b`-indexed sum of the row,
    and the fold of `max` over the row from the accumulator's value (the host's reduce over the last axis of a
    rank-3 array likewise);
  * the two products of two-axis arrays a dense layer meets, into a zero accumulator: both operands contracted on
    their SECOND axis, `out (i, j) = Σ k, A (i, k) · B (j, k)`, and both on their FIRST, `out (i, j) = Σ k, A (k, i) · B (k, j)`.
    The dimension numbers enter through four coordinate facts of their index maps, so one statement serves every
    extent;
  * `max b (fold max b f) = fold max b f`: a maximum taken once more with its own starting value.
-/
import Idealize.ShloMosaic.PureOps.Ideal.Laws
import Idealize.ShloMosaic.PureOps.Reduce
import Idealize.ShloMosaic.Lib.ValueIdx
import Idealize.ShloMosaic.Lib.ValueLayout
import Idealize.ShloMosaic.Lib.Pipeline.Value

noncomputable section

open scoped BigOperators

namespace Cert.RowOps

open Idealize.ShloMosaic Idealize.ShloMosaic.ValueIdx

/-! ## Keepdims layout -/

section Layout
variable {α : Type}

/-- A length-`a` vector cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` repeated across `b` columns reads, at `(i, j)`, the column at `i`. -/
theorem broadcastTo_a1_ab_apply {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## A row's sum and a row's maximum -/

/-- The reduced index `i` with the coordinate `k` of the second axis put back is `(i, k)`. -/
theorem lift_row {a b : ℕ} (h : (⟨2, ![a, b]⟩ : Shape).Reduces [1] (⟨1, ![a]⟩ : Shape)) (i : Fin a)
    (k : Fin ((⟨2, ![a, b]⟩ : Shape).size 1)) : h.lift (ix1 i) k = ix2 i (⟨k.val, k.isLt⟩ : Fin b) := by
  funext c; apply Fin.ext
  fin_cases c <;> rfl

/-- A sum over the second axis of an `[a, b]` array reads, at `i`, the sum of row `i`. -/
theorem rowSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (i : Fin a) :
    multiReduction .add [1] ⟨1, ![a]⟩ src acc h hφ hacc (ix1 i) = ∑ k : Fin b, src (ix2 i k) :=
  (Ideal.multiReduction_add_single src acc h hφ hacc (ix1 i)).trans
    (Finset.sum_congr rfl fun k _ => congrArg src (lift_row h i k))

/-- A maximum over the second axis of an `[a, b]` array reads, at `i`, the fold of `max` over row `i` from the
    accumulator's value. -/
theorem rowMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (i : Fin a) :
    multiReduction .maximumf [1] ⟨1, ![a]⟩ src acc h hφ hacc (ix1 i)
      = (Finset.univ : Finset (Fin b)).fold max (Ideal.ofBits φ acc) (fun k => src (ix2 i k)) :=
  (Ideal.multiReduction_maximumf_single src acc h hφ hacc (ix1 i)).trans
    (congrArg (fun f => Finset.fold max (Ideal.ofBits φ acc) f (Finset.univ : Finset (Fin b)))
      (funext fun k => congrArg src (lift_row h i k)))

/-- The reduced index `(a, b)` of a three-axis array with the coordinate `k` of the last axis put back is `(a, b, k)`. -/
theorem lift_last3 {n0 n1 n2 : ℕ} (h : (⟨3, ![n0, n1, n2]⟩ : Shape).Reduces [2] (⟨2, ![n0, n1]⟩ : Shape)) (a : Fin n0) (b : Fin n1)
    (k : Fin ((⟨3, ![n0, n1, n2]⟩ : Shape).size 2)) : h.lift (ix2 a b) k = ix3 a b (⟨k.val, k.isLt⟩ : Fin n2) := by
  funext c; apply Fin.ext
  fin_cases c <;> rfl

/-- The host's reduce with a maximum body over the last axis of a three-axis array reads, at `(a, b)`, the fold of
    `max` over that row from the initial value. -/
theorem hostRowMax3_apply {n0 n1 n2 : ℕ} {u : Shape} (x : FVec Ideal ⟨3, ![n0, n1, n2]⟩ .f32) (init : u.Idx → Ideal .f32)
    (h' : (⟨3, ![n0, n1, n2]⟩ : Shape).ReducesTo [2] ⟨2, ![n0, n1]⟩) (h : (⟨3, ![n0, n1, n2]⟩ : Shape).Reduces [2] ⟨2, ![n0, n1]⟩)
    (hu : 0 < u.numel) (a : Fin n0) (b : Fin n1) :
    Host.reduce FloatOps.maximumf x init h' hu (ix2 a b)
      = (Finset.univ : Finset (Fin n2)).fold max (init (Shape.Idx.first hu)) (fun k => x (ix3 a b k)) :=
  (Host.reduce_eq_fold_single FloatOps.maximumf x init h' h hu (ix2 a b)).trans
    (congrArg (fun f => Finset.fold max (init (Shape.Idx.first hu)) f (Finset.univ : Finset (Fin n2)))
      (funext fun k => congrArg x (lift_last3 h a b k)))

/-- A maximum taken once more with its own starting value is unchanged. -/
theorem max_fold_max {ι : Type} (s : Finset ι) (b : EReal) (f : ι → EReal) :
    max b (s.fold max b f) = s.fold max b f :=
  max_eq_right ((Finset.le_fold_max b).mpr (Or.inl le_rfl))

/-! ## The products of two-axis arrays -/

/-- Both operands contracted on their SECOND axis, into a zero accumulator: `out (i, j) = Σ k, A (i, k) · B (j, k)`. -/
theorem matmul_nt_apply {M K N : ℕ} {φ₁ φ₂ : FTy} (d : DotDims ⟨2, ![M, K]⟩ ⟨2, ![N, K]⟩ ⟨2, ![M, N]⟩)
    (prec : Option ContractPrecision) (hr : d.contr.rank = 1) (hs : d.contr.size ⟨0, by omega⟩ = K)
    (hl0 : ∀ j q, (d.lhsIdx j q 0).val = (j 0).val) (hl1 : ∀ j q, (d.lhsIdx j q 1).val = (q ⟨0, by omega⟩).val)
    (hr0 : ∀ j q, (d.rhsIdx j q 0).val = (j 1).val) (hr1 : ∀ j q, (d.rhsIdx j q 1).val = (q ⟨0, by omega⟩).val)
    (A : FVec Ideal ⟨2, ![M, K]⟩ φ₁) (B : FVec Ideal ⟨2, ![N, K]⟩ φ₂) (i : Fin M) (j : Fin N) :
    matmul d prec A B (constant ⟨2, ![M, N]⟩ .f32 0x00000000#32) (ix2 i j) = ∑ k : Fin K, A (ix2 i k) * B (ix2 j k) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 i k := funext fun a => Fin.ext (by
    match a with
    | ⟨0, _⟩ => exact hl0 _ _
    | ⟨1, _⟩ => exact (hl1 _ _).trans hk)
  have er : d.rhsIdx (ix2 i j) ((contrEquiv1 d K hr hs).symm k) = ix2 j k := funext fun a => Fin.ext (by
    match a with
    | ⟨0, _⟩ => exact hr0 _ _
    | ⟨1, _⟩ => exact (hr1 _ _).trans hk)
  rw [el, er]

/-- Both operands contracted on their FIRST axis, into a zero accumulator: `out (i, j) = Σ k, A (k, i) · B (k, j)`. -/
theorem matmul_tn_apply {M K N : ℕ} {φ₁ φ₂ : FTy} (d : DotDims ⟨2, ![K, M]⟩ ⟨2, ![K, N]⟩ ⟨2, ![M, N]⟩)
    (prec : Option ContractPrecision) (hr : d.contr.rank = 1) (hs : d.contr.size ⟨0, by omega⟩ = K)
    (hl0 : ∀ j q, (d.lhsIdx j q 0).val = (q ⟨0, by omega⟩).val) (hl1 : ∀ j q, (d.lhsIdx j q 1).val = (j 0).val)
    (hr0 : ∀ j q, (d.rhsIdx j q 0).val = (q ⟨0, by omega⟩).val) (hr1 : ∀ j q, (d.rhsIdx j q 1).val = (j 1).val)
    (A : FVec Ideal ⟨2, ![K, M]⟩ φ₁) (B : FVec Ideal ⟨2, ![K, N]⟩ φ₂) (i : Fin M) (j : Fin N) :
    matmul d prec A B (constant ⟨2, ![M, N]⟩ .f32 0x00000000#32) (ix2 i j) = ∑ k : Fin K, A (ix2 k i) * B (ix2 k j) := by
  refine (Ideal.matmul_constant_zero_apply d prec A B (ix2 i j)).trans ?_
  rw [← Equiv.sum_comp (contrEquiv1 d K hr hs).symm]
  refine Finset.sum_congr rfl fun k _ => ?_
  have hk := contrEquiv1_symm_val d K hr hs k
  have el : d.lhsIdx (ix2 i j) ((contrEquiv1 d K hr hs).symm k) = ix2 k i := funext fun a => Fin.ext (by
    match a with
    | ⟨0, _⟩ => exact (hl0 _ _).trans hk
    | ⟨1, _⟩ => exact hl1 _ _)
  have er : d.rhsIdx (ix2 i j) ((contrEquiv1 d K hr hs).symm k) = ix2 k j := funext fun a => Fin.ext (by
    match a with
    | ⟨0, _⟩ => exact (hr0 _ _).trans hk
    | ⟨1, _⟩ => exact hr1 _ _)
  rw [el, er]

end Cert.RowOps

end
-- ==== Proof.LibDegree.lean ====
/-
  In-degrees with self-loops, and the node weights they give.

  The degree of node v is a scatter-add of ones: 0 plus one for every edge whose target index, read signed, is v
  (an edge whose target lies outside [0, N) is dropped). When every node has at least one edge landing on it — its
  self-loop — the degree is a positive whole number n. Then the larger of n and 1 is n, and n^(-1/2) is a
  non-negative real number: the node weights with and without the guard agree, and they are the kind of factor that
  may be moved across a sum on the extended reals.
-/
import Idealize.ShloMosaic.PureOps.Ideal.Laws
import Idealize.ShloMosaic.Lib.ValueIdx
import Idealize.ShloMosaic.Lib.IdealHost
import Idealize.ShloMosaic.Lib.Pipeline.Value
import proofs.«158104_j3221225472371_2_alg».proof.Proof.LibRowOps

noncomputable section

namespace Cert.Degree

open Idealize.ShloMosaic Idealize.ShloMosaic.ValueIdx

/-- The dimension numbers of a scatter of single elements into a vector: operand [N], start indices [E, 1], updates [E]. -/
abbrev vecDims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ where
  updateWindowDims := []
  insertedWindowDims := [0]
  scatterDimsToOperandDims := [0]
  indexVectorDim := 1
  wf := wf

variable {N E w : Nat} (wf : ScatterDims.WF ⟨1, ![N]⟩ ⟨2, ![E, 1]⟩ ⟨1, ![E]⟩ [] [0] [0] 1)

/-- Update e starts at its index entry, read signed. -/
theorem start_eq (idx : IVec ⟨2, ![E, 1]⟩ w) (e : Fin E) :
    (vecDims N E wf).start (ix1 e) idx 0 = (idx (ix2 e (0 : Fin 1))).toInt := by
  unfold ScatterDims.start
  rw [dif_pos (show (0 : Fin 1) ∈ (vecDims N E wf).scatterDimsToOperandDims from List.mem_singleton.mpr rfl)]
  have hsi : (vecDims N E wf).siIdx (ix1 e) ⟨List.idxOf (0 : Fin 1) (vecDims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- The operand's one axis is inserted: no window coordinate. -/
theorem window_eq (e : Fin E) : (vecDims N E wf).window (ix1 e) 0 = 0 := by
  unfold ScatterDims.window
  rw [dif_neg (show (0 : Fin 1) ∉ (vecDims N E wf).sKept from fun hm =>
    (List.mem_filter.mp hm).2 |> fun hn => by simp at hn)]

/-- An update whose index entry, read signed, is v lands on element v. -/
theorem lands (idx : IVec ⟨2, ![E, 1]⟩ w) (e : Fin E) (v : Fin N)
    (h : (idx (ix2 e (0 : Fin 1))).toInt = (v.val : Int)) :
    (vecDims N E wf).resultIdx? (ix1 e) idx = some (ix1 v) := by
  have hv := v.isLt
  have hs := start_eq wf idx e
  have hw := window_eq (N := N) wf e
  unfold ScatterDims.resultIdx?
  have hall : ∀ a, 0 ≤ (vecDims N E wf).start (ix1 e) idx a + (vecDims N E wf).window (ix1 e) a
      ∧ (vecDims N E wf).start (ix1 e) idx a + (vecDims N E wf).window (ix1 e) a < (⟨1, ![N]⟩ : Shape).size a := by
    intro a
    match a with
    | ⟨0, _⟩ =>
      show 0 ≤ (vecDims N E wf).start (ix1 e) idx 0 + (vecDims N E wf).window (ix1 e) 0
        ∧ (vecDims N E wf).start (ix1 e) idx 0 + (vecDims N E wf).window (ix1 e) 0 < (N : Int)
      rw [hs, hw, h]
      omega
  rw [dif_pos hall]
  refine congrArg some (funext fun a => Fin.ext ?_)
  match a with
  | ⟨0, _⟩ =>
    show ((vecDims N E wf).start (ix1 e) idx 0 + (vecDims N E wf).window (ix1 e) 0).toNat = v.val
    rw [hs, hw, h]
    omega

/-- A count of ones is the whole number counted. -/
theorem sum_ones {ι : Type} (s : Finset ι) (f : ι → EReal) (hf : ∀ j, f j = 1) : ∑ j ∈ s, f j = (s.card : EReal) := by
  rw [Finset.sum_congr rfl (fun j _ => hf j), Finset.sum_const, nsmul_one]

/-- The degree of a node with an edge landing on it is a positive whole number. -/
theorem degree_pos (idx : IVec ⟨2, ![E, 1]⟩ w) (Z : (⟨1, ![N]⟩ : Shape).Idx → EReal) (hZ : ∀ i, Z i = 0)
    (U : (⟨1, ![E]⟩ : Shape).Idx → EReal) (hU : ∀ j, U j = 1) (v : Fin N)
    (hloop : ∃ e : Fin E, (idx (ix2 e (0 : Fin 1))).toInt = (v.val : Int)) :
    ∃ n : ℕ, 1 ≤ n ∧ Ideal.hostScatterAdd (vecDims N E wf) Z idx U (ix1 v) = (n : EReal) := by
  unfold Ideal.hostScatterAdd
  rw [hZ, zero_add, sum_ones _ U hU]
  obtain ⟨e, he⟩ := hloop
  exact ⟨_, Finset.card_pos.mpr ⟨ix1 e, Finset.mem_filter.mpr ⟨Finset.mem_univ _, lands wf idx e v he⟩⟩, rfl⟩

/-- n^(-1/2) of a positive whole number is a non-negative real. -/
theorem rsqrt_nat {n : ℕ} (hn : 1 ≤ n) : 0 ≤ Ideal.rsqrt (n : EReal) ∧ Ideal.rsqrt (n : EReal) ≠ ⊤ := by
  have h1 : ¬ ((n : ℝ) < 0) := not_lt.mpr (Nat.cast_nonneg n)
  have h2 : (n : ℝ) ≠ 0 := Nat.cast_ne_zero.mpr (by omega)
  have e : Ideal.rsqrt (n : EReal) = (((Real.sqrt n)⁻¹ : ℝ) : EReal) := by
    rw [← EReal.coe_natCast, Ideal.rsqrt_coe, if_neg h1, if_neg h2]
  rw [e]
  exact ⟨EReal.coe_nonneg.mpr (inv_nonneg.mpr (Real.sqrt_nonneg _)), EReal.coe_ne_top _⟩

/-- The larger of a positive whole number and one is the number. -/
theorem max_one {n : ℕ} (hn : 1 ≤ n) : max (n : EReal) 1 = (n : EReal) := by
  refine max_eq_left ?_
  rw [← EReal.coe_natCast, ← EReal.coe_one, EReal.coe_le_coe_iff]
  exact_mod_cast hn

/-- The node weights: with every node's self-loop counted, rsqrt of the guarded degree (kept as a column) is rsqrt of
    the degree, a non-negative real. -/
theorem weights (idx : IVec ⟨2, ![E, 1]⟩ 32) (Z : FVec Ideal ⟨1, ![N]⟩ .f32) (hZ : ∀ i, Z i = 0)
    (U : FVec Ideal ⟨1, ![E]⟩ .f32) (hU : ∀ j, U j = 1) (One : FVec Ideal ⟨1, ![N]⟩ .f32) (hOne : ∀ i, One i = 1)
    (hloop : ∀ v : Fin N, ∃ e : Fin E, (idx (ix2 e (0 : Fin 1))).toInt = (v.val : Int))
    (hc : (⟨1, ![N]⟩ : Shape).ShapeCasts ⟨2, ![N, 1]⟩) (v : Fin N) :
    shapeCast ⟨2, ![N, 1]⟩ (Host.rsqrt (maximumf (F := Ideal) (Host.scatterAdd (F := Ideal) (φ := .f32) (vecDims N E wf) Z idx U) One)) hc (ix2 v (0 : Fin 1))
        = Host.rsqrt (Host.scatterAdd (F := Ideal) (φ := .f32) (vecDims N E wf) Z idx U) (ix1 v)
      ∧ 0 ≤ Host.rsqrt (Host.scatterAdd (F := Ideal) (φ := .f32) (vecDims N E wf) Z idx U) (ix1 v)
      ∧ Host.rsqrt (Host.scatterAdd (F := Ideal) (φ := .f32) (vecDims N E wf) Z idx U) (ix1 v) ≠ ⊤ := by
  obtain ⟨n, hn, hdeg⟩ := degree_pos wf idx Z hZ U hU v (hloop v)
  have hR : Host.rsqrt (Host.scatterAdd (F := Ideal) (φ := .f32) (vecDims N E wf) Z idx U) (ix1 v) = Ideal.rsqrt (n : EReal) :=
    congrArg Ideal.rsqrt hdeg
  refine ⟨?_, hR ▸ (rsqrt_nat hn).1, hR ▸ (rsqrt_nat hn).2⟩
  rw [RowOps.shapeCast_a_a1_apply _ hc v (0 : Fin 1), hR]
  show Ideal.rsqrt (max (Ideal.hostScatterAdd (vecDims N E wf) Z idx U (ix1 v)) (One (ix1 v))) = _
  rw [hdeg, hOne, max_one hn]

end Cert.Degree

end
-- ==== Proof.LibGcnLaw.lean ====
/-
  One graph-convolution layer, two ways.

  With XW the node features times the weight matrix, D v the weight of node v and B the bias, the kernel's
  arrangement of a layer is
      D v · ( Σ over edges e into v of XW (src e) · D (src e)  +  XW v · D v ) + B,
  the factor D v taken out of the neighbourhood sum and out of the node's own term, and the reference's is
      Σ over edges e into v of XW (src e) · (D (src e) · D (dst e))  +  (D v · D v) · XW v  +  B.
  They agree because D v is a non-negative real number: such a factor distributes over a sum of extended reals
  (an infinite or a negative factor would not), and an edge that lands on v has dst e = v. The weights are
  D v = (deg v + 1)^(-1/2) with deg v the number of edges landing on v, a positive whole number under the root, so
  they are non-negative reals whatever the edge list is. The reference gathers D at dst e after wrapping negative
  indices and clamping; on an edge that lands on v the index is v itself, in range, and both leave it alone.

  Also here, for stating a reference's side conditions: a one-column index array and a splat read at an index, the
  float words of zero and of one, the host's matrix product as the same sum over k as the kernel-side one, and a bias
  viewed as a row and repeated down the rows as the bias broadcast twice. Every extent is arbitrary.
-/
import proofs.«158104_j3221225472371_2_alg».proof.Proof.LibNormSum
import proofs.«158104_j3221225472371_2_alg».proof.Proof.LibDegree
import proofs.«158104_j3221225472371_2_alg».proof.Proof.LibGcnDense

noncomputable section

namespace Cert.Gcn

open Idealize.ShloMosaic Idealize.ShloMosaic.ValueIdx Cert.Tile

/-- The node weights (deg + 1)^(-1/2), deg a scatter-add of ones into zeros, are non-negative real numbers. -/
theorem weight_real {N E : Nat} (wf : ScatterDims.WF ⟨1, ![N]⟩ ⟨2, ![E, 1]⟩ ⟨1, ![E]⟩ [] [0] [0] 1)
    (idx : IVec ⟨2, ![E, 1]⟩ 32) (Z : FVec Ideal ⟨1, ![N]⟩ .f32) (hZ : ∀ i, Z i = 0)
    (U : FVec Ideal ⟨1, ![E]⟩ .f32) (hU : ∀ j, U j = 1) (One : FVec Ideal ⟨1, ![N]⟩ .f32) (hOne : ∀ i, One i = 1)
    (v : Fin N) :
    0 ≤ Host.rsqrt (addf (F := Ideal) (φ := .f32)
          (Host.scatterAdd (F := Ideal) (φ := .f32) (Degree.vecDims N E wf) Z idx U) One) (ix1 v)
      ∧ Host.rsqrt (addf (F := Ideal) (φ := .f32)
          (Host.scatterAdd (F := Ideal) (φ := .f32) (Degree.vecDims N E wf) Z idx U) One) (ix1 v) ≠ ⊤ := by
  have hdeg : ∃ n : ℕ, addf (F := Ideal) (φ := .f32)
      (Host.scatterAdd (F := Ideal) (φ := .f32) (Degree.vecDims N E wf) Z idx U) One (ix1 v) = ((n + 1 : ℕ) : EReal) := by
    show ∃ n : ℕ, Ideal.hostScatterAdd (Degree.vecDims N E wf) Z idx U (ix1 v) + One (ix1 v) = ((n + 1 : ℕ) : EReal)
    unfold Ideal.hostScatterAdd
    rw [hZ, zero_add, Degree.sum_ones _ U hU, hOne]
    exact ⟨_, (Nat.cast_succ _).symm⟩
  obtain ⟨n, hn⟩ := hdeg
  have hR : Host.rsqrt (addf (F := Ideal) (φ := .f32)
      (Host.scatterAdd (F := Ideal) (φ := .f32) (Degree.vecDims N E wf) Z idx U) One) (ix1 v)
      = Ideal.rsqrt ((n + 1 : ℕ) : EReal) := congrArg Ideal.rsqrt hn
  rw [hR]
  exact Degree.rsqrt_nat (Nat.le_add_left 1 n)

/-- A start index that names node v, in range, is unchanged by the wrap of negative indices and by the clamp. -/
theorem wrap_clamp {N : Nat} (hN : 0 < N) (nw d : BitVec 32) (v : Fin N) (h : d.toInt = (v.val : Int)) :
    GatherRows.clampRow N hN (Scalar.select (IntOp.cmpi .slt d 0#32) (IntOp.addi d nw) d) = v := by
  have hv := v.isLt
  have hs : IntOp.cmpi .slt d 0#32 = 0#1 := by
    unfold IntOp.cmpi
    have : d.slt 0#32 = false := by
      rw [BitVec.slt, h]
      simp
    simp [this]
  rw [hs]
  refine Fin.ext ?_
  show min (Scalar.select 0#1 (IntOp.addi d nw) d).toInt.toNat (N - 1) = v.val
  have : Scalar.select 0#1 (IntOp.addi d nw) d = d := by
    unfold Scalar.select
    simp
  rw [this, h]
  simp
  omega

/-- d · (a + xw · d) + b = a · d + (d · d) · xw + b for a non-negative real d. -/
theorem regroup (a xw d b : EReal) (h0 : 0 ≤ d) (ht : d ≠ ⊤) : d * (a + xw * d) + b = a * d + d * d * xw + b := by
  rw [EReal.left_distrib_of_nonneg_of_ne_top h0 ht, mul_comm d a, ← mul_assoc d xw d, mul_comm d xw, mul_assoc xw d d,
    mul_comm xw (d * d)]

/-- The kernel's arrangement of a layer equals the reference's. -/
theorem layer_law {N C E : Nat} (hN : 0 < N)
    (wfS : ScatterDims.WF ⟨2, ![N, C]⟩ ⟨2, ![E, 1]⟩ ⟨2, ![E, C]⟩ [1] [0] [0] 1)
    (wfG : GatherDims.WF ⟨2, ![N, C]⟩ ⟨2, ![E, 1]⟩ ⟨2, ![E, C]⟩ [1] [0] [] [0] [] 1 ![1, C])
    (wfG1 : GatherDims.WF ⟨1, ![N]⟩ ⟨2, ![E, 1]⟩ ⟨1, ![E]⟩ [] [0] [] [0] [] 1 ![1])
    (XW Z B : Arr2 N C) (D : (⟨1, ![N]⟩ : Shape).Idx → EReal) (Dc : Arr2 N 1)
    (hDc : ∀ v : Fin N, Dc (ix2 v (0 : Fin 1)) = D (ix1 v))
    (hD : ∀ v : Fin N, 0 ≤ D (ix1 v) ∧ D (ix1 v) ≠ ⊤) (hZ : ∀ i, Z i = 0)
    (SI DI DW : IVec ⟨2, ![E, 1]⟩ 32)
    (hDW : ∀ (e : Fin E) (v : Fin N), (DI (ix2 e (0 : Fin 1))).toInt = (v.val : Int) →
      GatherRows.clampRow N hN (DW (ix2 e (0 : Fin 1))) = v)
    (b1 : (⟨1, ![E]⟩ : Shape).BroadcastsInDim ⟨2, ![E, 1]⟩ ![0])
    (b2 : (⟨2, ![E, 1]⟩ : Shape).BroadcastsInDim ⟨2, ![E, C]⟩ ![0, 1])
    (c1 : (⟨1, ![N]⟩ : Shape).BroadcastsInDim ⟨2, ![N, 1]⟩ ![0])
    (c2 : (⟨2, ![N, 1]⟩ : Shape).BroadcastsInDim ⟨2, ![N, C]⟩ ![0, 1]) :
    (fun i => colB C Dc i * (Host.scatterAdd (F := Ideal) (φ := .f32) (ScatterScale.rowsDims N C E wfS) Z DI
        (Host.gather (GatherRows.rowsDims N C E wfG) (fun i => XW i * colB C Dc i) SI) i + XW i * colB C Dc i) + B i)
      = addf (F := Ideal) (φ := .f32) (addf (F := Ideal) (φ := .f32)
          (Host.scatterAdd (F := Ideal) (φ := .f32) (ScatterScale.rowsDims N C E wfS) Z DI
            (mulf (F := Ideal) (φ := .f32) (Host.gather (GatherRows.rowsDims N C E wfG) XW SI)
              (broadcastInDim ⟨2, ![E, C]⟩ ![0, 1] b2 (broadcastInDim ⟨2, ![E, 1]⟩ ![0] b1
                (mulf (F := Ideal) (φ := .f32) (Host.gather (GatherRows.eltsDims N E wfG1) D SI)
                  (Host.gather (GatherRows.eltsDims N E wfG1) D DW))))))
          (mulf (F := Ideal) (φ := .f32)
            (broadcastInDim ⟨2, ![N, C]⟩ ![0, 1] c2 (broadcastInDim ⟨2, ![N, 1]⟩ ![0] c1 (mulf (F := Ideal) (φ := .f32) D D)))
            XW)) B := by
  funext i
  obtain ⟨v, f, rfl⟩ : ∃ (v : Fin N) (f : Fin C), i = ix2 v f := ⟨i 0, i 1, eq_ix2 i⟩
  have hs := congrFun (NormSum.scaled_sum hN wfS wfG wfG1 XW Z D Dc hDc hD hZ SI DI DW hDW (bidCol N C) b1 b2) (ix2 v f)
  have hc : colB C Dc (ix2 v f) = D (ix1 v) := (NormSum.col_apply (bidCol N C) Dc v f).trans (hDc v)
  have hdd : broadcastInDim ⟨2, ![N, C]⟩ ![0, 1] c2
      (broadcastInDim ⟨2, ![N, 1]⟩ ![0] c1 (mulf (F := Ideal) (φ := .f32) D D)) (ix2 v f) = D (ix1 v) * D (ix1 v) :=
    NormSum.vec_col_apply c1 c2 _ v f
  rw [mulf_apply] at hs
  rw [addf_apply, addf_apply, mulf_apply, hdd, ← hs]
  show colB C Dc (ix2 v f) * (Host.scatterAdd (F := Ideal) (φ := .f32) (ScatterScale.rowsDims N C E wfS) Z DI
        (Host.gather (GatherRows.rowsDims N C E wfG) (fun i => XW i * colB C Dc i) SI) (ix2 v f)
        + XW (ix2 v f) * colB C Dc (ix2 v f)) + B (ix2 v f)
      = Host.scatterAdd (F := Ideal) (φ := .f32) (ScatterScale.rowsDims N C E wfS) Z DI
        (Host.gather (GatherRows.rowsDims N C E wfG) (fun i => XW i * colB C Dc i) SI) (ix2 v f)
        * colB C Dc (ix2 v f) + D (ix1 v) * D (ix1 v) * XW (ix2 v f) + B (ix2 v f)
  rw [hc]
  exact regroup _ _ _ _ (hD v).1 (hD v).2

/-! ## The two spellings of the dense steps, and small reads at an index -/

/-- A one-column index array reads the list's entry of the row. -/
theorem col_idx {α : Type} {E : Nat} (h : (⟨1, ![E]⟩ : Shape).BroadcastsInDim ⟨2, ![E, 1]⟩ ![0])
    (v : (⟨1, ![E]⟩ : Shape).Idx → α) (e : Fin E) :
    broadcastInDim ⟨2, ![E, 1]⟩ ![0] h v (ix2 e (0 : Fin 1)) = v (ix1 e) := by
  have he := e.isLt
  refine broadcastInDim_apply _ h v (ix2 e (0 : Fin 1)) (ix1 e) fun a => ?_
  match a with
  | ⟨0, _⟩ =>
    show e.val = if E = 1 then 0 else e.val
    split <;> omega

/-- A splat reads the one value. -/
theorem splat_idx {α : Type} {s : Shape} (h : (⟨0, ![]⟩ : Shape).BroadcastsInDim s ![])
    (x : (⟨0, ![]⟩ : Shape).Idx → α) (i : s.Idx) : broadcastInDim s ![] h x i = x ix0 :=
  broadcastInDim_apply _ h x i ix0 fun a => a.elim0

/-- The float word of one denotes the number one. -/
theorem ofBits_one_f32 : Ideal.ofBits .f32 0x3F800000#32 = 1 := by
  simp [Ideal.ofBits, Ideal.ieee]
  rw [← EReal.coe_mul, ← EReal.coe_one, EReal.coe_eq_coe_iff]
  norm_num

/-- The host's product of an M × K by a K × N matrix is the same sum over k as the kernel-side product. -/
theorem dot_eq {M K N : Nat} (d : DotDims ⟨2, ![M, K]⟩ ⟨2, ![K, N]⟩ ⟨2, ![M, N]⟩) (hd : d = DotDims.plain M K N)
    (X : Arr2 M K) (W : Arr2 K N) :
    Host.dotGeneral (F := Ideal) (φ₁ := .f32) (φ₂ := .f32) d none X W = mm X W := by
  subst hd
  funext j
  simp only [Host.dotGeneral]
  rw [Ideal.dotGeneral_apply]
  exact (zero_add _).symm

/-- A bias viewed as a 1 × C row and repeated down M rows is the bias broadcast to 1 × C and then to M × C. -/
theorem bias_eq {M C : Nat} (b : (⟨1, ![C]⟩ : Shape).Idx → EReal) (h1 : (⟨1, ![C]⟩ : Shape).ShapeCasts ⟨2, ![1, C]⟩)
    (g1 : (⟨1, ![C]⟩ : Shape).BroadcastsInDim ⟨2, ![1, C]⟩ ![1])
    (g2 : (⟨2, ![1, C]⟩ : Shape).BroadcastsInDim ⟨2, ![M, C]⟩ ![0, 1]) :
    rowB M (shapeCast ⟨2, ![1, C]⟩ b h1) = broadcastInDim ⟨2, ![M, C]⟩ ![0, 1] g2 (broadcastInDim ⟨2, ![1, C]⟩ ![1] g1 b) := by
  funext i
  obtain ⟨v, f, rfl⟩ : ∃ (v : Fin M) (f : Fin C), i = ix2 v f := ⟨i 0, i 1, eq_ix2 i⟩
  have hf := f.isLt
  have row : ∀ (r : Arr2 1 C) (g : (⟨2, ![1, C]⟩ : Shape).BroadcastsInDim ⟨2, ![M, C]⟩ ![0, 1]),
      broadcastInDim ⟨2, ![M, C]⟩ ![0, 1] g r (ix2 v f) = r (ix2 ⟨0, Nat.one_pos⟩ f) := by
    intro r g
    refine broadcastInDim_apply _ g r (ix2 v f) (ix2 ⟨0, Nat.one_pos⟩ f) fun a => ?_
    match a with
    | ⟨0, _⟩ => rfl
    | ⟨1, _⟩ =>
      show f.val = if C = 1 then 0 else f.val
      split <;> omega
  unfold rowB
  rw [row, row]
  have eL : shapeCast ⟨2, ![1, C]⟩ b h1 (ix2 ⟨0, Nat.one_pos⟩ f) = b (ix1 f) := by
    refine shapeCast_apply b h1 (ix2 ⟨0, Nat.one_pos⟩ f) (ix1 f) ?_
    rw [Shape.rowMajor_val_one, Shape.rowMajor_val_two]
    show f.val = 0 * C + f.val
    omega
  have eR : broadcastInDim ⟨2, ![1, C]⟩ ![1] g1 b (ix2 ⟨0, Nat.one_pos⟩ f) = b (ix1 f) := by
    refine broadcastInDim_apply _ g1 b (ix2 ⟨0, Nat.one_pos⟩ f) (ix1 f) fun a => ?_
    match a with
    | ⟨0, _⟩ =>
      show f.val = if C = 1 then 0 else f.val
      split <;> omega
  rw [eL, eR]

/-- A splat of the zero word is zero everywhere. -/
theorem zero_nc {s : Shape} {h : (⟨0, ![]⟩ : Shape).BroadcastsInDim s ![]} (z : (⟨0, ![]⟩ : Shape).Idx → EReal)
    (hz : z = constant (F := Ideal) ⟨0, ![]⟩ .f32 0x00000000#32) (i : s.Idx) :
    broadcastInDim s ![] h z i = 0 := by
  subst hz
  exact (splat_idx h _ i).trans Ideal.ofBits_zero_f32

/-- A splat of the word of one is one everywhere. -/
theorem one_nc {s : Shape} {h : (⟨0, ![]⟩ : Shape).BroadcastsInDim s ![]} (z : (⟨0, ![]⟩ : Shape).Idx → EReal)
    (hz : z = constant (F := Ideal) ⟨0, ![]⟩ .f32 0x3F800000#32) (i : s.Idx) :
    broadcastInDim s ![] h z i = 1 := by
  subst hz
  exact (splat_idx h _ i).trans ofBits_one_f32

end Cert.Gcn

end
-- ==== Proof.LibGuardedWeight.lean ====
/-
  Guarded inverse-root weights.

  A scatter-add of ones into zeros counts: at each operand element it is the number n of updates that land there, a
  whole number. The guarded weight  where(count > 0, count^(-1/2), 0)  is then n^(-1/2) where n is positive and 0
  where it is zero: a non-negative real number either way, whatever the index array holds. Such a weight is the kind
  of factor that distributes over a sum on the extended reals. Every shape, and the scatter's dimension numbers, are
  arbitrary.
-/
import Idealize.ShloMosaic.PureOps.Ideal.Laws
import Idealize.ShloMosaic.Lib.ValueIdx
import Idealize.ShloMosaic.Lib.IdealHost
import proofs.«158104_j3221225472371_2_alg».proof.Proof.LibDegree

noncomputable section

namespace Cert.GuardedWeight

open Idealize.ShloMosaic Idealize.ShloMosaic.ValueIdx

/-- A scatter-add of ones into zeros is, at every element, a whole number. -/
theorem count_nat {s si su : Shape} (d : ScatterDims s si su) {w : Nat} (x : s.Idx → EReal) (idx : IVec si w)
    (u : su.Idx → EReal) (hx : ∀ i, x i = 0) (hu : ∀ j, u j = 1) (i : s.Idx) :
    ∃ n : ℕ, Ideal.hostScatterAdd d x idx u i = (n : EReal) := by
  unfold Ideal.hostScatterAdd
  rw [hx, zero_add, Degree.sum_ones _ u hu]
  exact ⟨_, rfl⟩

/-- For a count n: n^(-1/2) where n is positive, 0 where it is zero — a non-negative real either way. -/
theorem weight_ok (n : ℕ) :
    0 ≤ Scalar.select (Ideal.cmp .ogt (n : EReal) 0) (Ideal.rsqrt (n : EReal)) (0 : EReal)
      ∧ Scalar.select (Ideal.cmp .ogt (n : EReal) 0) (Ideal.rsqrt (n : EReal)) (0 : EReal) ≠ ⊤ := by
  rcases Nat.eq_zero_or_pos n with rfl | hn
  · have h : Ideal.cmp .ogt ((0 : ℕ) : EReal) 0 = 0#1 := by simp [Ideal.cmp]
    rw [h]
    unfold Scalar.select
    simp
  · unfold Scalar.select
    split
    · exact Degree.rsqrt_nat hn
    · exact ⟨le_refl _, EReal.zero_ne_top⟩

/-- The guarded weight  where(count > 0, count^(-1/2), 0)  is a non-negative real at every element. -/
theorem guarded {s si su : Shape} (d : ScatterDims s si su) (idx : IVec si 32) (Z : FVec Ideal s .f32) (hZ : ∀ i, Z i = 0)
    (U : FVec Ideal su .f32) (hU : ∀ j, U j = 1) (Zc Zs : FVec Ideal s .f32) (hZc : ∀ i, Zc i = 0) (hZs : ∀ i, Zs i = 0)
    (i : s.Idx) :
    0 ≤ select (cmpf (F := Ideal) (φ := .f32) .ogt (Host.scatterAdd (F := Ideal) (φ := .f32) d Z idx U) Zc)
          (Host.rsqrt (F := Ideal) (φ := .f32) (Host.scatterAdd (F := Ideal) (φ := .f32) d Z idx U)) Zs i
      ∧ select (cmpf (F := Ideal) (φ := .f32) .ogt (Host.scatterAdd (F := Ideal) (φ := .f32) d Z idx U) Zc)
          (Host.rsqrt (F := Ideal) (φ := .f32) (Host.scatterAdd (F := Ideal) (φ := .f32) d Z idx U)) Zs i ≠ ⊤ := by
  obtain ⟨n, hn⟩ : ∃ n : ℕ, Host.scatterAdd (F := Ideal) (φ := .f32) d Z idx U i = (n : EReal) :=
    count_nat d Z idx U hZ hU i
  have e : select (cmpf (F := Ideal) (φ := .f32) .ogt (Host.scatterAdd (F := Ideal) (φ := .f32) d Z idx U) Zc)
      (Host.rsqrt (F := Ideal) (φ := .f32) (Host.scatterAdd (F := Ideal) (φ := .f32) d Z idx U)) Zs i
      = Scalar.select (Ideal.cmp .ogt (n : EReal) 0) (Ideal.rsqrt (n : EReal)) 0 := by
    show Scalar.select (Ideal.cmp .ogt (Host.scatterAdd (F := Ideal) (φ := .f32) d Z idx U i) (Zc i))
      (Ideal.rsqrt (Host.scatterAdd (F := Ideal) (φ := .f32) d Z idx U i)) (Zs i) = _
    rw [hn, hZc, hZs]
  rw [e]
  exact weight_ok n

end Cert.GuardedWeight

end
-- ==== Proof.BridgeW.lean ====
/-
  The node weights, and the edges' targets.

  The weight of node v is d v = n^(-1/2) where the number n of edges landing on v (a scatter-add of ones into zeros:
  a count) is positive, and 0 where it is zero. A count is a whole number, so d v is a non-negative real number
  either way: the kind of factor that distributes over a sum on the extended reals.

  The reference gathers d at an edge's target after wrapping a negative index and clamping. An edge that the
  scatter-add lands on node v has target index v itself, in range, which the wrap and the clamp leave alone.
-/
import proofs.«158104_j3221225472371_2_alg».proof.Proof.KernelTerm
import proofs.«158104_j3221225472371_2_alg».proof.Proof.LibGcnLaw
import proofs.«158104_j3221225472371_2_alg».proof.Proof.LibGuardedWeight

noncomputable section

namespace Cert.KernelIdeal.Hand

open Cert.KernelIdeal Cert.KernelIdeal.Facts₀ Cert.KernelIdeal.Facts
open Idealize.ShloMosaic Idealize.ShloMosaic.ValueIdx Cert.Gcn Cert.Tile
open Cert.ReferenceIdeal.ReadP

variable (a0 : (⟨S50000, .i32⟩ : BufTy).Contents (Elt Ideal)) (a1 : (⟨S2x800000, .i32⟩ : BufTy).Contents (Elt Ideal))
  (a2 : (⟨S50000, .i32⟩ : BufTy).Contents (Elt Ideal)) (a3 : (⟨S100000x64, .f32⟩ : BufTy).Contents (Elt Ideal))
  (a4 : (⟨S64x64, .f32⟩ : BufTy).Contents (Elt Ideal)) (a5 : (⟨S64, .f32⟩ : BufTy).Contents (Elt Ideal))
  (a6 : (⟨S64x64, .f32⟩ : BufTy).Contents (Elt Ideal)) (a7 : (⟨S64, .f32⟩ : BufTy).Contents (Elt Ideal))
  (a8 : (⟨S64x2, .f32⟩ : BufTy).Contents (Elt Ideal)) (a9 : (⟨S2, .f32⟩ : BufTy).Contents (Elt Ideal))

/-- The weight of node v is a non-negative real: the degree is a count of ones, and the weight is the guarded
    inverse root of a count. -/
theorem dinv_ok (v : Fin 50000) :
    0 ≤ val_main_v14 (F := Ideal) a1 (ix1 v) ∧ val_main_v14 (F := Ideal) a1 (ix1 v) ≠ ⊤ :=
  GuardedWeight.guarded Cert.ReferenceIdeal.scatter_S50000_S850000x1_S850000_n_0_0_1 (val_main_v9 (F := Ideal) a1)
    (val_main_v8 (F := Ideal)) (fun i => Gcn.zero_nc _ rfl i) (val_main_v7 (F := Ideal)) (fun j => Gcn.one_nc _ rfl j)
    (val_main_v11 (F := Ideal)) (val_main_call0_v1 (F := Ideal)) (fun i => Gcn.zero_nc _ rfl i) (fun i => Gcn.zero_nc _ rfl i)
    (ix1 v)

/-- An edge whose target index, read signed, is node v has v as its wrapped and clamped target: the target list as a
    one-column index array reads the list's entry, and so does the wrapped list. -/
theorem target_ok (e : Fin 850000) (v : Fin 50000)
    (h : (val_main_v49 (F := Ideal) a1 (ix2 e (0 : Fin 1))).toInt = (v.val : Int)) :
    GatherRows.clampRow 50000 (by norm_num) (val_main_v27 (F := Ideal) a1 (ix2 e (0 : Fin 1))) = v := by
  have i49 : idx_main_v49 (ix2 e (0 : Fin 1)) = ix1 e := funext fun a => by
    match a with
    | ⟨0, _⟩ => rfl
  have i27 : idx_main_v27 (ix2 e (0 : Fin 1)) = ix1 e := funext fun a => by
    match a with
    | ⟨0, _⟩ => rfl
  rw [val_main_v49_apply, i49] at h
  rw [val_main_v27_apply, i27, val_main_v26_apply, val_main_v23_apply, val_main_v25_apply, val_main_v22_apply,
    val_main_v24_apply, val_main_c_4_apply, val_main_c_5_apply]
  generalize val_main_v6 (F := Ideal) a1 (ix1 e) = d at h ⊢
  exact Gcn.wrap_clamp (by norm_num) 50000#32 d v h

end Cert.KernelIdeal.Hand

end
-- ==== Proof.BridgeS.lean ====
/-
  The neighbourhood sum, two ways.

  With H a layer's dense product (node features times the weight matrix), d the node weights and an edge list with
  sources src and targets dst: the kernel scales row u of H by d u, gathers the rows at the sources, adds them up at
  the targets and scales row v of the sums by d v; the reference gathers the rows of H itself and multiplies each by
  d (src e) · d (dst e) before adding them up. On an edge that lands on v the factor d (dst e) is d v, and d v is a
  non-negative real, so it comes out of the sum at v: the two are one array.

  Before that, the same few functions in two spellings: written with +, · and max entry by entry (as the row-tile
  lemmas have them) and written with the vector operations (as the law and the reference have them). These hold for
  any arrays, by unfolding.
-/
import proofs.«158104_j3221225472371_2_alg».proof.Proof.BridgeW

noncomputable section

namespace Cert.KernelIdeal.Hand

open Cert.KernelIdeal Cert.KernelIdeal.Facts₀ Cert.KernelIdeal.Facts
open Idealize.ShloMosaic Idealize.ShloMosaic.ValueIdx Cert.Gcn Cert.Tile
open Cert.ReferenceIdeal.ReadP

variable (a0 : (⟨S50000, .i32⟩ : BufTy).Contents (Elt Ideal)) (a1 : (⟨S2x800000, .i32⟩ : BufTy).Contents (Elt Ideal))
  (a2 : (⟨S50000, .i32⟩ : BufTy).Contents (Elt Ideal)) (a3 : (⟨S100000x64, .f32⟩ : BufTy).Contents (Elt Ideal))
  (a4 : (⟨S64x64, .f32⟩ : BufTy).Contents (Elt Ideal)) (a5 : (⟨S64, .f32⟩ : BufTy).Contents (Elt Ideal))
  (a6 : (⟨S64x64, .f32⟩ : BufTy).Contents (Elt Ideal)) (a7 : (⟨S64, .f32⟩ : BufTy).Contents (Elt Ideal))
  (a8 : (⟨S64x2, .f32⟩ : BufTy).Contents (Elt Ideal)) (a9 : (⟨S2, .f32⟩ : BufTy).Contents (Elt Ideal))

/-! ## Two spellings of the dense steps -/

theorem scaled_eq {M K N : Nat} (X : Arr2 M K) (W : Arr2 K N) (d : Arr2 M 1) :
    scaled X W d = mulf (F := Ideal) (φ := .f32) (mm X W) (colB N d) := rfl

theorem act_eq {M C : Nat} (A : Arr2 M C) (d : Arr2 M 1) (b : Arr2 1 C) :
    act A d b = maximumf (F := Ideal) (φ := .f32)
      (addf (F := Ideal) (φ := .f32) (mulf (F := Ideal) (φ := .f32) A (colB C d)) (rowB M b)) (zeroB M C) := rfl

theorem pooled_eq {G K N : Nat} (S : Arr2 G K) (n : Arr2 G 1) (W : Arr2 K N) (b : Arr2 1 N) :
    pooled S n W b = addf (F := Ideal) (φ := .f32)
      (mm (Host.divf (F := Ideal) (φ := .f32) S (colB K (maximumf (F := Ideal) (φ := .f32) n (oneB G 1)))) W) (rowB G b) := rfl

/-! ## The law -/

/-- The reference's neighbourhood sum of a layer whose dense product is H: every gathered row times the edge's
    weight d (src) · d (dst), added up at the edges' targets. -/
def refSum (H : Arr2 50000 64) : Arr2 50000 64 :=
  Host.scatterAdd (F := Ideal) (φ := .f32) Cert.ReferenceIdeal.scatter_S50000x64_S850000x1_S850000x64_1_0_0_1
    (val_main_v48 (F := Ideal)) (val_main_v49 (F := Ideal) a1)
    (mulf (F := Ideal) (φ := .f32)
      (Host.gather Cert.ReferenceIdeal.gather_S50000x64_S850000x1_S850000x64_1_0_n_n_0_1_164 H (val_main_v43 (F := Ideal) a1))
      (val_main_v46 (F := Ideal) a1))

/-- The kernel's neighbourhood sum with row v scaled by d v afterwards is the reference's. -/
theorem nsum (H : Arr2 50000 64) :
    mulf (F := Ideal) (φ := .f32)
        (agg (mulf (F := Ideal) (φ := .f32) H (colB 64 (dcol a1))) (val_main_v43 (F := Ideal) a1) (val_main_v49 (F := Ideal) a1))
        (colB 64 (dcol a1))
      = refSum a1 H := by
  have hDc : ∀ v : Fin 50000, dcol a1 (ix2 v (0 : Fin 1)) = val_main_v14 (F := Ideal) a1 (ix1 v) :=
    fun v => RowOps.shapeCast_a_a1_apply _ _ v (0 : Fin 1)
  have hZ : ∀ i, val_main_v48 (F := Ideal) i = 0 := fun i => Gcn.zero_nc _ rfl i
  exact NormSum.scaled_sum (N := 50000) (C := 64) (E := 850000) (by norm_num)
    (Cert.ReferenceIdeal.scatter_S50000x64_S850000x1_S850000x64_1_0_0_1).wf
    (Cert.ReferenceIdeal.gather_S50000x64_S850000x1_S850000x64_1_0_n_n_0_1_164).wf
    (Cert.ReferenceIdeal.gather_S50000_S850000x1_S850000_n_0_n_n_0_1_1).wf
    H (val_main_v48 (F := Ideal)) (val_main_v14 (F := Ideal) a1) (dcol a1) hDc (dinv_ok a1) hZ
    (val_main_v43 (F := Ideal) a1) (val_main_v49 (F := Ideal) a1) (val_main_v27 (F := Ideal) a1)
    (target_ok a1) (bidCol 50000 64)
    Cert.ReferenceIdeal.Gen.bcast_S850000_S850000x1_0 Cert.ReferenceIdeal.Gen.bcast_S850000x1_S850000x64_0_1

end Cert.KernelIdeal.Hand

end
-- ==== Proof.BridgeL.lean ====
/-
  The two layers, the pooling and the classifier: the kernel's whole-array term is the reference's.

  With the neighbourhood sums identified, the rest is the same functions spelt twice: a bias row repeated down the
  rows, a cut-off at zero, a product with a weight matrix as a sum over the contracted index, the per-graph sums and
  counts, the counts guarded at one and repeated across the columns, a division, the classifier's bias.
-/
import proofs.«158104_j3221225472371_2_alg».proof.Proof.BridgeS

noncomputable section

namespace Cert.KernelIdeal.Hand

open Cert.KernelIdeal Cert.KernelIdeal.Facts₀ Cert.KernelIdeal.Facts
open Idealize.ShloMosaic Idealize.ShloMosaic.ValueIdx Cert.Gcn Cert.Tile
open Cert.ReferenceIdeal.ReadP

variable (a0 : (⟨S50000, .i32⟩ : BufTy).Contents (Elt Ideal)) (a1 : (⟨S2x800000, .i32⟩ : BufTy).Contents (Elt Ideal))
  (a2 : (⟨S50000, .i32⟩ : BufTy).Contents (Elt Ideal)) (a3 : (⟨S100000x64, .f32⟩ : BufTy).Contents (Elt Ideal))
  (a4 : (⟨S64x64, .f32⟩ : BufTy).Contents (Elt Ideal)) (a5 : (⟨S64, .f32⟩ : BufTy).Contents (Elt Ideal))
  (a6 : (⟨S64x64, .f32⟩ : BufTy).Contents (Elt Ideal)) (a7 : (⟨S64, .f32⟩ : BufTy).Contents (Elt Ideal))
  (a8 : (⟨S64x2, .f32⟩ : BufTy).Contents (Elt Ideal)) (a9 : (⟨S2, .f32⟩ : BufTy).Contents (Elt Ideal))

/-! ## Small pieces in both spellings -/

/-- Zero everywhere, in both programs. -/
theorem zero_eq : zeroB 50000 64 = val_main_call1_v0 (F := Ideal) := rfl

/-- A layer's bias row repeated down the rows, in both programs. -/
theorem bias_eq64 (b : (⟨S64, .f32⟩ : BufTy).Contents (Elt Ideal)) :
    rowB 50000 (shapeCast S1x64 b shapeCasts_S64_S1x64) = val_main_v52 (F := Ideal) b :=
  (Gcn.bias_eq (M := 50000) b shapeCasts_S64_S1x64 Cert.ReferenceIdeal.Gen.bcast_S64_S1x64_1 Cert.ReferenceIdeal.Gen.bcast_S1x64_S50000x64_0_1).trans rfl

/-- The classifier's bias row repeated down the rows, in both programs. -/
theorem bias_eq2 : rowB 128 (shapeCast S1x2 a9 shapeCasts_S2_S1x2) = val_main_v87 (F := Ideal) a9 :=
  (Gcn.bias_eq (M := 128) a9 shapeCasts_S2_S1x2 Cert.ReferenceIdeal.Gen.bcast_S2_S1x2_1 Cert.ReferenceIdeal.Gen.bcast_S1x2_S128x2_0_1).trans rfl

/-! ## A layer, and the two layers -/

/-- A layer finished on the kernel's sums is the reference's sums plus the bias, cut off at zero. -/
theorem layer (H : Arr2 50000 64) (b : (⟨S64, .f32⟩ : BufTy).Contents (Elt Ideal)) :
    act (agg (mulf (F := Ideal) (φ := .f32) H (colB 64 (dcol a1))) (val_main_v43 (F := Ideal) a1) (val_main_v49 (F := Ideal) a1))
        (dcol a1) (shapeCast S1x64 b shapeCasts_S64_S1x64)
      = maximumf (F := Ideal) (φ := .f32)
          (addf (F := Ideal) (φ := .f32) (refSum a1 H) (val_main_v52 (F := Ideal) b)) (val_main_call1_v0 (F := Ideal)) := by
  rw [act_eq, nsum, bias_eq64, zero_eq]

/-- The first layer's activations. -/
theorem layer1 :
    act (sum1 a0 a1 a3 a4) (dcol a1) (shapeCast S1x64 a5 shapeCasts_S64_S1x64)
      = val_main_v54 (F := Ideal) a0 a1 a3 a4 a5 := by
  have hH : val_main_v37 (F := Ideal) a0 a3 a4 = mm (feat a0 a3) a4 := Gcn.dot_eq _ rfl _ _
  unfold sum1 lay0
  rw [scaled_eq, layer, ← hH]
  rfl

/-- The second layer's activations. -/
theorem layer2 :
    lay2 a0 a1 a3 a4 a5 a6 a7 = val_main_v72 (F := Ideal) a0 a1 a3 a4 a5 a6 a7 := by
  have hH : val_main_v55 (F := Ideal) a0 a1 a3 a4 a5 a6 = mm (val_main_v54 (F := Ideal) a0 a1 a3 a4 a5) a6 :=
    Gcn.dot_eq _ rfl _ _
  unfold lay2 sum2 lay1
  rw [layer1, scaled_eq, layer, ← hH]
  rfl

/-! ## Pooling and the classifier -/

/-- The per-graph sums, in both programs. -/
theorem gsum_eq : gsum a0 a1 a2 a3 a4 a5 a6 a7 = val_main_v75 (F := Ideal) a0 a1 a2 a3 a4 a5 a6 a7 := by
  unfold gsum
  rw [layer2]
  rfl

/-- The counts guarded at one and repeated across the columns are the reference's divisor. -/
theorem divisor :
    colB 64 (maximumf (F := Ideal) (φ := .f32) (gcnt a2) (oneB 128 1)) = val_main_v83 (F := Ideal) a2 := by
  funext j
  obtain ⟨g, q, rfl⟩ : ∃ (g : Fin 128) (q : Fin 64), j = ix2 g q := ⟨j 0, j 1, eq_ix2 j⟩
  have hg : gcnt a2 (ix2 g (0 : Fin 1)) = val_main_v79 (F := Ideal) a2 (ix1 g) :=
    RowOps.shapeCast_a_a1_apply _ _ g (0 : Fin 1)
  have e1 : oneB 128 1 (ix2 g (0 : Fin 1)) = 1 := Gcn.one_nc _ rfl _
  have e2 : val_main_v80 (F := Ideal) (ix1 g) = 1 := Gcn.one_nc _ rfl _
  have eL : colB 64 (maximumf (F := Ideal) (φ := .f32) (gcnt a2) (oneB 128 1)) (ix2 g q)
      = max (val_main_v79 (F := Ideal) a2 (ix1 g)) (1 : EReal) := by
    refine (NormSum.col_apply (bidCol 128 64) _ g q).trans ?_
    rw [maximumf_apply, hg, e1]
  have eR : val_main_v83 (F := Ideal) a2 (ix2 g q)
      = max (val_main_v79 (F := Ideal) a2 (ix1 g)) (1 : EReal) := by
    refine (NormSum.vec_col_apply Cert.ReferenceIdeal.Gen.bcast_S128_S128x1_0 Cert.ReferenceIdeal.Gen.bcast_S128x1_S128x64_0_1
      (val_main_v81 (F := Ideal) a2) g q).trans ?_
    rw [val_main_v81_apply, e2, Ideal.maximumf_def]
  rw [eL, eR]

/-- The kernel's result is the reference's. -/
theorem result_eq :
    result a0 a1 a2 a3 a4 a5 a6 a7 a8 a9 = val_main_v88 (F := Ideal) a0 a1 a2 a3 a4 a5 a6 a7 a8 a9 := by
  have hD : val_main_v85 (F := Ideal) a0 a1 a2 a3 a4 a5 a6 a7 a8
      = mm (val_main_v84 (F := Ideal) a0 a1 a2 a3 a4 a5 a6 a7) a8 := Gcn.dot_eq _ rfl _ _
  have h84 : Host.divf (F := Ideal) (φ := .f32) (val_main_v75 (F := Ideal) a0 a1 a2 a3 a4 a5 a6 a7) (val_main_v83 (F := Ideal) a2)
      = val_main_v84 (F := Ideal) a0 a1 a2 a3 a4 a5 a6 a7 := rfl
  unfold result
  rw [pooled_eq, gsum_eq, divisor, bias_eq2, h84, ← hD]
  rfl

end Cert.KernelIdeal.Hand

end
-- ==== Proof.lean ====
/-
  A two-layer graph convolution with mean pooling and a linear classifier: the tiled kernel against the plain reference.

  Both programs take node tokens, an edge list, a graph assignment, an embedding table and the layers' weights. Both
  append a self-loop per node to the edge list, count the edges landing on each node, and take as the node's weight
  d v the count to the power -1/2 (0 where the count is zero); both look up the node features.

  A layer of the reference multiplies the features by the weight matrix, gathers the rows at the edges' sources,
  multiplies every gathered row by d (src e) · d (dst e), adds the rows up at the edges' targets, adds the bias and
  cuts off at zero. The kernel computes the product 2000 rows at a time and scales row u by d u on the way out; the
  host gathers and adds up those rows with no per-edge factor; the next kernel scales row v of the sums by d v, adds
  the bias and cuts off at zero, 2000 rows at a time. Row v of each dense step depends on row v of its row-wise
  operands only, so the 25 row blocks assemble to the whole arrays' functions; and d v, a non-negative real, comes out
  of the sum over the edges landing on v, on which d (dst e) is d v. So both programs compute the same activations.
  The pooling — per-graph sums divided by the per-graph counts guarded at one — and the classifier are the same
  function in both programs, the kernel's in one block.

  At the exact extended reals a change of float format is the identity, a product with a weight matrix is the sum
  over the contracted index however it is tiled, and the two results are equal element by element. Each program
  terminates without a fault and leaves its arguments as launched; the idealized kernel is the kernel's own text read
  at exact values, so there is nothing to restate between them.
-/
import proofs.«158104_j3221225472371_2_alg».proof.Defs
import proofs.«158104_j3221225472371_2_alg».proof.Proof.Gen.Kernel
import proofs.«158104_j3221225472371_2_alg».proof.Proof.Gen.Kernel.Frame
import proofs.«158104_j3221225472371_2_alg».proof.Proof.Gen.KernelIdeal
import proofs.«158104_j3221225472371_2_alg».proof.Proof.Gen.KernelIdeal.Frame
import proofs.«158104_j3221225472371_2_alg».proof.Proof.Gen.ReferenceIdeal
import proofs.«158104_j3221225472371_2_alg».proof.Proof.Gen.Pre_finite_inputs
import proofs.«158104_j3221225472371_2_alg».proof.Proof.RefRunP
import proofs.«158104_j3221225472371_2_alg».proof.Proof.RefReadP
import proofs.«158104_j3221225472371_2_alg».proof.Proof.RunValue
import proofs.«158104_j3221225472371_2_alg».proof.Proof.Boundaries
import proofs.«158104_j3221225472371_2_alg».proof.Proof.BridgeL
import Idealize.ShloMosaic.Adequacy
import Idealize.ShloMosaic.Init

noncomputable section

namespace Cert.Proof

open Idealize.ShloMosaic Idealize.SL.Sem

/-- The kernel as compiled runs to the end without a fault and leaves its arguments as launched. -/
theorem frame_k : Cert.frame_Kernel := fun m ρ _ => Cert.Kernel.Gen.frame m ρ

/-- So does the kernel read at exact values. -/
theorem frame_ki : Cert.frame_KernelIdeal := fun m ρ _ => Cert.KernelIdeal.Gen.frame m ρ

/-- So does the reference: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The idealized kernel is the kernel's own text: no operation was rewritten. -/
theorem preserves : Cert.preserves_Kernel_KernelIdeal := trivial

/-- From memories agreeing on the arguments both idealized programs end with the same result array: the kernel's
    run ends at the last boundary's contents, which are the kernel's whole-array term of the arguments; the reference's
    run ends at its composed term, which is its last stage; and the two are one function of the arguments. -/
theorem algebraic : Cert.algebraic_KernelIdeal_ReferenceIdeal := by
  intro m ρ m' ρ' _ hagree
  refine ⟨fun c => Cert.KernelIdeal.Hand.result (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9)), ?_, ?_⟩
  · exact (θ_run Cert.KernelIdeal.defs _ _).mono
      (fun _ h c => ⟨(h c).1.trans (Cert.KernelIdeal.Hand.W10_v59 m ρ c), (h c).2⟩)
      (Cert.KernelIdeal.Hand.run_value (F := Ideal) m ρ)
  · refine (θ_run Cert.ReferenceIdeal.defs _ _).mono (fun _ h c => ⟨(h c).1.trans ?_, (h c).2⟩)
      (Cert.ReferenceIdeal.ValueP.run (F := Ideal) m' ρ')
    obtain ⟨h0, h1, h2, h3, h4, h5, h6, h7, h8, h9⟩ := hagree c
    refine (Cert.ReferenceIdeal.ReadP.val_main_v88_eq m' c).trans ?_
    rw [h0, h1, h2, h3, h4, h5, h6, h7, h8, h9]
    exact (Cert.KernelIdeal.Hand.result_eq _ _ _ _ _ _ _ _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
